-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v124_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S2x128 : Shape := ⟨2, ![2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg5 : FVec F S2x128 .f32) (main_arg6 : FVec F S2x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg6
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S3x128x128 .f32) (main_arg3 : FVec F S3x128 .f32) (main_arg4 : FVec F S3x128x128 .f32) (main_arg5 : FVec F S2x128 .f32) (main_arg6 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S2x128 : Shape := ⟨2, ![2, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S160x128 : Shape := ⟨2, ![160, 128]⟩
abbrev S5000x128 : Shape := ⟨2, ![5000, 128]⟩
abbrev S5000x1 : Shape := ⟨2, ![5000, 1]⟩
abbrev S8x128 : Shape := ⟨2, ![8, 128]⟩
abbrev S20x8x128 : Shape := ⟨3, ![20, 8, 128]⟩
abbrev S20x1x128 : Shape := ⟨3, ![20, 1, 128]⟩
abbrev S20x128 : Shape := ⟨2, ![20, 128]⟩
abbrev S10000x128 : Shape := ⟨2, ![10000, 128]⟩

abbrev nBuf : Space → Nat
  | .hbm => 163
  | .vmem => 57
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S3x128, .f32⟩
  | 4 => ⟨S3x128x128, .f32⟩
  | 5 => ⟨S2x128, .f32⟩
  | 6 => ⟨S2x128, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000x1, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S1x128x128, .f32⟩
  | 38 => ⟨S128x128, .f32⟩
  | 39 => ⟨S1x128, .f32⟩
  | 40 => ⟨S128, .f32⟩
  | 41 => ⟨S1x128x128, .f32⟩
  | 42 => ⟨S128x128, .f32⟩
  | 43 => ⟨S1x128, .f32⟩
  | 44 => ⟨S100000x128, .f32⟩
  | 45 => ⟨S160x128, .f32⟩
  | 46 => ⟨S160x128, .f32⟩
  | 47 => ⟨S20x8x128, .f32⟩
  | 48 => ⟨S20x1x128, .f32⟩
  | 49 => ⟨S20x128, .f32⟩
  | 50 => ⟨S_, .f32⟩
  | 51 => ⟨S128, .f32⟩
  | 52 => ⟨S20x8x128, .f32⟩
  | 53 => ⟨S20x1x128, .f32⟩
  | 54 => ⟨S20x128, .f32⟩
  | 55 => ⟨S_, .f32⟩
  | 56 => ⟨S128, .f32⟩
  | 57 => ⟨S_, .f32⟩
  | 58 => ⟨S128, .f32⟩
  | 59 => ⟨S128, .f32⟩
  | 60 => ⟨S_, .f32⟩
  | 61 => ⟨S128, .f32⟩
  | 62 => ⟨S128, .f32⟩
  | 63 => ⟨S128, .f32⟩
  | 64 => ⟨S128, .f32⟩
  | 65 => ⟨S_, .f32⟩
  | 66 => ⟨S128, .f32⟩
  | 67 => ⟨S128, .f32⟩
  | 68 => ⟨S_, .f32⟩
  | 69 => ⟨S128, .f32⟩
  | 70 => ⟨S128, .f32⟩
  | 71 => ⟨S128, .f32⟩
  | 72 => ⟨S1x128, .f32⟩
  | 73 => ⟨S128, .f32⟩
  | 74 => ⟨S128, .f32⟩
  | 75 => ⟨S1x128, .f32⟩
  | 76 => ⟨S128, .f32⟩
  | 77 => ⟨S128, .f32⟩
  | 78 => ⟨S128, .f32⟩
  | 79 => ⟨S1x128, .f32⟩
  | 80 => ⟨S1x128, .f32⟩
  | 81 => ⟨S100000x128, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x128, .f32⟩
  | 91 => ⟨S_, .f32⟩
  | 92 => ⟨S100000x128, .f32⟩
  | 93 => ⟨S1600000x1, .i32⟩
  | 94 => ⟨S100000x128, .f32⟩
  | 95 => ⟨S1x128x128, .f32⟩
  | 96 => ⟨S128x128, .f32⟩
  | 97 => ⟨S1x128, .f32⟩
  | 98 => ⟨S128, .f32⟩
  | 99 => ⟨S1x128x128, .f32⟩
  | 100 => ⟨S128x128, .f32⟩
  | 101 => ⟨S1x128, .f32⟩
  | 102 => ⟨S100000x128, .f32⟩
  | 103 => ⟨S160x128, .f32⟩
  | 104 => ⟨S160x128, .f32⟩
  | 105 => ⟨S20x8x128, .f32⟩
  | 106 => ⟨S20x1x128, .f32⟩
  | 107 => ⟨S20x128, .f32⟩
  | 108 => ⟨S_, .f32⟩
  | 109 => ⟨S128, .f32⟩
  | 110 => ⟨S20x8x128, .f32⟩
  | 111 => ⟨S20x1x128, .f32⟩
  | 112 => ⟨S20x128, .f32⟩
  | 113 => ⟨S_, .f32⟩
  | 114 => ⟨S128, .f32⟩
  | 115 => ⟨S_, .f32⟩
  | 116 => ⟨S128, .f32⟩
  | 117 => ⟨S128, .f32⟩
  | 118 => ⟨S_, .f32⟩
  | 119 => ⟨S128, .f32⟩
  | 120 => ⟨S128, .f32⟩
  | 121 => ⟨S128, .f32⟩
  | 122 => ⟨S128, .f32⟩
  | 123 => ⟨S_, .f32⟩
  | 124 => ⟨S128, .f32⟩
  | 125 => ⟨S128, .f32⟩
  | 126 => ⟨S_, .f32⟩
  | 127 => ⟨S128, .f32⟩
  | _ => ⟨S100000x128, .f32⟩

abbrev hbmTy0_1 (i : Nat) : BufTy := match i % 128 with
  | 0 => ⟨S128, .f32⟩
  | 1 => ⟨S128, .f32⟩
  | 2 => ⟨S1x128, .f32⟩
  | 3 => ⟨S128, .f32⟩
  | 4 => ⟨S128, .f32⟩
  | 5 => ⟨S1x128, .f32⟩
  | 6 => ⟨S128, .f32⟩
  | 7 => ⟨S128, .f32⟩
  | 8 => ⟨S128, .f32⟩
  | 9 => ⟨S1x128, .f32⟩
  | 10 => ⟨S1x128, .f32⟩
  | 11 => ⟨S100000x128, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S1x128x128, .f32⟩
  | 26 => ⟨S128x128, .f32⟩
  | 27 => ⟨S1x128, .f32⟩
  | 28 => ⟨S128, .f32⟩
  | 29 => ⟨S1x128x128, .f32⟩
  | 30 => ⟨S128x128, .f32⟩
  | 31 => ⟨S1x128, .f32⟩
  | 32 => ⟨S100000x128, .f32⟩
  | 33 => ⟨S160x128, .f32⟩
  | 34 => ⟨S160x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S1x128, .f32⟩
  | .local _ .vmem, ⟨19, _⟩ => ⟨S10000x128, .f32⟩
  | .local _ .vmem, ⟨20, _⟩ => ⟨S10000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S5000x128, .f32⟩
  | .local _ .vmem, ⟨31, _⟩ => ⟨S5000x128, .f32⟩
  | .local _ .vmem, ⟨32, _⟩ => ⟨S8x128, .f32⟩
  | .local _ .vmem, ⟨33, _⟩ => ⟨S8x128, .f32⟩
  | .local _ .vmem, ⟨34, _⟩ => ⟨S8x128, .f32⟩
  | .local _ .vmem, ⟨35, _⟩ => ⟨S8x128, .f32⟩
  | .local _ .vmem, ⟨36, _⟩ => ⟨S10000x128, .f32⟩
  | .local _ .vmem, ⟨37, _⟩ => ⟨S10000x128, .f32⟩
  | .local _ .vmem, ⟨38, _⟩ => ⟨S1x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | .local _ .vmem, ⟨42, _⟩ => ⟨S5000x128, .f32⟩
  | .local _ .vmem, ⟨43, _⟩ => ⟨S5000x128, .f32⟩
  | .local _ .vmem, ⟨44, _⟩ => ⟨S5000x1, .f32⟩
  | .local _ .vmem, ⟨45, _⟩ => ⟨S5000x1, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S5000x128, .f32⟩
  | .local _ .vmem, ⟨52, _⟩ => ⟨S5000x128, .f32⟩
  | .local _ .vmem, ⟨53, _⟩ => ⟨S8x128, .f32⟩
  | .local _ .vmem, ⟨54, _⟩ => ⟨S8x128, .f32⟩
  | .local _ .vmem, ⟨55, _⟩ => ⟨S8x128, .f32⟩
  | .local _ .vmem, ⟨56, _⟩ => ⟨S8x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77_0 : Ref sig .tc := ⟨.hbm, 102, rfl⟩
abbrev main_v77_1 : Ref sig .tc := ⟨.hbm, 103, rfl⟩
abbrev main_v77_2 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_15 : Ref sig .tc := ⟨.hbm, 113, rfl⟩
abbrev main_v85 : Ref sig .tc := ⟨.hbm, 114, rfl⟩
abbrev main_cst_16 : Ref sig .tc := ⟨.hbm, 115, rfl⟩
abbrev main_v86 : Ref sig .tc := ⟨.hbm, 116, rfl⟩
abbrev main_v87 : Ref sig .tc := ⟨.hbm, 117, rfl⟩
abbrev main_cst_17 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_18 : Ref sig .tc := ⟨.hbm, 123, rfl⟩
abbrev main_v92 : Ref sig .tc := ⟨.hbm, 124, rfl⟩
abbrev main_v93 : Ref sig .tc := ⟨.hbm, 125, rfl⟩
abbrev main_cst_19 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_c_20 : Ref sig .tc := ⟨.hbm, 140, rfl⟩
abbrev main_v107 : Ref sig .tc := ⟨.hbm, 141, rfl⟩
abbrev main_v108 : Ref sig .tc := ⟨.hbm, 142, rfl⟩
abbrev main_c_21 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_22 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124_0 : Ref sig .tc := ⟨.hbm, 160, rfl⟩
abbrev main_v124_1 : Ref sig .tc := ⟨.hbm, 161, rfl⟩
abbrev main_v124_2 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg3_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg6_1 : Ref sig .tc := ⟨.vmem, 52, rfl⟩
abbrev cc4_stg7_0 : Ref sig .tc := ⟨.vmem, 53, rfl⟩
abbrev cc4_stg7_1 : Ref sig .tc := ⟨.vmem, 54, rfl⟩
abbrev cc4_stg8_0 : Ref sig .tc := ⟨.vmem, 55, rfl⟩
abbrev cc4_stg8_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem3_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem6_1 : DmaSem sig := 52
abbrev cc4_sem7_0 : DmaSem sig := 53
abbrev cc4_sem7_1 : DmaSem sig := 54
abbrev cc4_sem8_0 : DmaSem sig := 55
abbrev cc4_sem8_1 : DmaSem sig := 56

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S8x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S8x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S8x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  shapeCasts_S160x128_S20x8x128 : S160x128.ShapeCasts S20x8x128
  slices_S20x8x128_S20x1x128_0_0_0 : S20x8x128.Slices ![0, 0, 0] S20x1x128
  shapeCasts_S20x1x128_S20x128 : S20x1x128.ShapeCasts S20x128
  reducesTo_S20x128_S128_d0 : S20x128.ReducesTo [0] S128
  h_S_ : 0 < S_.numel
  bcast_S_S128 : S_.BroadcastsInDim S128 (![] : Fin 0 → Fin S128.rank)
  slices_S2x128_S1x128_0_0 : S2x128.Slices ![0, 0] S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3x128x128_S1x128x128_2_0_0 : S3x128x128.Slices ![2, 0, 0] S1x128x128
  slices_S3x128_S1x128_2_0 : S3x128.Slices ![2, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S160x128.size a
  hwx0_7 : ∀ i : grid0.Coords, EltTy.bits .f32 = 32 ∨ (Rect.block (s := S160x128) S8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S160x128.size a
  hwx0_8 : ∀ i : grid0.Coords, EltTy.bits .f32 = 32 ∨ (Rect.block (s := S160x128) S8x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x128.size a ≤ S160x128.size a
  hwx2_7 : ∀ i : grid2.Coords, EltTy.bits .f32 = 32 ∨ (Rect.block (s := S160x128) S8x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8x128.size a ≤ S160x128.size a
  hwx2_8 : ∀ i : grid2.Coords, EltTy.bits .f32 = 32 ∨ (Rect.block (s := S160x128) S8x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8x128.size a ≤ S160x128.size a
  hwx4_7 : ∀ i : grid4.Coords, EltTy.bits .f32 = 32 ∨ (Rect.block (s := S160x128) S8x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S8x128.size a ≤ S160x128.size a
  hwx4_8 : ∀ i : grid4.Coords, EltTy.bits .f32 = 32 ∨ (Rect.block (s := S160x128) S8x128.size (cc4_transform_8 i) (hinb4_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v30_1) S8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v30_2) S8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v30_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v69) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v71) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v77_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v77_1) S8x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v77_2) S8x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v77_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v104) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v105) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v106) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v116) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v106) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v118) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v123) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v122) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v124_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v124_1) S8x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v124_2) S8x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S2x128 : Shape := ⟨2, ![2, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1600000x128 : Shape := ⟨2, ![1600000, 128]⟩

abbrev nBuf : Space → Nat
  | .hbm => 179
  | .vmem => 0
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S3x128, .f32⟩
  | 4 => ⟨S3x128x128, .f32⟩
  | 5 => ⟨S2x128, .f32⟩
  | 6 => ⟨S2x128, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000x1, .f32⟩
  | 24 => ⟨S1x128x128, .f32⟩
  | 25 => ⟨S128x128, .f32⟩
  | 26 => ⟨S1x128, .f32⟩
  | 27 => ⟨S128, .f32⟩
  | 28 => ⟨S1x128x128, .f32⟩
  | 29 => ⟨S128x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S100000x128, .f32⟩
  | 50 => ⟨S100000x128, .f32⟩
  | 51 => ⟨S1x128, .f32⟩
  | 52 => ⟨S128, .f32⟩
  | 53 => ⟨S1x128, .f32⟩
  | 54 => ⟨S128, .f32⟩
  | 55 => ⟨S_, .f32⟩
  | 56 => ⟨S128, .f32⟩
  | 57 => ⟨S_, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S100000x128, .f32⟩
  | 64 => ⟨S_, .f32⟩
  | 65 => ⟨S128, .f32⟩
  | 66 => ⟨S_, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S1x128x128, .f32⟩
  | 89 => ⟨S128x128, .f32⟩
  | 90 => ⟨S1x128, .f32⟩
  | 91 => ⟨S128, .f32⟩
  | 92 => ⟨S1x128x128, .f32⟩
  | 93 => ⟨S128x128, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S100000x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S100000x128, .f32⟩
  | 114 => ⟨S100000x128, .f32⟩
  | 115 => ⟨S1x128, .f32⟩
  | 116 => ⟨S128, .f32⟩
  | 117 => ⟨S1x128, .f32⟩
  | 118 => ⟨S128, .f32⟩
  | 119 => ⟨S_, .f32⟩
  | 120 => ⟨S128, .f32⟩
  | 121 => ⟨S_, .f32⟩
  | 122 => ⟨S128, .f32⟩
  | 123 => ⟨S128, .f32⟩
  | 124 => ⟨S1x128, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S1x128, .f32⟩
  | 6 => ⟨S100000x128, .f32⟩
  | 7 => ⟨S100000x128, .f32⟩
  | 8 => ⟨S_, .f32⟩
  | 9 => ⟨S128, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S1x128x128, .f32⟩
  | 25 => ⟨S128x128, .f32⟩
  | 26 => ⟨S1x128, .f32⟩
  | 27 => ⟨S128, .f32⟩
  | 28 => ⟨S1x128x128, .f32⟩
  | 29 => ⟨S128x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S100000x128, .f32⟩
  | 50 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call0_cst : Ref sig .tc := ⟨.hbm, 85, rfl⟩
abbrev main_call0_v0 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_10 : Ref sig .tc := ⟨.hbm, 94, rfl⟩
abbrev main_v73 : Ref sig .tc := ⟨.hbm, 95, rfl⟩
abbrev main_v74 : Ref sig .tc := ⟨.hbm, 96, rfl⟩
abbrev main_c_11 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_13 : Ref sig .tc := ⟨.hbm, 119, rfl⟩
abbrev main_v95 : Ref sig .tc := ⟨.hbm, 120, rfl⟩
abbrev main_cst_14 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_15 : Ref sig .tc := ⟨.hbm, 128, rfl⟩
abbrev main_v102 : Ref sig .tc := ⟨.hbm, 129, rfl⟩
abbrev main_cst_16 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_17 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_call1_cst : Ref sig .tc := ⟨.hbm, 149, rfl⟩
abbrev main_call1_v0 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_c_18 : Ref sig .tc := ⟨.hbm, 158, rfl⟩
abbrev main_v127 : Ref sig .tc := ⟨.hbm, 159, rfl⟩
abbrev main_v128 : Ref sig .tc := ⟨.hbm, 160, rfl⟩
abbrev main_c_19 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_20 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128_S1x128_0_0 : S2x128.Slices ![0, 0] S1x128
  reducesTo_S100000x128_S128_d0 : S100000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3x128x128_S1x128x128_2_0_0 : S3x128x128.Slices ![2, 0, 0] S1x128x128
  slices_S3x128_S1x128_2_0 : S3x128.Slices ![2, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RefDefs.lean ====
/-
  The two quantities of the reference network that every layer shares and that stay opaque throughout:
  the aggregated neighbour sums A(x) of node features x, and the reciprocal degrees d.
-/
import proofs.«148930_j32976758899207_2_alg».proof.Proof.RefReadP

noncomputable section

namespace Cert.ReferenceIdeal.RefValue

open Cert.ReferenceIdeal Cert.ReferenceIdeal.Gen Cert.ReferenceIdeal.ReadP Idealize.ShloMosaic

/-- The aggregated neighbour sums of the node features x: the features gathered along the edges' source nodes and
    added up at the edges' target nodes, starting from 0. -/
def aggR (x1 : (⟨S2x1600000, .i32⟩ : BufTy).Contents (Elt Ideal)) (x : (⟨S100000x128, .f32⟩ : BufTy).Contents (Elt Ideal)) :
    (⟨S100000x128, .f32⟩ : BufTy).Contents (Elt Ideal) :=
  Host.scatterAdd (F := Ideal) (φ := .f32) scatter_S100000x128_S1600000x1_S1600000x128_1_0_0_1 (val_main_v26 (F := Ideal)) (val_main_v27 (F := Ideal) x1)
    (Host.gather gather_S100000x128_S1600000x1_S1600000x128_1_0_n_n_0_1_1128 x (val_main_v24 (F := Ideal) x1))

/-- The reciprocal degrees, one per node, as a column. -/
def dinvR (x1 : (⟨S2x1600000, .i32⟩ : BufTy).Contents (Elt Ideal)) : (⟨S100000x1, .f32⟩ : BufTy).Contents (Elt Ideal) :=
  val_main_v12 (F := Ideal) x1

end Cert.ReferenceIdeal.RefValue

end
-- ==== Proof.Spec.lean ====
/-
  GraphSAGE with mean aggregation: three layers  y = (A · d) Wl + x Wr + b  over 100000 nodes and 128 channels,
  the first two followed by batch normalisation over the nodes (per channel) and max(·, 0).

  Everything is a whole-array function over the extended reals, read index by index.  The aggregated neighbour
  sums A (a function of the node features, through the edge list) and the reciprocal degrees d are parameters:
  both programs compute them by the same operations, so nothing here opens them.

  Two spellings of each stage are given, one per program:
  * the linear stage adds the bias last (linK) or between the two products (linR);
  * the normalisation is either an affine map  y · scale + shift  whose mean and variance come from per-tile
    column sums of y and y² over 20 tiles of 5000 rows, the variance as  E[y²] − E[y]²  clamped at 0 (bnK),
    or  (y − mean) · rsqrt(var + ε) · γ + β  with the variance as the mean squared deviation (bnR).
  That the two agree on finite data is proved elsewhere; this module only states them.
-/
import Idealize.ShloMosaic.PureOps.Ideal
import Idealize.ShloMosaic.Lib.ValueIdx

noncomputable section

namespace Cert.Sage

open Idealize.ShloMosaic Idealize.ShloMosaic.ValueIdx
open scoped BigOperators

/-- Node features: 100000 nodes by 128 channels. -/
abbrev SX : Shape := ⟨2, ![100000, 128]⟩
/-- One value per node, as a column. -/
abbrev SC : Shape := ⟨2, ![100000, 1]⟩

/-- The float word of 0. -/
abbrev c0 : EReal := Ideal.ofBits .f32 0x00000000#32
/-- The float word of 100000, the number of nodes. -/
abbrev cN : EReal := Ideal.ofBits .f32 0x47C35000#32
/-- The float word nearest 10⁻⁵. -/
abbrev cEps : EReal := Ideal.ofBits .f32 0x3727C5AC#32

/-! ## The linear stage -/

/-- (A · d) Wl + x Wr + b, the bias added last: at node r and channel j,
    (Σₖ (A(r,k) · d(r)) · Wl(k,j) + Σₖ x(r,k) · Wr(k,j)) + b(j). -/
def linK (A : SX.Idx → EReal) (dinv : SC.Idx → EReal) (x : SX.Idx → EReal)
    (Wl Wr : Fin 128 → Fin 128 → EReal) (b : Fin 128 → EReal) : SX.Idx → EReal :=
  fun i => ((∑ k : Fin 128, (A (ix2 (⟨(i 0).val, idx2_lt0 i⟩ : Fin 100000) k)
        * dinv (ix2 (⟨(i 0).val, idx2_lt0 i⟩ : Fin 100000) (0 : Fin 1))) * Wl k ⟨(i 1).val, idx2_lt1 i⟩)
      + ∑ k : Fin 128, x (ix2 (⟨(i 0).val, idx2_lt0 i⟩ : Fin 100000) k) * Wr k ⟨(i 1).val, idx2_lt1 i⟩)
    + b ⟨(i 1).val, idx2_lt1 i⟩

theorem linK_apply (A : SX.Idx → EReal) (dinv : SC.Idx → EReal) (x : SX.Idx → EReal)
    (Wl Wr : Fin 128 → Fin 128 → EReal) (b : Fin 128 → EReal) (r : Fin 100000) (j : Fin 128) :
    linK A dinv x Wl Wr b (ix2 r j)
      = ((∑ k : Fin 128, (A (ix2 r k) * dinv (ix2 r (0 : Fin 1))) * Wl k j) + ∑ k : Fin 128, x (ix2 r k) * Wr k j) + b j := rfl

/-- The same with the bias added between the two products:
    (Σₖ (A(r,k) · d(r)) · Wl(k,j) + b(j)) + Σₖ x(r,k) · Wr(k,j). -/
def linR (A : SX.Idx → EReal) (dinv : SC.Idx → EReal) (x : SX.Idx → EReal)
    (Wl Wr : Fin 128 → Fin 128 → EReal) (b : Fin 128 → EReal) : SX.Idx → EReal :=
  fun i => ((∑ k : Fin 128, (A (ix2 (⟨(i 0).val, idx2_lt0 i⟩ : Fin 100000) k)
        * dinv (ix2 (⟨(i 0).val, idx2_lt0 i⟩ : Fin 100000) (0 : Fin 1))) * Wl k ⟨(i 1).val, idx2_lt1 i⟩)
      + b ⟨(i 1).val, idx2_lt1 i⟩)
    + ∑ k : Fin 128, x (ix2 (⟨(i 0).val, idx2_lt0 i⟩ : Fin 100000) k) * Wr k ⟨(i 1).val, idx2_lt1 i⟩

theorem linR_apply (A : SX.Idx → EReal) (dinv : SC.Idx → EReal) (x : SX.Idx → EReal)
    (Wl Wr : Fin 128 → Fin 128 → EReal) (b : Fin 128 → EReal) (r : Fin 100000) (j : Fin 128) :
    linR A dinv x Wl Wr b (ix2 r j)
      = ((∑ k : Fin 128, (A (ix2 r k) * dinv (ix2 r (0 : Fin 1))) * Wl k j) + b j) + ∑ k : Fin 128, x (ix2 r k) * Wr k j := rfl

/-! ## Column statistics by tiles of 5000 rows -/

/-- Row 5000·t + r of the array, for tile t and row r inside the tile. -/
def tileRow (t : Fin 20) (r : Fin 5000) : Fin 100000 := ⟨5000 * t.val + r.val, by have := t.isLt; have := r.isLt; omega⟩

/-- The sum of column j over the 5000 rows of tile t. -/
def tileSum (Y : SX.Idx → EReal) (t : Fin 20) (j : Fin 128) : EReal := ∑ r : Fin 5000, Y (ix2 (tileRow t r) j)

/-- The sum of the squares of column j over the 5000 rows of tile t. -/
def tileSq (Y : SX.Idx → EReal) (t : Fin 20) (j : Fin 128) : EReal :=
  ∑ r : Fin 5000, Y (ix2 (tileRow t r) j) * Y (ix2 (tileRow t r) j)

/-! ## Normalisation, the affine spelling -/

/-- max(y · scale + shift, 0) with a scale and a shift per channel. -/
def affRelu (Y : SX.Idx → EReal) (sc sh : Fin 128 → EReal) : SX.Idx → EReal :=
  fun i => max (Y i * sc ⟨(i 1).val, idx2_lt1 i⟩ + sh ⟨(i 1).val, idx2_lt1 i⟩) c0

theorem affRelu_apply (Y : SX.Idx → EReal) (sc sh : Fin 128 → EReal) (r : Fin 100000) (j : Fin 128) :
    affRelu Y sc sh (ix2 r j) = max (Y (ix2 r j) * sc j + sh j) c0 := rfl

/-- The mean of a channel from its 20 tile sums: their sum over 100000. -/
def muT (s1 : Fin 20 → EReal) : EReal := Ideal.div (∑ t : Fin 20, s1 t) cN

/-- The variance of a channel from its tile sums s1 and tile sums of squares s2: E[y²] − E[y]², clamped below at 0. -/
def varT (s1 s2 : Fin 20 → EReal) : EReal := max (Ideal.div (∑ t : Fin 20, s2 t) cN - muT s1 * muT s1) c0

/-- γ · rsqrt(var + ε). -/
def scaleT (s1 s2 : Fin 20 → EReal) (g : EReal) : EReal := g * Ideal.rsqrt (varT s1 s2 + cEps)

/-- β − mean · scale. -/
def shiftT (s1 s2 : Fin 20 → EReal) (g be : EReal) : EReal := be - muT s1 * scaleT s1 s2 g

/-- The scale of channel j of the array Y. -/
def scaleK (Y : SX.Idx → EReal) (g : Fin 128 → EReal) (j : Fin 128) : EReal :=
  scaleT (fun t => tileSum Y t j) (fun t => tileSq Y t j) (g j)

/-- The shift of channel j of the array Y. -/
def shiftK (Y : SX.Idx → EReal) (g be : Fin 128 → EReal) (j : Fin 128) : EReal :=
  shiftT (fun t => tileSum Y t j) (fun t => tileSq Y t j) (g j) (be j)

/-- max(y · scale + shift, 0), the statistics taken from y itself. -/
def bnK (Y : SX.Idx → EReal) (g be : Fin 128 → EReal) : SX.Idx → EReal :=
  affRelu Y (scaleK Y g) (shiftK Y g be)

/-! ## Normalisation, the centred spelling -/

/-- The mean of column j: the sum over all rows, over 100000. -/
def muR (Y : SX.Idx → EReal) (j : Fin 128) : EReal := Ideal.div (∑ r : Fin 100000, Y (ix2 r j)) cN

/-- The variance of column j: the mean squared deviation from the mean. -/
def varR (Y : SX.Idx → EReal) (j : Fin 128) : EReal :=
  Ideal.div (∑ r : Fin 100000, (Y (ix2 r j) - muR Y j) * (Y (ix2 r j) - muR Y j)) cN

/-- max((y − mean) · rsqrt(var + ε) · γ + β, 0). -/
def bnR (Y : SX.Idx → EReal) (g be : Fin 128 → EReal) : SX.Idx → EReal :=
  fun i => max (((Y i - muR Y ⟨(i 1).val, idx2_lt1 i⟩) * Ideal.rsqrt (varR Y ⟨(i 1).val, idx2_lt1 i⟩ + cEps))
      * g ⟨(i 1).val, idx2_lt1 i⟩ + be ⟨(i 1).val, idx2_lt1 i⟩) c0

theorem bnR_apply (Y : SX.Idx → EReal) (g be : Fin 128 → EReal) (r : Fin 100000) (j : Fin 128) :
    bnR Y g be (ix2 r j) = max (((Y (ix2 r j) - muR Y j) * Ideal.rsqrt (varR Y j + cEps)) * g j + be j) c0 := rfl

/-! ## The three layers -/

/-- The network in the first spelling. agg sends node features to the aggregated neighbour sums; layer ℓ has weights
    Wl ℓ, Wr ℓ and bias b ℓ; the first two layers are normalised with γ = g ℓ, β = be ℓ. -/
def netK (agg : (SX.Idx → EReal) → SX.Idx → EReal) (dinv : SC.Idx → EReal) (x : SX.Idx → EReal)
    (Wl Wr : Fin 3 → Fin 128 → Fin 128 → EReal) (b : Fin 3 → Fin 128 → EReal) (g be : Fin 2 → Fin 128 → EReal) :
    SX.Idx → EReal :=
  let x1 := bnK (linK (agg x) dinv x (Wl 0) (Wr 0) (b 0)) (g 0) (be 0)
  let x2 := bnK (linK (agg x1) dinv x1 (Wl 1) (Wr 1) (b 1)) (g 1) (be 1)
  linK (agg x2) dinv x2 (Wl 2) (Wr 2) (b 2)

/-- The network in the second spelling. -/
def netR (agg : (SX.Idx → EReal) → SX.Idx → EReal) (dinv : SC.Idx → EReal) (x : SX.Idx → EReal)
    (Wl Wr : Fin 3 → Fin 128 → Fin 128 → EReal) (b : Fin 3 → Fin 128 → EReal) (g be : Fin 2 → Fin 128 → EReal) :
    SX.Idx → EReal :=
  let x1 := bnR (linR (agg x) dinv x (Wl 0) (Wr 0) (b 0)) (g 0) (be 0)
  let x2 := bnR (linR (agg x1) dinv x1 (Wl 1) (Wr 1) (b 1)) (g 1) (be 1)
  linR (agg x2) dinv x2 (Wl 2) (Wr 2) (b 2)

end Cert.Sage

end
-- ==== Proof.RefLayer1.lean ====
/-
  The reference network, first layer.

  The reference computes, for node features x, the aggregated neighbour sums A(x) (a gather along the edge list
  followed by a scatter-add), the reciprocal degrees d, the linear stage  ((A(x) · d) Wl + b) + x Wr,  and then the
  batch normalisation in the centred spelling followed by max(·, 0).  A and d stay opaque; this module reads the
  first linear stage and the first normalisation index by index.
-/
import proofs.«148930_j32976758899207_2_alg».proof.Proof.RefDefs
import proofs.«148930_j32976758899207_2_alg».proof.Proof.Spec

noncomputable section

namespace Cert.ReferenceIdeal.RefValue

open Cert.ReferenceIdeal Cert.ReferenceIdeal.Gen Cert.ReferenceIdeal.ReadP Cert.Sage Idealize.ShloMosaic Idealize.ShloMosaic.ValueIdx
open scoped BigOperators

variable (x0 : (⟨S100000x128, .f32⟩ : BufTy).Contents (Elt Ideal)) (x1 : (⟨S2x1600000, .i32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S2x128, .f32⟩ : BufTy).Contents (Elt Ideal)) (x6 : (⟨S2x128, .f32⟩ : BufTy).Contents (Elt Ideal))

/-- The first aggregation is A at the input features. -/
theorem agg1 : val_main_v28 (F := Ideal) x0 x1 = aggR x1 x0 := rfl

/-! ## The first linear stage -/

theorem lidx31 (r : Fin 100000) (j k : Fin 128) : lidx_main_v31 (ix2 r j) k = ix2 r k :=
  funext fun a => Fin.ext (by match a with | ⟨0, _⟩ => rfl | ⟨1, _⟩ => rfl)

theorem lidx35 (r : Fin 100000) (j k : Fin 128) : lidx_main_v35 (ix2 r j) k = ix2 r k :=
  funext fun a => Fin.ext (by match a with | ⟨0, _⟩ => rfl | ⟨1, _⟩ => rfl)

theorem idx29 (r : Fin 100000) (k : Fin 128) : idx_main_v29 (ix2 r k) = ix2 r (0 : Fin 1) :=
  funext fun a => Fin.ext (by match a with | ⟨0, _⟩ => rfl | ⟨1, _⟩ => rfl)

theorem ridx31 (r : Fin 100000) (j k : Fin 128) :
    idx_main_v13 (idx_main_v14 (ridx_main_v31 (ix2 r j) k)) = ix3 (0 : Fin 3) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)

theorem ridx35 (r : Fin 100000) (j k : Fin 128) :
    idx_main_v17 (idx_main_v18 (ridx_main_v35 (ix2 r j) k)) = ix3 (0 : Fin 3) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)

theorem idx33 (r : Fin 100000) (j : Fin 128) :
    idx_main_v15 (idx_main_v16 (idx_main_v32 (idx_main_v33 (ix2 r j)))) = ix2 (0 : Fin 3) j :=
  funext fun a => Fin.ext (by
    have hj := j.isLt
    match a with
    | ⟨0, _⟩ => rfl
    | ⟨1, _⟩ => show j.val % 128 = j.val; omega)

/-- The scaled aggregate at (r, k): A(x)(r, k) · d(r). -/
theorem scaled1 (r : Fin 100000) (j k : Fin 128) :
    val_main_v30 (F := Ideal) x0 x1 (lidx_main_v31 (ix2 r j) k) = aggR x1 x0 (ix2 r k) * dinvR x1 (ix2 r (0 : Fin 1)) := by
  rw [lidx31, val_main_v30_apply, val_main_v29_apply, idx29, agg1, Ideal.mulf_def, dinvR]

/-- Wl₀ at (k, j). -/
theorem wl1 (r : Fin 100000) (j k : Fin 128) :
    val_main_v14 (F := Ideal) x2 (ridx_main_v31 (ix2 r j) k) = x2 (ix3 (0 : Fin 3) k j) := by
  rw [val_main_v14_apply, val_main_v13_apply, ridx31]

/-- Wr₀ at (k, j). -/
theorem wr1 (r : Fin 100000) (j k : Fin 128) :
    val_main_v18 (F := Ideal) x4 (ridx_main_v35 (ix2 r j) k) = x4 (ix3 (0 : Fin 3) k j) := by
  rw [val_main_v18_apply, val_main_v17_apply, ridx35]

/-- b₀ at j, broadcast over the nodes. -/
theorem bias1 (r : Fin 100000) (j : Fin 128) : val_main_v33 (F := Ideal) x3 (ix2 r j) = x3 (ix2 (0 : Fin 3) j) := by
  rw [val_main_v33_apply, val_main_v32_apply, val_main_v16_apply, val_main_v15_apply, idx33]

/-- (A(x) · d) Wl₀ at (r, j). -/
theorem dotl1 (r : Fin 100000) (j : Fin 128) :
    val_main_v31 (F := Ideal) x0 x1 x2 (ix2 r j)
      = ∑ k : Fin 128, (aggR x1 x0 (ix2 r k) * dinvR x1 (ix2 r (0 : Fin 1))) * x2 (ix3 (0 : Fin 3) k j) := by
  rw [val_main_v31_apply]
  refine Finset.sum_congr rfl fun k _ => ?_
  rw [scaled1, wl1]

/-- x Wr₀ at (r, j). -/
theorem dotr1 (r : Fin 100000) (j : Fin 128) :
    val_main_v35 (F := Ideal) x0 x4 (ix2 r j) = ∑ k : Fin 128, x0 (ix2 r k) * x4 (ix3 (0 : Fin 3) k j) := by
  rw [val_main_v35_apply]
  refine Finset.sum_congr rfl fun k _ => ?_
  rw [lidx35, wr1]

/-- The first linear stage: ((A(x) · d) Wl₀ + b₀) + x Wr₀. -/
theorem lin1 : val_main_v36 (F := Ideal) x0 x1 x2 x3 x4
    = Sage.linR (aggR x1 x0) (dinvR x1) x0 (fun k j => x2 (ix3 (0 : Fin 3) k j)) (fun k j => x4 (ix3 (0 : Fin 3) k j))
        (fun j => x3 (ix2 (0 : Fin 3) j)) := by
  funext i
  obtain ⟨r, j, rfl⟩ : ∃ (r : Fin 100000) (j : Fin 128), i = ix2 r j := ⟨i 0, i 1, eq_ix2 i⟩
  rw [linR_apply, val_main_v36_apply, val_main_v34_apply, dotl1, bias1, dotr1, Ideal.addf_def, Ideal.addf_def]

/-! ## The first normalisation -/

theorem idx41 (j : Fin 128) (k : Fin 100000) : idx_main_v41 (ix1 j) k = ix2 k j :=
  funext fun a => Fin.ext (by match a with | ⟨0, _⟩ => rfl | ⟨1, _⟩ => rfl)

theorem idx48 (j : Fin 128) (k : Fin 100000) : idx_main_v48 (ix1 j) k = ix2 k j :=
  funext fun a => Fin.ext (by match a with | ⟨0, _⟩ => rfl | ⟨1, _⟩ => rfl)

theorem idx45 (r : Fin 100000) (j : Fin 128) : idx_main_v44 (idx_main_v45 (ix2 r j)) = ix1 j :=
  funext fun a => Fin.ext (by match a with | ⟨0, _⟩ => rfl)

theorem idx52 (r : Fin 100000) (j : Fin 128) : idx_main_v51 (idx_main_v52 (ix2 r j)) = ix1 j :=
  funext fun a => Fin.ext (by match a with | ⟨0, _⟩ => rfl)

theorem idx58 (r : Fin 100000) (j : Fin 128) : idx_main_v57 (idx_main_v58 (ix2 r j)) = ix1 j :=
  funext fun a => Fin.ext (by match a with | ⟨0, _⟩ => rfl)

theorem idx61 (r : Fin 100000) (j : Fin 128) :
    idx_main_v37 (idx_main_v38 (idx_main_v60 (idx_main_v61 (ix2 r j)))) = ix2 (0 : Fin 2) j :=
  funext fun a => Fin.ext (by
    have hj := j.isLt
    match a with
    | ⟨0, _⟩ => rfl
    | ⟨1, _⟩ => show j.val % 128 = j.val; omega)

theorem idx64 (r : Fin 100000) (j : Fin 128) :
    idx_main_v39 (idx_main_v40 (idx_main_v63 (idx_main_v64 (ix2 r j)))) = ix2 (0 : Fin 2) j :=
  funext fun a => Fin.ext (by
    have hj := j.isLt
    match a with
    | ⟨0, _⟩ => rfl
    | ⟨1, _⟩ => show j.val % 128 = j.val; omega)

/-- A sum started from the float word of 0 is the sum. -/
theorem zero_word_add (s : EReal) : Ideal.ofBits .f32 0x00000000#32 + s = s := by
  rw [Ideal.ofBits_zero_f32, zero_add]

/-- The mean of column j of the first linear stage: (0 + Σ_r y(r, j)) / N. -/
theorem mean1 (j : Fin 128) : val_main_v43 (F := Ideal) x0 x1 x2 x3 x4 (ix1 j) = Sage.muR (val_main_v36 (F := Ideal) x0 x1 x2 x3 x4) j := by
  have h : ∀ k : Fin 100000, val_main_v36 (F := Ideal) x0 x1 x2 x3 x4 (idx_main_v41 (ix1 j) k) = val_main_v36 (F := Ideal) x0 x1 x2 x3 x4 (ix2 k j) :=
    fun k => by rw [idx41]
  rw [val_main_v43_apply, val_main_v41_apply, val_main_v42_apply, val_main_cst_5_apply, val_main_cst_6_apply,
    Ideal.hostDivf_def, Ideal.ofBits_def, Ideal.ofBits_def, zero_word_add]
  simp only [h, Sage.muR]

/-- The mean, broadcast over the nodes (the copy subtracted inside the variance). -/
theorem meanb1 (r : Fin 100000) (j : Fin 128) : val_main_v45 (F := Ideal) x0 x1 x2 x3 x4 (ix2 r j) = Sage.muR (val_main_v36 (F := Ideal) x0 x1 x2 x3 x4) j := by
  rw [val_main_v45_apply, val_main_v44_apply, idx45, mean1]

/-- The mean, broadcast over the nodes (the copy subtracted from the stage itself). -/
theorem meanb1' (r : Fin 100000) (j : Fin 128) : val_main_v52 (F := Ideal) x0 x1 x2 x3 x4 (ix2 r j) = Sage.muR (val_main_v36 (F := Ideal) x0 x1 x2 x3 x4) j := by
  rw [val_main_v52_apply, val_main_v51_apply, idx52, mean1]

/-- The variance of column j: (0 + Σ_r (y(r, j) − mean)²) / N. -/
theorem var1 (j : Fin 128) : val_main_v50 (F := Ideal) x0 x1 x2 x3 x4 (ix1 j) = Sage.varR (val_main_v36 (F := Ideal) x0 x1 x2 x3 x4) j := by
  have h : ∀ k : Fin 100000, val_main_v47 (F := Ideal) x0 x1 x2 x3 x4 (idx_main_v48 (ix1 j) k)
      = (val_main_v36 (F := Ideal) x0 x1 x2 x3 x4 (ix2 k j) - Sage.muR (val_main_v36 (F := Ideal) x0 x1 x2 x3 x4) j) * (val_main_v36 (F := Ideal) x0 x1 x2 x3 x4 (ix2 k j) - Sage.muR (val_main_v36 (F := Ideal) x0 x1 x2 x3 x4) j) :=
    fun k => by rw [idx48, val_main_v47_apply, val_main_v46_apply, meanb1, Ideal.mulf_def, Ideal.subf_def]
  rw [val_main_v50_apply, val_main_v48_apply, val_main_v49_apply, val_main_cst_7_apply, val_main_cst_8_apply,
    Ideal.hostDivf_def, Ideal.ofBits_def, Ideal.ofBits_def, zero_word_add]
  simp only [h, Sage.varR]

/-- rsqrt(var + ε), broadcast over the nodes. -/
theorem rstd1 (r : Fin 100000) (j : Fin 128) :
    val_main_v58 (F := Ideal) x0 x1 x2 x3 x4 (ix2 r j) = Ideal.rsqrt (Sage.varR (val_main_v36 (F := Ideal) x0 x1 x2 x3 x4) j + Sage.cEps) := by
  rw [val_main_v58_apply, val_main_v57_apply, idx58, val_main_v56_apply, val_main_v55_apply, var1, val_main_v54_apply,
    val_main_cst_9_apply, Ideal.hostUnary_rsqrt_def, Ideal.addf_def, Ideal.ofBits_def]

/-- γ₀ at j, broadcast over the nodes. -/
theorem gamma1 (r : Fin 100000) (j : Fin 128) : val_main_v61 (F := Ideal) x5 (ix2 r j) = x5 (ix2 (0 : Fin 2) j) := by
  rw [val_main_v61_apply, val_main_v60_apply, val_main_v38_apply, val_main_v37_apply, idx61]

/-- β₀ at j, broadcast over the nodes. -/
theorem beta1 (r : Fin 100000) (j : Fin 128) : val_main_v64 (F := Ideal) x6 (ix2 r j) = x6 (ix2 (0 : Fin 2) j) := by
  rw [val_main_v64_apply, val_main_v63_apply, val_main_v40_apply, val_main_v39_apply, idx64]

/-- The array of zeros the first max(·, 0) compares with. -/
theorem relu1 (i : S100000x128.Idx) : val_main_call0_v0 (F := Ideal) i = Sage.c0 := by
  rw [val_main_call0_v0_apply, val_main_call0_cst_apply, Ideal.ofBits_def]

/-- The first normalisation: with y the first linear stage, mean = (Σ_r y)/N, var = (Σ_r (y − mean)²)/N, and the
    result is max(((y − mean) · rsqrt(var + ε)) · γ₀ + β₀, 0). -/
theorem bn1 : val_main_v66 (F := Ideal) x0 x1 x2 x3 x4 x5 x6
    = Sage.bnR (val_main_v36 (F := Ideal) x0 x1 x2 x3 x4) (fun j => x5 (ix2 (0 : Fin 2) j)) (fun j => x6 (ix2 (0 : Fin 2) j)) := by
  funext i
  obtain ⟨r, j, rfl⟩ : ∃ (r : Fin 100000) (j : Fin 128), i = ix2 r j := ⟨i 0, i 1, eq_ix2 i⟩
  rw [bnR_apply, val_main_v66_apply, val_main_v65_apply, val_main_v62_apply, val_main_v59_apply, val_main_v53_apply,
    meanb1', rstd1, gamma1, beta1, relu1, Ideal.maximumf_def, Ideal.addf_def, Ideal.mulf_def, Ideal.mulf_def, Ideal.subf_def]

end Cert.ReferenceIdeal.RefValue

end
-- ==== Proof.RefLayer2.lean ====
/-
  The reference network, second layer: the aggregation of the first layer's output x¹, the second linear stage
  ((A(x¹) · d) Wl₁ + b₁) + x¹ Wr₁, and the second normalisation followed by max(·, 0).
-/
import proofs.«148930_j32976758899207_2_alg».proof.Proof.RefDefs
import proofs.«148930_j32976758899207_2_alg».proof.Proof.Spec

noncomputable section

namespace Cert.ReferenceIdeal.RefValue

open Cert.ReferenceIdeal Cert.ReferenceIdeal.Gen Cert.ReferenceIdeal.ReadP Cert.Sage Idealize.ShloMosaic Idealize.ShloMosaic.ValueIdx
open scoped BigOperators

variable (x0 : (⟨S100000x128, .f32⟩ : BufTy).Contents (Elt Ideal)) (x1 : (⟨S2x1600000, .i32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S2x128, .f32⟩ : BufTy).Contents (Elt Ideal)) (x6 : (⟨S2x128, .f32⟩ : BufTy).Contents (Elt Ideal))

/-! ## The second aggregation

The scatter-add starts from the same array of zeros, lands at the same target nodes and gathers along the same
source nodes as the first one; only the gathered features differ. -/

theorem zero80 : val_main_v80 (F := Ideal) = val_main_v26 (F := Ideal) := rfl

theorem tgt81 : val_main_v81 (F := Ideal) x1 = val_main_v27 (F := Ideal) x1 := rfl

theorem src78 : val_main_v78 (F := Ideal) x1 = val_main_v24 (F := Ideal) x1 := rfl

/-- The second aggregation is A at the first layer's output. -/
theorem agg2 : val_main_v82 (F := Ideal) x0 x1 x2 x3 x4 x5 x6 = aggR x1 (val_main_v66 (F := Ideal) x0 x1 x2 x3 x4 x5 x6) := by
  unfold val_main_v82 val_main_v79 aggR
  rw [zero80, tgt81, src78]

/-! ## The second linear stage -/

theorem lidx85 (r : Fin 100000) (j k : Fin 128) : lidx_main_v85 (ix2 r j) k = ix2 r k :=
  funext fun a => Fin.ext (by match a with | ⟨0, _⟩ => rfl | ⟨1, _⟩ => rfl)

theorem lidx89 (r : Fin 100000) (j k : Fin 128) : lidx_main_v89 (ix2 r j) k = ix2 r k :=
  funext fun a => Fin.ext (by match a with | ⟨0, _⟩ => rfl | ⟨1, _⟩ => rfl)

theorem idx83 (r : Fin 100000) (k : Fin 128) : idx_main_v83 (ix2 r k) = ix2 r (0 : Fin 1) :=
  funext fun a => Fin.ext (by match a with | ⟨0, _⟩ => rfl | ⟨1, _⟩ => rfl)

theorem ridx85 (r : Fin 100000) (j k : Fin 128) :
    idx_main_v67 (idx_main_v68 (ridx_main_v85 (ix2 r j) k)) = ix3 (1 : Fin 3) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)

theorem ridx89 (r : Fin 100000) (j k : Fin 128) :
    idx_main_v71 (idx_main_v72 (ridx_main_v89 (ix2 r j) k)) = ix3 (1 : Fin 3) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)

theorem idx87 (r : Fin 100000) (j : Fin 128) :
    idx_main_v69 (idx_main_v70 (idx_main_v86 (idx_main_v87 (ix2 r j)))) = ix2 (1 : Fin 3) j :=
  funext fun a => Fin.ext (by
    have hj := j.isLt
    match a with
    | ⟨0, _⟩ => rfl
    | ⟨1, _⟩ => show j.val % 128 = j.val; omega)

/-- The scaled aggregate at (r, k): A(x¹)(r, k) · d(r). -/
theorem scaled2 (r : Fin 100000) (j k : Fin 128) :
    val_main_v84 (F := Ideal) x0 x1 x2 x3 x4 x5 x6 (lidx_main_v85 (ix2 r j) k)
      = aggR x1 (val_main_v66 (F := Ideal) x0 x1 x2 x3 x4 x5 x6) (ix2 r k) * dinvR x1 (ix2 r (0 : Fin 1)) := by
  rw [lidx85, val_main_v84_apply, val_main_v83_apply, idx83, agg2, Ideal.mulf_def, dinvR]

/-- Wl₁ at (k, j). -/
theorem wl2 (r : Fin 100000) (j k : Fin 128) :
    val_main_v68 (F := Ideal) x2 (ridx_main_v85 (ix2 r j) k) = x2 (ix3 (1 : Fin 3) k j) := by
  rw [val_main_v68_apply, val_main_v67_apply, ridx85]

/-- Wr₁ at (k, j). -/
theorem wr2 (r : Fin 100000) (j k : Fin 128) :
    val_main_v72 (F := Ideal) x4 (ridx_main_v89 (ix2 r j) k) = x4 (ix3 (1 : Fin 3) k j) := by
  rw [val_main_v72_apply, val_main_v71_apply, ridx89]

/-- b₁ at j, broadcast over the nodes. -/
theorem bias2 (r : Fin 100000) (j : Fin 128) : val_main_v87 (F := Ideal) x3 (ix2 r j) = x3 (ix2 (1 : Fin 3) j) := by
  rw [val_main_v87_apply, val_main_v86_apply, val_main_v70_apply, val_main_v69_apply, idx87]

/-- (A(x¹) · d) Wl₁ at (r, j). -/
theorem dotl2 (r : Fin 100000) (j : Fin 128) :
    val_main_v85 (F := Ideal) x0 x1 x2 x3 x4 x5 x6 (ix2 r j)
      = ∑ k : Fin 128, (aggR x1 (val_main_v66 (F := Ideal) x0 x1 x2 x3 x4 x5 x6) (ix2 r k) * dinvR x1 (ix2 r (0 : Fin 1))) * x2 (ix3 (1 : Fin 3) k j) := by
  rw [val_main_v85_apply]
  refine Finset.sum_congr rfl fun k _ => ?_
  rw [scaled2, wl2]

/-- x¹ Wr₁ at (r, j). -/
theorem dotr2 (r : Fin 100000) (j : Fin 128) :
    val_main_v89 (F := Ideal) x0 x1 x2 x3 x4 x5 x6 (ix2 r j) = ∑ k : Fin 128, val_main_v66 (F := Ideal) x0 x1 x2 x3 x4 x5 x6 (ix2 r k) * x4 (ix3 (1 : Fin 3) k j) := by
  rw [val_main_v89_apply]
  refine Finset.sum_congr rfl fun k _ => ?_
  rw [lidx89, wr2]

/-- The second linear stage: ((A(x¹) · d) Wl₁ + b₁) + x¹ Wr₁, with x¹ the first layer's output. -/
theorem lin2 : val_main_v90 (F := Ideal) x0 x1 x2 x3 x4 x5 x6
    = Sage.linR (aggR x1 (val_main_v66 (F := Ideal) x0 x1 x2 x3 x4 x5 x6)) (dinvR x1) (val_main_v66 (F := Ideal) x0 x1 x2 x3 x4 x5 x6)
        (fun k j => x2 (ix3 (1 : Fin 3) k j)) (fun k j => x4 (ix3 (1 : Fin 3) k j)) (fun j => x3 (ix2 (1 : Fin 3) j)) := by
  funext i
  obtain ⟨r, j, rfl⟩ : ∃ (r : Fin 100000) (j : Fin 128), i = ix2 r j := ⟨i 0, i 1, eq_ix2 i⟩
  rw [linR_apply, val_main_v90_apply, val_main_v88_apply, dotl2, bias2, dotr2, Ideal.addf_def, Ideal.addf_def]

/-! ## The second normalisation -/

theorem idx95 (j : Fin 128) (k : Fin 100000) : idx_main_v95 (ix1 j) k = ix2 k j :=
  funext fun a => Fin.ext (by match a with | ⟨0, _⟩ => rfl | ⟨1, _⟩ => rfl)

theorem idx102 (j : Fin 128) (k : Fin 100000) : idx_main_v102 (ix1 j) k = ix2 k j :=
  funext fun a => Fin.ext (by match a with | ⟨0, _⟩ => rfl | ⟨1, _⟩ => rfl)

theorem idx99 (r : Fin 100000) (j : Fin 128) : idx_main_v98 (idx_main_v99 (ix2 r j)) = ix1 j :=
  funext fun a => Fin.ext (by match a with | ⟨0, _⟩ => rfl)

theorem idx106 (r : Fin 100000) (j : Fin 128) : idx_main_v105 (idx_main_v106 (ix2 r j)) = ix1 j :=
  funext fun a => Fin.ext (by match a with | ⟨0, _⟩ => rfl)

theorem idx112 (r : Fin 100000) (j : Fin 128) : idx_main_v111 (idx_main_v112 (ix2 r j)) = ix1 j :=
  funext fun a => Fin.ext (by match a with | ⟨0, _⟩ => rfl)

theorem idx115 (r : Fin 100000) (j : Fin 128) :
    idx_main_v91 (idx_main_v92 (idx_main_v114 (idx_main_v115 (ix2 r j)))) = ix2 (1 : Fin 2) j :=
  funext fun a => Fin.ext (by
    have hj := j.isLt
    match a with
    | ⟨0, _⟩ => rfl
    | ⟨1, _⟩ => show j.val % 128 = j.val; omega)

theorem idx118 (r : Fin 100000) (j : Fin 128) :
    idx_main_v93 (idx_main_v94 (idx_main_v117 (idx_main_v118 (ix2 r j)))) = ix2 (1 : Fin 2) j :=
  funext fun a => Fin.ext (by
    have hj := j.isLt
    match a with
    | ⟨0, _⟩ => rfl
    | ⟨1, _⟩ => show j.val % 128 = j.val; omega)

/-- A sum started from the float word of 0 is the sum. -/
theorem zero_word_add₂ (s : EReal) : Ideal.ofBits .f32 0x00000000#32 + s = s := by
  rw [Ideal.ofBits_zero_f32, zero_add]

/-- The mean of column j of the second linear stage: (0 + Σ_r y(r, j)) / N. -/
theorem mean2 (j : Fin 128) : val_main_v97 (F := Ideal) x0 x1 x2 x3 x4 x5 x6 (ix1 j) = Sage.muR (val_main_v90 (F := Ideal) x0 x1 x2 x3 x4 x5 x6) j := by
  have h : ∀ k : Fin 100000, val_main_v90 (F := Ideal) x0 x1 x2 x3 x4 x5 x6 (idx_main_v95 (ix1 j) k) = val_main_v90 (F := Ideal) x0 x1 x2 x3 x4 x5 x6 (ix2 k j) :=
    fun k => by rw [idx95]
  rw [val_main_v97_apply, val_main_v95_apply, val_main_v96_apply, val_main_cst_13_apply, val_main_cst_14_apply,
    Ideal.hostDivf_def, Ideal.ofBits_def, Ideal.ofBits_def, zero_word_add₂]
  simp only [h, Sage.muR]

/-- The mean, broadcast over the nodes (the copy subtracted inside the variance). -/
theorem meanb2 (r : Fin 100000) (j : Fin 128) : val_main_v99 (F := Ideal) x0 x1 x2 x3 x4 x5 x6 (ix2 r j) = Sage.muR (val_main_v90 (F := Ideal) x0 x1 x2 x3 x4 x5 x6) j := by
  rw [val_main_v99_apply, val_main_v98_apply, idx99, mean2]

/-- The mean, broadcast over the nodes (the copy subtracted from the stage itself). -/
theorem meanb2' (r : Fin 100000) (j : Fin 128) : val_main_v106 (F := Ideal) x0 x1 x2 x3 x4 x5 x6 (ix2 r j) = Sage.muR (val_main_v90 (F := Ideal) x0 x1 x2 x3 x4 x5 x6) j := by
  rw [val_main_v106_apply, val_main_v105_apply, idx106, mean2]

/-- The variance of column j: (0 + Σ_r (y(r, j) − mean)²) / N. -/
theorem var2 (j : Fin 128) : val_main_v104 (F := Ideal) x0 x1 x2 x3 x4 x5 x6 (ix1 j) = Sage.varR (val_main_v90 (F := Ideal) x0 x1 x2 x3 x4 x5 x6) j := by
  have h : ∀ k : Fin 100000, val_main_v101 (F := Ideal) x0 x1 x2 x3 x4 x5 x6 (idx_main_v102 (ix1 j) k)
      = (val_main_v90 (F := Ideal) x0 x1 x2 x3 x4 x5 x6 (ix2 k j) - Sage.muR (val_main_v90 (F := Ideal) x0 x1 x2 x3 x4 x5 x6) j) * (val_main_v90 (F := Ideal) x0 x1 x2 x3 x4 x5 x6 (ix2 k j) - Sage.muR (val_main_v90 (F := Ideal) x0 x1 x2 x3 x4 x5 x6) j) :=
    fun k => by rw [idx102, val_main_v101_apply, val_main_v100_apply, meanb2, Ideal.mulf_def, Ideal.subf_def]
  rw [val_main_v104_apply, val_main_v102_apply, val_main_v103_apply, val_main_cst_15_apply, val_main_cst_16_apply,
    Ideal.hostDivf_def, Ideal.ofBits_def, Ideal.ofBits_def, zero_word_add₂]
  simp only [h, Sage.varR]

/-- rsqrt(var + ε), broadcast over the nodes. -/
theorem rstd2 (r : Fin 100000) (j : Fin 128) :
    val_main_v112 (F := Ideal) x0 x1 x2 x3 x4 x5 x6 (ix2 r j) = Ideal.rsqrt (Sage.varR (val_main_v90 (F := Ideal) x0 x1 x2 x3 x4 x5 x6) j + Sage.cEps) := by
  rw [val_main_v112_apply, val_main_v111_apply, idx112, val_main_v110_apply, val_main_v109_apply, var2, val_main_v108_apply,
    val_main_cst_17_apply, Ideal.hostUnary_rsqrt_def, Ideal.addf_def, Ideal.ofBits_def]

/-- γ₁ at j, broadcast over the nodes. -/
theorem gamma2 (r : Fin 100000) (j : Fin 128) : val_main_v115 (F := Ideal) x5 (ix2 r j) = x5 (ix2 (1 : Fin 2) j) := by
  rw [val_main_v115_apply, val_main_v114_apply, val_main_v92_apply, val_main_v91_apply, idx115]

/-- β₁ at j, broadcast over the nodes. -/
theorem beta2 (r : Fin 100000) (j : Fin 128) : val_main_v118 (F := Ideal) x6 (ix2 r j) = x6 (ix2 (1 : Fin 2) j) := by
  rw [val_main_v118_apply, val_main_v117_apply, val_main_v94_apply, val_main_v93_apply, idx118]

/-- The array of zeros the second max(·, 0) compares with. -/
theorem relu2 (i : S100000x128.Idx) : val_main_call1_v0 (F := Ideal) i = Sage.c0 := by
  rw [val_main_call1_v0_apply, val_main_call1_cst_apply, Ideal.ofBits_def]

/-- The second normalisation: with y the second linear stage, mean = (Σ_r y)/N, var = (Σ_r (y − mean)²)/N, and the
    result is max(((y − mean) · rsqrt(var + ε)) · γ₁ + β₁, 0). -/
theorem bn2 : val_main_v120 (F := Ideal) x0 x1 x2 x3 x4 x5 x6
    = Sage.bnR (val_main_v90 (F := Ideal) x0 x1 x2 x3 x4 x5 x6) (fun j => x5 (ix2 (1 : Fin 2) j)) (fun j => x6 (ix2 (1 : Fin 2) j)) := by
  funext i
  obtain ⟨r, j, rfl⟩ : ∃ (r : Fin 100000) (j : Fin 128), i = ix2 r j := ⟨i 0, i 1, eq_ix2 i⟩
  rw [bnR_apply, val_main_v120_apply, val_main_v119_apply, val_main_v116_apply, val_main_v113_apply, val_main_v107_apply,
    meanb2', rstd2, gamma2, beta2, relu2, Ideal.maximumf_def, Ideal.addf_def, Ideal.mulf_def, Ideal.mulf_def, Ideal.subf_def]

end Cert.ReferenceIdeal.RefValue

end
-- ==== Proof.RefLayer3.lean ====
/-
  The reference network, third layer: the aggregation of the second layer's output x² and the third linear stage
  ((A(x²) · d) Wl₂ + b₂) + x² Wr₂, which is the network's result.
-/
import proofs.«148930_j32976758899207_2_alg».proof.Proof.RefDefs
import proofs.«148930_j32976758899207_2_alg».proof.Proof.Spec

noncomputable section

namespace Cert.ReferenceIdeal.RefValue

open Cert.ReferenceIdeal Cert.ReferenceIdeal.Gen Cert.ReferenceIdeal.ReadP Cert.Sage Idealize.ShloMosaic Idealize.ShloMosaic.ValueIdx
open scoped BigOperators

variable (x0 : (⟨S100000x128, .f32⟩ : BufTy).Contents (Elt Ideal)) (x1 : (⟨S2x1600000, .i32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S2x128, .f32⟩ : BufTy).Contents (Elt Ideal)) (x6 : (⟨S2x128, .f32⟩ : BufTy).Contents (Elt Ideal))

/-! ## The third aggregation

Again the same array of zeros, the same target nodes and the same source nodes as in the first aggregation. -/

theorem zero134 : val_main_v134 (F := Ideal) = val_main_v26 (F := Ideal) := rfl

theorem tgt135 : val_main_v135 (F := Ideal) x1 = val_main_v27 (F := Ideal) x1 := rfl

theorem src132 : val_main_v132 (F := Ideal) x1 = val_main_v24 (F := Ideal) x1 := rfl

/-- The third aggregation is A at the second layer's output. -/
theorem agg3 : val_main_v136 (F := Ideal) x0 x1 x2 x3 x4 x5 x6 = aggR x1 (val_main_v120 (F := Ideal) x0 x1 x2 x3 x4 x5 x6) := by
  unfold val_main_v136 val_main_v133 aggR
  rw [zero134, tgt135, src132]

/-! ## The third linear stage -/

theorem lidx139 (r : Fin 100000) (j k : Fin 128) : lidx_main_v139 (ix2 r j) k = ix2 r k :=
  funext fun a => Fin.ext (by match a with | ⟨0, _⟩ => rfl | ⟨1, _⟩ => rfl)

theorem lidx143 (r : Fin 100000) (j k : Fin 128) : lidx_main_v143 (ix2 r j) k = ix2 r k :=
  funext fun a => Fin.ext (by match a with | ⟨0, _⟩ => rfl | ⟨1, _⟩ => rfl)

theorem idx137 (r : Fin 100000) (k : Fin 128) : idx_main_v137 (ix2 r k) = ix2 r (0 : Fin 1) :=
  funext fun a => Fin.ext (by match a with | ⟨0, _⟩ => rfl | ⟨1, _⟩ => rfl)

theorem ridx139 (r : Fin 100000) (j k : Fin 128) :
    idx_main_v121 (idx_main_v122 (ridx_main_v139 (ix2 r j) k)) = ix3 (2 : Fin 3) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)

theorem ridx143 (r : Fin 100000) (j k : Fin 128) :
    idx_main_v125 (idx_main_v126 (ridx_main_v143 (ix2 r j) k)) = ix3 (2 : Fin 3) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)

theorem idx141 (r : Fin 100000) (j : Fin 128) :
    idx_main_v123 (idx_main_v124 (idx_main_v140 (idx_main_v141 (ix2 r j)))) = ix2 (2 : Fin 3) j :=
  funext fun a => Fin.ext (by
    have hj := j.isLt
    match a with
    | ⟨0, _⟩ => rfl
    | ⟨1, _⟩ => show j.val % 128 = j.val; omega)

/-- The scaled aggregate at (r, k): A(x²)(r, k) · d(r). -/
theorem scaled3 (r : Fin 100000) (j k : Fin 128) :
    val_main_v138 (F := Ideal) x0 x1 x2 x3 x4 x5 x6 (lidx_main_v139 (ix2 r j) k)
      = aggR x1 (val_main_v120 (F := Ideal) x0 x1 x2 x3 x4 x5 x6) (ix2 r k) * dinvR x1 (ix2 r (0 : Fin 1)) := by
  rw [lidx139, val_main_v138_apply, val_main_v137_apply, idx137, agg3, Ideal.mulf_def, dinvR]

/-- Wl₂ at (k, j). -/
theorem wl3 (r : Fin 100000) (j k : Fin 128) :
    val_main_v122 (F := Ideal) x2 (ridx_main_v139 (ix2 r j) k) = x2 (ix3 (2 : Fin 3) k j) := by
  rw [val_main_v122_apply, val_main_v121_apply, ridx139]

/-- Wr₂ at (k, j). -/
theorem wr3 (r : Fin 100000) (j k : Fin 128) :
    val_main_v126 (F := Ideal) x4 (ridx_main_v143 (ix2 r j) k) = x4 (ix3 (2 : Fin 3) k j) := by
  rw [val_main_v126_apply, val_main_v125_apply, ridx143]

/-- b₂ at j, broadcast over the nodes. -/
theorem bias3 (r : Fin 100000) (j : Fin 128) : val_main_v141 (F := Ideal) x3 (ix2 r j) = x3 (ix2 (2 : Fin 3) j) := by
  rw [val_main_v141_apply, val_main_v140_apply, val_main_v124_apply, val_main_v123_apply, idx141]

/-- (A(x²) · d) Wl₂ at (r, j). -/
theorem dotl3 (r : Fin 100000) (j : Fin 128) :
    val_main_v139 (F := Ideal) x0 x1 x2 x3 x4 x5 x6 (ix2 r j)
      = ∑ k : Fin 128, (aggR x1 (val_main_v120 (F := Ideal) x0 x1 x2 x3 x4 x5 x6) (ix2 r k) * dinvR x1 (ix2 r (0 : Fin 1))) * x2 (ix3 (2 : Fin 3) k j) := by
  rw [val_main_v139_apply]
  refine Finset.sum_congr rfl fun k _ => ?_
  rw [scaled3, wl3]

/-- x² Wr₂ at (r, j). -/
theorem dotr3 (r : Fin 100000) (j : Fin 128) :
    val_main_v143 (F := Ideal) x0 x1 x2 x3 x4 x5 x6 (ix2 r j) = ∑ k : Fin 128, val_main_v120 (F := Ideal) x0 x1 x2 x3 x4 x5 x6 (ix2 r k) * x4 (ix3 (2 : Fin 3) k j) := by
  rw [val_main_v143_apply]
  refine Finset.sum_congr rfl fun k _ => ?_
  rw [lidx143, wr3]

/-- The third linear stage: ((A(x²) · d) Wl₂ + b₂) + x² Wr₂, with x² the second layer's output. -/
theorem lin3 : val_main_v144 (F := Ideal) x0 x1 x2 x3 x4 x5 x6
    = Sage.linR (aggR x1 (val_main_v120 (F := Ideal) x0 x1 x2 x3 x4 x5 x6)) (dinvR x1) (val_main_v120 (F := Ideal) x0 x1 x2 x3 x4 x5 x6)
        (fun k j => x2 (ix3 (2 : Fin 3) k j)) (fun k j => x4 (ix3 (2 : Fin 3) k j)) (fun j => x3 (ix2 (2 : Fin 3) j)) := by
  funext i
  obtain ⟨r, j, rfl⟩ : ∃ (r : Fin 100000) (j : Fin 128), i = ix2 r j := ⟨i 0, i 1, eq_ix2 i⟩
  rw [linR_apply, val_main_v144_apply, val_main_v142_apply, dotl3, bias3, dotr3, Ideal.addf_def, Ideal.addf_def]

end Cert.ReferenceIdeal.RefValue

end
-- ==== Proof.RefValue.lean ====
/-
  The reference network is the specification in its second spelling.

  Layer by layer: the aggregation A and the reciprocal degrees d are shared and opaque; each linear stage is
  ((A(x) · d) Wl + b) + x Wr; the first two layers are followed by the centred batch normalisation and max(·, 0).
  Chaining the three layers gives the network of the specification.
-/
import proofs.«148930_j32976758899207_2_alg».proof.Proof.RefLayer1
import proofs.«148930_j32976758899207_2_alg».proof.Proof.RefLayer2
import proofs.«148930_j32976758899207_2_alg».proof.Proof.RefLayer3

noncomputable section

namespace Cert.ReferenceIdeal.RefValue

open Cert.ReferenceIdeal Cert.ReferenceIdeal.Gen Cert.ReferenceIdeal.ReadP Cert.Sage Idealize.ShloMosaic Idealize.ShloMosaic.ValueIdx
open scoped BigOperators

/-- The reference's result is the specification's network in the second spelling, at the aggregation A, the
    reciprocal degrees d, the input features, and the weights, biases, γ and β read off the stacked arguments. -/
theorem ref_value (x0 : (⟨S100000x128, .f32⟩ : BufTy).Contents (Elt Ideal)) (x1 : (⟨S2x1600000, .i32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S2x128, .f32⟩ : BufTy).Contents (Elt Ideal)) (x6 : (⟨S2x128, .f32⟩ : BufTy).Contents (Elt Ideal)) :
    val_main_v144 (F := Ideal) x0 x1 x2 x3 x4 x5 x6
      = Sage.netR (aggR x1) (dinvR x1) x0 (fun ℓ k j => x2 (ix3 ℓ k j)) (fun ℓ k j => x4 (ix3 ℓ k j))
          (fun ℓ j => x3 (ix2 ℓ j)) (fun ℓ j => x5 (ix2 ℓ j)) (fun ℓ j => x6 (ix2 ℓ j)) := by
  unfold Sage.netR
  rw [lin3, bn2, lin2, bn1, lin1]

end Cert.ReferenceIdeal.RefValue

end
-- ==== Proof.LibBatchNorm.lean ====
/-
  Finiteness on the extended reals.

  At the ideal instance a float is an extended real and every operation is exact, but the
  extended reals are not a field: ⊤ − ⊤ = ⊥, 0 · ⊤ = 0. An algebraic identity between two
  programs therefore holds only where every intermediate value is FINITE, i.e. the coercion
  of a real number. This module defines that predicate, IsReal, and proves that it is closed
  under the operations a normalising network uses: sum, difference, product, maximum, finite
  sums (so matrix-product entries), choice between two finite values, the quotient by a
  nonzero finite value, and the reciprocal square root of a positive finite value. It also
  evaluates the four 32-bit float words 0, 1, 80000 and 10995116 · 2⁻⁴⁰ (and +∞) as extended
  reals, and relates IsReal to the test |x| < +∞.
-/
import Idealize.ShloMosaic.PureOps.Ideal

noncomputable section

namespace Cert.LibBatchNorm

open Idealize.ShloMosaic
open scoped BigOperators

/-! ## The predicate -/

/-- An extended real is FINITE when it is (the coercion of) a real number. -/
def IsReal (x : EReal) : Prop := ∃ a : ℝ, x = (a : EReal)

/-- A real number is finite. -/
theorem isReal_coe (a : ℝ) : IsReal (a : EReal) := ⟨a, rfl⟩

/-- 0 is finite. -/
theorem isReal_zero : IsReal (0 : EReal) := ⟨0, rfl⟩

/-- 1 is finite. -/
theorem isReal_one : IsReal (1 : EReal) := ⟨1, rfl⟩

/-- x is finite iff it is neither −∞ nor +∞. -/
theorem isReal_iff {x : EReal} : IsReal x ↔ x ≠ ⊥ ∧ x ≠ ⊤ := by
  constructor
  · rintro ⟨a, rfl⟩; exact ⟨EReal.coe_ne_bot a, EReal.coe_ne_top a⟩
  · rintro ⟨hb, ht⟩
    induction x using EReal.rec with
    | bot => exact absurd rfl hb
    | coe a => exact ⟨a, rfl⟩
    | top => exact absurd rfl ht

/-- If |x| = max x (−x) is below +∞ then x is finite. -/
theorem isReal_of_abs_lt_top {x : EReal} (h : max x (-x) < ⊤) : IsReal x := by
  induction x using EReal.rec with
  | bot => exact absurd h (by simp)
  | coe a => exact ⟨a, rfl⟩
  | top => exact absurd h (by simp)

/-- A finite x has |x| = max x (−x) below +∞. -/
theorem abs_lt_top_of_isReal {x : EReal} (hx : IsReal x) : max x (-x) < ⊤ := by
  obtain ⟨a, rfl⟩ := hx
  exact max_lt (EReal.coe_lt_top a) (by rw [← EReal.coe_neg]; exact EReal.coe_lt_top _)

/-- The ordered "less than" comparison answers 1 exactly when x < y. -/
theorem cmp_olt_eq_one_iff (x y : EReal) : Ideal.cmp .olt x y = 1#1 ↔ x < y := by
  unfold Ideal.cmp
  by_cases h : x < y <;> simp [h]

/-! ## Closure under the arithmetic operations -/

/-- The sum of two finite values is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite values is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite values is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite value is finite. -/
theorem IsReal.neg {x : EReal} (hx : IsReal x) : IsReal (-x) := by
  obtain ⟨a, rfl⟩ := hx; exact ⟨-a, (EReal.coe_neg a).symm⟩

/-- The maximum of two finite values is finite (it is one of them). -/
theorem IsReal.max {x y : EReal} (hx : IsReal x) (hy : IsReal y) : IsReal (max x y) := by
  rcases le_total x y with h | h
  · rwa [max_eq_right h]
  · rwa [max_eq_left h]

/-- The minimum of two finite values is finite (it is one of them). -/
theorem IsReal.min {x y : EReal} (hx : IsReal x) (hy : IsReal y) : IsReal (min x y) := by
  rcases le_total x y with h | h
  · rwa [min_eq_left h]
  · rwa [min_eq_right h]

/-- |x| = max x (−x) of a finite x is finite. -/
theorem isReal_abs {x : EReal} (hx : IsReal x) : IsReal (max x (-x)) := hx.max hx.neg

/-- A choice between two finite values is finite, whatever the condition. -/
theorem isReal_ite {c : Prop} [Decidable c] {x y : EReal} (hx : IsReal x) (hy : IsReal y) :
    IsReal (if c then x else y) := by
  split <;> assumption

/-- A Boolean choice between two finite values is finite. -/
theorem isReal_cond {c : Bool} {x y : EReal} (hx : IsReal x) (hy : IsReal y) :
    IsReal (bif c then x else y) := by
  cases c <;> assumption

/-- A selection by a one-bit condition between two finite values is finite. -/
theorem isReal_select (c : BitVec 1) {x y : EReal} (hx : IsReal x) (hy : IsReal y) :
    IsReal (Scalar.select c x y) := isReal_ite hx hy

/-! ## Finite sums -/

/-- The coercion ℝ → [−∞, +∞] commutes with finite sums. -/
theorem coe_finset_sum {ι : Type*} (s : Finset ι) (a : ι → ℝ) :
    ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- A sum over a finite set of finite values is finite. -/
theorem isReal_finset_sum {ι : Type*} (s : Finset ι) (f : ι → EReal) (h : ∀ i ∈ s, IsReal (f i)) :
    IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- A sum over a finite index type of finite values is finite. -/
theorem isReal_sum {ι : Type*} [Fintype ι] (f : ι → EReal) (h : ∀ i, IsReal (f i)) : IsReal (∑ i, f i) :=
  isReal_finset_sum _ _ fun i _ => h i

/-- An entry Σₖ aₖ · bₖ of a matrix product of finite matrices is finite. -/
theorem isReal_sum_mul {κ : Type*} [Fintype κ] (a b : κ → EReal) (ha : ∀ k, IsReal (a k)) (hb : ∀ k, IsReal (b k)) :
    IsReal (∑ k, a k * b k) :=
  isReal_sum _ fun k => (ha k).mul (hb k)

/-- A finite accumulator plus an entry Σₖ aₖ · bₖ of a product of finite matrices is finite. -/
theorem isReal_add_sum_mul {κ : Type*} [Fintype κ] {c : EReal} (hc : IsReal c) (a b : κ → EReal)
    (ha : ∀ k, IsReal (a k)) (hb : ∀ k, IsReal (b k)) : IsReal (c + ∑ k, a k * b k) :=
  hc.add (isReal_sum_mul a b ha hb)

/-- The contraction acc j + Σₖ lhs(j,k) · rhs(k,j) of finite operands onto a finite accumulator is finite at every index. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j)) (j : so.Idx) :
    IsReal (Ideal.matmul d lhs rhs acc j) :=
  isReal_add_sum_mul (ha j) _ _ (fun _ => hl _) (fun _ => hr _)

/-- The contraction Σₖ lhs(j,k) · rhs(k,j) of finite operands is finite at every index. -/
theorem isReal_mxuPass {sl sr so : Shape} (d : DotDims sl sr so) (lhs : sl.Idx → EReal) (rhs : sr.Idx → EReal)
    (hl : ∀ i, IsReal (lhs i)) (hr : ∀ i, IsReal (rhs i)) (j : so.Idx) : IsReal (Ideal.mxuPass d lhs rhs j) :=
  isReal_sum_mul _ _ (fun _ => hl _) (fun _ => hr _)

/-- A finite initial value plus the sum of the finite elements that reduce to an index is finite. -/
theorem isReal_hostReduceAdd {s : Shape} {axes : List (Fin s.rank)} {t : Shape} (h : s.ReducesTo axes t)
    (x : s.Idx → EReal) (init : EReal) (hx : ∀ i, IsReal (x i)) (hi : IsReal init) (j : t.Idx) :
    IsReal (Ideal.hostReduceAdd h x init j) :=
  hi.add (isReal_finset_sum _ _ fun i _ => hx i)

/-- The sum of the finite elements that reduce to an index is finite. -/
theorem isReal_reduceAdd {s : Shape} {axes : List (Fin s.rank)} {t : Shape} (h : s.Reduces axes t)
    (x : s.Idx → EReal) (hx : ∀ i, IsReal (x i)) (j : t.Idx) : IsReal (Ideal.reduceAdd h x j) :=
  isReal_finset_sum _ _ fun i _ => hx i

/-- A finite element plus the sum of the finite updates that land on it is finite. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) :=
  (hx i).add (isReal_finset_sum _ _ fun j _ => hu j)

/-! ## Quotients -/

/-- The quotient of two reals with a nonzero divisor, computed on the extended reals, is their real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A finite value times a real is finite. -/
theorem IsReal.mul_coe {x : EReal} (hx : IsReal x) (c : ℝ) : IsReal (x * (c : EReal)) := hx.mul (isReal_coe c)

/-- The quotient of a finite value by a nonzero real is finite. -/
theorem IsReal.div_coe {x : EReal} (hx : IsReal x) {b : ℝ} (hb : b ≠ 0) : IsReal (Ideal.div x (b : EReal)) := by
  rw [Ideal.div_coe hb]; exact hx.mul (isReal_coe _)

/-- The quotient of a finite value by a finite nonzero value is finite. -/
theorem IsReal.div {x y : EReal} (hx : IsReal x) (hy : IsReal y) (h0 : y ≠ 0) : IsReal (Ideal.div x y) := by
  obtain ⟨b, rfl⟩ := hy
  exact hx.div_coe (fun hb => h0 (by rw [hb]; rfl))

/-- The quotient of a finite value by a finite positive value is finite. -/
theorem IsReal.div_of_pos {x y : EReal} (hx : IsReal x) (hy : IsReal y) (h0 : 0 < y) : IsReal (Ideal.div x y) :=
  hx.div hy h0.ne'

/-! ## The reciprocal square root -/

/-- At a positive real a the reciprocal square root is the real (√a)⁻¹. -/
theorem rsqrt_coe_pos {a : ℝ} (ha : 0 < a) : Ideal.rsqrt (a : EReal) = (((Real.sqrt a)⁻¹ : ℝ) : EReal) := by
  rw [Ideal.rsqrt_coe, if_neg (not_lt.2 ha.le), if_neg ha.ne']

/-- (√a)⁻¹ is positive for a positive real a. -/
theorem inv_sqrt_pos {a : ℝ} (ha : 0 < a) : 0 < (Real.sqrt a)⁻¹ := inv_pos.2 (Real.sqrt_pos.2 ha)

/-- The reciprocal square root of a positive real is finite. -/
theorem isReal_rsqrt_coe_pos {a : ℝ} (ha : 0 < a) : IsReal (Ideal.rsqrt (a : EReal)) := ⟨_, rsqrt_coe_pos ha⟩

/-- The reciprocal square root of a finite positive value is finite. -/
theorem IsReal.rsqrt_of_pos {x : EReal} (hx : IsReal x) (hpos : 0 < x) : IsReal (Ideal.rsqrt x) := by
  obtain ⟨a, rfl⟩ := hx
  exact isReal_rsqrt_coe_pos (EReal.coe_pos.1 hpos)

/-- For reals v ≥ 0 and e > 0 the reciprocal square root of v + e is finite. -/
theorem isReal_rsqrt_add {v e : ℝ} (hv : 0 ≤ v) (he : 0 < e) : IsReal (Ideal.rsqrt ((v : EReal) + (e : EReal))) := by
  rw [← EReal.coe_add]; exact isReal_rsqrt_coe_pos (add_pos_of_nonneg_of_pos hv he)

/-- For reals v ≥ 0 and e > 0 the reciprocal square root of v + e is the real (√(v + e))⁻¹. -/
theorem rsqrt_add_eq {v e : ℝ} (hv : 0 ≤ v) (he : 0 < e) :
    Ideal.rsqrt ((v : EReal) + (e : EReal)) = (((Real.sqrt (v + e))⁻¹ : ℝ) : EReal) := by
  rw [← EReal.coe_add]; exact rsqrt_coe_pos (add_pos_of_nonneg_of_pos hv he)

/-- If x is a nonnegative real and y a positive real then the reciprocal square root of x + y is finite. -/
theorem isReal_rsqrt_add_of {x y : EReal} (hx : ∃ v : ℝ, 0 ≤ v ∧ x = (v : EReal)) (hy : ∃ e : ℝ, 0 < e ∧ y = (e : EReal)) :
    IsReal (Ideal.rsqrt (x + y)) := by
  obtain ⟨v, hv, rfl⟩ := hx; obtain ⟨e, he, rfl⟩ := hy; exact isReal_rsqrt_add hv he

/-- The same for the float operations' reciprocal square root of a float sum, at the ideal instance. -/
theorem isReal_floatOps_rsqrt_add_of {φ : FTy} {x y : Ideal φ} (hx : ∃ v : ℝ, 0 ≤ v ∧ x = (v : EReal))
    (hy : ∃ e : ℝ, 0 < e ∧ y = (e : EReal)) : IsReal (FloatOps.rsqrt (FloatOps.addf x y)) :=
  isReal_rsqrt_add_of hx hy

/-- The same for the host's one-operand reciprocal square root of a float sum, at the ideal instance. -/
theorem isReal_hostUnary_rsqrt_add_of {φ : FTy} {x y : Ideal φ} (hx : ∃ v : ℝ, 0 ≤ v ∧ x = (v : EReal))
    (hy : ∃ e : ℝ, 0 < e ∧ y = (e : EReal)) : IsReal (FloatOps.hostUnary .rsqrt (FloatOps.addf x y)) :=
  isReal_rsqrt_add_of hx hy

/-! ## Four float words as extended reals -/

/-- The 32-bit word 0x00000000 denotes 0. -/
theorem ofBits_f32_zero : Ideal.ofBits .f32 0x00000000#32 = 0 := by
  simp [Ideal.ofBits, Ideal.ieee]

/-- The 32-bit word 0x3F800000 denotes 1. -/
theorem ofBits_f32_one : Ideal.ofBits .f32 0x3F800000#32 = 1 := by
  simp [Ideal.ofBits, Ideal.ieee, -EReal.coe_mul]; norm_num

/-- The 32-bit word 0x479C4000 denotes the real 80000. -/
theorem ofBits_f32_80000 : Ideal.ofBits .f32 0x479C4000#32 = ((80000 : ℝ) : EReal) := by
  simp [Ideal.ofBits, Ideal.ieee, -EReal.coe_mul]; norm_num

/-- The 32-bit word 0x3727C5AC (about 10⁻⁵) denotes the real 10995116 / 2⁴⁰. -/
theorem ofBits_f32_eps : Ideal.ofBits .f32 0x3727C5AC#32 = ((10995116 / 2 ^ 40 : ℝ) : EReal) := by
  simp [Ideal.ofBits, Ideal.ieee, -EReal.coe_mul]; norm_num

/-- The 32-bit word 0x7F800000 denotes +∞. -/
theorem ofBits_f32_inf : Ideal.ofBits .f32 0x7F800000#32 = ⊤ := by
  simp [Ideal.ofBits, Ideal.ieee]

/-- 10995116 / 2⁴⁰ is positive. -/
theorem eps_pos : (0 : ℝ) < 10995116 / 2 ^ 40 := by positivity

/-- The word 0x00000000 denotes a finite value. -/
theorem isReal_ofBits_f32_zero : IsReal (Ideal.ofBits .f32 0x00000000#32) := ofBits_f32_zero ▸ isReal_zero

/-- The word 0x3F800000 denotes a finite value. -/
theorem isReal_ofBits_f32_one : IsReal (Ideal.ofBits .f32 0x3F800000#32) := ofBits_f32_one ▸ isReal_one

/-- The word 0x479C4000 denotes a finite value. -/
theorem isReal_ofBits_f32_80000 : IsReal (Ideal.ofBits .f32 0x479C4000#32) := ⟨_, ofBits_f32_80000⟩

/-- The word 0x3727C5AC denotes a finite value. -/
theorem isReal_ofBits_f32_eps : IsReal (Ideal.ofBits .f32 0x3727C5AC#32) := ⟨_, ofBits_f32_eps⟩

/-- The word 0x3727C5AC denotes a positive real. -/
theorem ofBits_f32_eps_pos : ∃ e : ℝ, 0 < e ∧ Ideal.ofBits .f32 0x3727C5AC#32 = (e : EReal) :=
  ⟨_, eps_pos, ofBits_f32_eps⟩

/-- 80000 is not 0. -/
theorem eighty_thousand_ne_zero : (80000 : ℝ) ≠ 0 := by norm_num

/-- If the comparison |x| < (the word 0x7F800000, that is +∞) answers 1, then x is finite. -/
theorem isReal_of_cmp_abs_lt_inf {x : EReal}
    (h : Ideal.cmp .olt (max x (-x)) (Ideal.ofBits .f32 0x7F800000#32) = 1#1) : IsReal x := by
  rw [ofBits_f32_inf, cmp_olt_eq_one_iff] at h
  exact isReal_of_abs_lt_top h

end Cert.LibBatchNorm

end
-- ==== Proof.RefFinite.lean ====
/-
  Finiteness of the two opaque quantities of the reference network.

  The aggregated neighbour sums A(x) are, entry by entry, 0 plus a finite sum of entries of x, so they are real
  numbers whenever every entry of x is.  The reciprocal degree of a node is 1 / max(n, 1) with n a finite sum of
  ones, so the divisor is a real number at least 1 and the quotient is a real number.
-/
import proofs.«148930_j32976758899207_2_alg».proof.Proof.RefDefs
import proofs.«148930_j32976758899207_2_alg».proof.Proof.LibBatchNorm

noncomputable section

namespace Cert.ReferenceIdeal.RefFinite

open Cert.ReferenceIdeal Cert.ReferenceIdeal.Gen Cert.ReferenceIdeal.ReadP Cert.ReferenceIdeal.RefValue Cert.LibBatchNorm
open Idealize.ShloMosaic

/-- An accumulating scatter of finite updates into a finite array is finite: each entry is the old entry plus a finite
    sum of updates. -/
theorem isReal_scatterAdd {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd (F := Ideal) (φ := .f32) d x idx upd i) :=
  isReal_hostScatterAdd d x idx upd hx hu i

/-- A gather of a finite array is finite: each entry is an entry of the array. -/
theorem isReal_gather {s si t : Shape} {w : Nat} (d : GatherDims s si t) (x : s.Idx → EReal) (idx : IVec si w)
    (hx : ∀ i, IsReal (x i)) (j : t.Idx) : IsReal (Host.gather d x idx j) := hx _

/-- Every entry of A(x) is 0 plus a finite sum of entries of x: real when x is. -/
theorem isReal_aggR (x1 : (⟨S2x1600000, .i32⟩ : BufTy).Contents (Elt Ideal)) (x : (⟨S100000x128, .f32⟩ : BufTy).Contents (Elt Ideal))
    (hx : ∀ i, IsReal (x i)) : ∀ i, IsReal (aggR x1 x i) := by
  intro i
  have h0 : ∀ i, IsReal (val_main_v26 (F := Ideal) i) := fun i => by
    rw [val_main_v26_apply, val_main_cst_4_apply]; exact isReal_ofBits_f32_zero
  have hu := isReal_gather gather_S100000x128_S1600000x1_S1600000x128_1_0_n_n_0_1_1128 x (val_main_v24 (F := Ideal) x1) hx
  unfold aggR
  generalize Host.gather gather_S100000x128_S1600000x1_S1600000x128_1_0_n_n_0_1_1128 x (val_main_v24 (F := Ideal) x1) = upd at hu
  generalize val_main_v26 (F := Ideal) = z at h0
  generalize val_main_v27 (F := Ideal) x1 = idx
  exact isReal_scatterAdd _ z idx upd h0 hu i

/-- The number of edges arriving at a node (0 plus a finite sum of ones) is real. -/
theorem isReal_degree (x1 : (⟨S2x1600000, .i32⟩ : BufTy).Contents (Elt Ideal)) (i : S100000.Idx) :
    IsReal (val_main_v7 (F := Ideal) x1 i) := by
  have h0 : ∀ i, IsReal (val_main_v5 (F := Ideal) i) := fun i => by
    rw [val_main_v5_apply, val_main_cst_0_apply]; exact isReal_ofBits_f32_zero
  have hu : ∀ j, IsReal (val_main_v4 (F := Ideal) j) := fun j => by
    rw [val_main_v4_apply, val_main_cst_apply]; exact isReal_ofBits_f32_one
  unfold val_main_v7
  generalize val_main_v5 (F := Ideal) = z at h0
  generalize val_main_v4 (F := Ideal) = upd at hu
  generalize val_main_v6 (F := Ideal) x1 = idx
  exact isReal_scatterAdd _ z idx upd h0 hu i

/-- The reciprocal degree 1 / max(n, 1) is real: the divisor is a real number that is at least 1. -/
theorem isReal_dinvR (x1 : (⟨S2x1600000, .i32⟩ : BufTy).Contents (Elt Ideal)) : ∀ i, IsReal (dinvR x1 i) := by
  intro i
  unfold dinvR
  rw [val_main_v12_apply, val_main_v11_apply, val_main_v9_apply, val_main_v10_apply, val_main_cst_2_apply,
    val_main_v8_apply, val_main_cst_1_apply]
  have hd := isReal_degree x1 (idx_main_v12 i)
  generalize val_main_v7 (F := Ideal) x1 (idx_main_v12 i) = n at hd
  simp only [Ideal.hostDivf_def, Ideal.maximumf_def, Ideal.ofBits_def, ofBits_f32_one]
  exact isReal_one.div_of_pos (hd.max isReal_one) (lt_max_of_lt_right zero_lt_one)

end Cert.ReferenceIdeal.RefFinite

end
-- ==== Proof.KernelRun.lean ====
/-
  The kernel's run with its result named.

  Every weakly fair execution of @main on the TensorCores terminates without a fault, and in every final state each
  unscoped buffer holds the contents of the last segment boundary, W10.  Read at the result buffer this names the
  result; read at the seven argument buffers, which no host operation and no region writes, it gives back the launch
  contents.
-/
import proofs.«148930_j32976758899207_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the launch theorem's implicit arguments are found by unifying its conclusion with this one, which takes unfolding
-- plain definitions in a metavariable's type
set_option backward.isDefEq.respectTransparency.types false in
/-- From any memory with zero counters every weakly fair execution of @main terminates, nothing faulting; the result
    buffer ends at the last boundary's contents, and the seven argument arrays end as launched. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v124_0) = Gen.W10 m ρ c (Proc.devRef .tc main_v124_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v124_0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.KernelRun

end
-- ==== Proof.KWalk.lean ====
/-
  Across a pallas region the buffers it does not write keep their contents: a buffer that is none of the region's arrays is
  untouched, and an array the region only reads through an input window ends as it was entered. Stated here for the seven
  argument arrays, the two rows of the edge list and the reciprocal degrees, across the first four regions.
-/
import proofs.«148930_j32976758899207_2_alg».proof.Proof.Gen.KernelIdeal.Frame
import Idealize.ShloMosaic.PureOps.Ideal

set_option maxRecDepth 16384

noncomputable section

namespace Cert.KernelIdeal.KWalk

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## Region 0 -/

theorem r0_main_arg0 : W2 (F := Ideal) m ρ c (Proc.devRef .tc main_arg0) = W1 (F := Ideal) m ρ c (Proc.devRef .tc main_arg0) :=
  (W2_arr m ρ c 2).trans (((dat0 (V1 m ρ) c).arrAt_in 2 rfl _).trans (A_eq0 (V1 m ρ) c 2))
theorem r0_main_arg1 : W2 (F := Ideal) m ρ c (Proc.devRef .tc main_arg1) = W1 (F := Ideal) m ρ c (Proc.devRef .tc main_arg1) :=
  W2_of_ne m ρ c main_arg1 (by decide)
theorem r0_main_arg2 : W2 (F := Ideal) m ρ c (Proc.devRef .tc main_arg2) = W1 (F := Ideal) m ρ c (Proc.devRef .tc main_arg2) :=
  W2_of_ne m ρ c main_arg2 (by decide)
theorem r0_main_arg3 : W2 (F := Ideal) m ρ c (Proc.devRef .tc main_arg3) = W1 (F := Ideal) m ρ c (Proc.devRef .tc main_arg3) :=
  W2_of_ne m ρ c main_arg3 (by decide)
theorem r0_main_arg4 : W2 (F := Ideal) m ρ c (Proc.devRef .tc main_arg4) = W1 (F := Ideal) m ρ c (Proc.devRef .tc main_arg4) :=
  W2_of_ne m ρ c main_arg4 (by decide)
theorem r0_main_arg5 : W2 (F := Ideal) m ρ c (Proc.devRef .tc main_arg5) = W1 (F := Ideal) m ρ c (Proc.devRef .tc main_arg5) :=
  W2_of_ne m ρ c main_arg5 (by decide)
theorem r0_main_arg6 : W2 (F := Ideal) m ρ c (Proc.devRef .tc main_arg6) = W1 (F := Ideal) m ρ c (Proc.devRef .tc main_arg6) :=
  W2_of_ne m ρ c main_arg6 (by decide)
theorem r0_main_v1 : W2 (F := Ideal) m ρ c (Proc.devRef .tc main_v1) = W1 (F := Ideal) m ρ c (Proc.devRef .tc main_v1) :=
  W2_of_ne m ρ c main_v1 (by decide)
theorem r0_main_v3 : W2 (F := Ideal) m ρ c (Proc.devRef .tc main_v3) = W1 (F := Ideal) m ρ c (Proc.devRef .tc main_v3) :=
  W2_of_ne m ρ c main_v3 (by decide)
theorem r0_main_v12 : W2 (F := Ideal) m ρ c (Proc.devRef .tc main_v12) = W1 (F := Ideal) m ρ c (Proc.devRef .tc main_v12) :=
  (W2_arr m ρ c 1).trans (((dat0 (V1 m ρ) c).arrAt_in 1 rfl _).trans (A_eq0 (V1 m ρ) c 1))

/-! ## Region 1 -/

theorem r1_main_arg0 : W4 (F := Ideal) m ρ c (Proc.devRef .tc main_arg0) = W3 (F := Ideal) m ρ c (Proc.devRef .tc main_arg0) :=
  W4_of_ne m ρ c main_arg0 (by decide)
theorem r1_main_arg1 : W4 (F := Ideal) m ρ c (Proc.devRef .tc main_arg1) = W3 (F := Ideal) m ρ c (Proc.devRef .tc main_arg1) :=
  W4_of_ne m ρ c main_arg1 (by decide)
theorem r1_main_arg2 : W4 (F := Ideal) m ρ c (Proc.devRef .tc main_arg2) = W3 (F := Ideal) m ρ c (Proc.devRef .tc main_arg2) :=
  W4_of_ne m ρ c main_arg2 (by decide)
theorem r1_main_arg3 : W4 (F := Ideal) m ρ c (Proc.devRef .tc main_arg3) = W3 (F := Ideal) m ρ c (Proc.devRef .tc main_arg3) :=
  W4_of_ne m ρ c main_arg3 (by decide)
theorem r1_main_arg4 : W4 (F := Ideal) m ρ c (Proc.devRef .tc main_arg4) = W3 (F := Ideal) m ρ c (Proc.devRef .tc main_arg4) :=
  W4_of_ne m ρ c main_arg4 (by decide)
theorem r1_main_arg5 : W4 (F := Ideal) m ρ c (Proc.devRef .tc main_arg5) = W3 (F := Ideal) m ρ c (Proc.devRef .tc main_arg5) :=
  W4_of_ne m ρ c main_arg5 (by decide)
theorem r1_main_arg6 : W4 (F := Ideal) m ρ c (Proc.devRef .tc main_arg6) = W3 (F := Ideal) m ρ c (Proc.devRef .tc main_arg6) :=
  W4_of_ne m ρ c main_arg6 (by decide)
theorem r1_main_v1 : W4 (F := Ideal) m ρ c (Proc.devRef .tc main_v1) = W3 (F := Ideal) m ρ c (Proc.devRef .tc main_v1) :=
  W4_of_ne m ρ c main_v1 (by decide)
theorem r1_main_v3 : W4 (F := Ideal) m ρ c (Proc.devRef .tc main_v3) = W3 (F := Ideal) m ρ c (Proc.devRef .tc main_v3) :=
  W4_of_ne m ρ c main_v3 (by decide)
theorem r1_main_v12 : W4 (F := Ideal) m ρ c (Proc.devRef .tc main_v12) = W3 (F := Ideal) m ρ c (Proc.devRef .tc main_v12) :=
  W4_of_ne m ρ c main_v12 (by decide)

/-! ## Region 2 -/

theorem r2_main_arg0 : W6 (F := Ideal) m ρ c (Proc.devRef .tc main_arg0) = W5 (F := Ideal) m ρ c (Proc.devRef .tc main_arg0) :=
  W6_of_ne m ρ c main_arg0 (by decide)
theorem r2_main_arg1 : W6 (F := Ideal) m ρ c (Proc.devRef .tc main_arg1) = W5 (F := Ideal) m ρ c (Proc.devRef .tc main_arg1) :=
  W6_of_ne m ρ c main_arg1 (by decide)
theorem r2_main_arg2 : W6 (F := Ideal) m ρ c (Proc.devRef .tc main_arg2) = W5 (F := Ideal) m ρ c (Proc.devRef .tc main_arg2) :=
  W6_of_ne m ρ c main_arg2 (by decide)
theorem r2_main_arg3 : W6 (F := Ideal) m ρ c (Proc.devRef .tc main_arg3) = W5 (F := Ideal) m ρ c (Proc.devRef .tc main_arg3) :=
  W6_of_ne m ρ c main_arg3 (by decide)
theorem r2_main_arg4 : W6 (F := Ideal) m ρ c (Proc.devRef .tc main_arg4) = W5 (F := Ideal) m ρ c (Proc.devRef .tc main_arg4) :=
  W6_of_ne m ρ c main_arg4 (by decide)
theorem r2_main_arg5 : W6 (F := Ideal) m ρ c (Proc.devRef .tc main_arg5) = W5 (F := Ideal) m ρ c (Proc.devRef .tc main_arg5) :=
  W6_of_ne m ρ c main_arg5 (by decide)
theorem r2_main_arg6 : W6 (F := Ideal) m ρ c (Proc.devRef .tc main_arg6) = W5 (F := Ideal) m ρ c (Proc.devRef .tc main_arg6) :=
  W6_of_ne m ρ c main_arg6 (by decide)
theorem r2_main_v1 : W6 (F := Ideal) m ρ c (Proc.devRef .tc main_v1) = W5 (F := Ideal) m ρ c (Proc.devRef .tc main_v1) :=
  W6_of_ne m ρ c main_v1 (by decide)
theorem r2_main_v3 : W6 (F := Ideal) m ρ c (Proc.devRef .tc main_v3) = W5 (F := Ideal) m ρ c (Proc.devRef .tc main_v3) :=
  W6_of_ne m ρ c main_v3 (by decide)
theorem r2_main_v12 : W6 (F := Ideal) m ρ c (Proc.devRef .tc main_v12) = W5 (F := Ideal) m ρ c (Proc.devRef .tc main_v12) :=
  (W6_arr m ρ c 1).trans (((dat2 (V5 m ρ) c).arrAt_in 1 rfl _).trans (A_eq2 (V5 m ρ) c 1))

/-! ## Region 3 -/

theorem r3_main_arg0 : W8 (F := Ideal) m ρ c (Proc.devRef .tc main_arg0) = W7 (F := Ideal) m ρ c (Proc.devRef .tc main_arg0) :=
  W8_of_ne m ρ c main_arg0 (by decide)
theorem r3_main_arg1 : W8 (F := Ideal) m ρ c (Proc.devRef .tc main_arg1) = W7 (F := Ideal) m ρ c (Proc.devRef .tc main_arg1) :=
  W8_of_ne m ρ c main_arg1 (by decide)
theorem r3_main_arg2 : W8 (F := Ideal) m ρ c (Proc.devRef .tc main_arg2) = W7 (F := Ideal) m ρ c (Proc.devRef .tc main_arg2) :=
  W8_of_ne m ρ c main_arg2 (by decide)
theorem r3_main_arg3 : W8 (F := Ideal) m ρ c (Proc.devRef .tc main_arg3) = W7 (F := Ideal) m ρ c (Proc.devRef .tc main_arg3) :=
  W8_of_ne m ρ c main_arg3 (by decide)
theorem r3_main_arg4 : W8 (F := Ideal) m ρ c (Proc.devRef .tc main_arg4) = W7 (F := Ideal) m ρ c (Proc.devRef .tc main_arg4) :=
  W8_of_ne m ρ c main_arg4 (by decide)
theorem r3_main_arg5 : W8 (F := Ideal) m ρ c (Proc.devRef .tc main_arg5) = W7 (F := Ideal) m ρ c (Proc.devRef .tc main_arg5) :=
  W8_of_ne m ρ c main_arg5 (by decide)
theorem r3_main_arg6 : W8 (F := Ideal) m ρ c (Proc.devRef .tc main_arg6) = W7 (F := Ideal) m ρ c (Proc.devRef .tc main_arg6) :=
  W8_of_ne m ρ c main_arg6 (by decide)
theorem r3_main_v1 : W8 (F := Ideal) m ρ c (Proc.devRef .tc main_v1) = W7 (F := Ideal) m ρ c (Proc.devRef .tc main_v1) :=
  W8_of_ne m ρ c main_v1 (by decide)
theorem r3_main_v3 : W8 (F := Ideal) m ρ c (Proc.devRef .tc main_v3) = W7 (F := Ideal) m ρ c (Proc.devRef .tc main_v3) :=
  W8_of_ne m ρ c main_v3 (by decide)
theorem r3_main_v12 : W8 (F := Ideal) m ρ c (Proc.devRef .tc main_v12) = W7 (F := Ideal) m ρ c (Proc.devRef .tc main_v12) :=
  W8_of_ne m ρ c main_v12 (by decide)

end Cert.KernelIdeal.KWalk

end
-- ==== Proof.KHostDefs.lean ====
/-
  The values the host lines of the program compute from the edge list, named once.

  The edge list is a 2 x 1600000 array of node numbers: row 0 holds each edge's source, row 1 its target.
  * v1Of, v3Of: the two rows, each as a flat array of 1600000 words.
  * dinvV: the reciprocal degree of every node, as a column: 1 / max(deg, 1), where deg adds 1 at the target of
    every edge (a scatter-add of ones into zeros).
  * aggV: the aggregated neighbour sums of a feature array x: row t of the result adds row s of x for every edge
    s -> t (a gather of the source rows followed by a scatter-add at the targets), a negative source number being
    read as counted from the end (+ 100000).
  Each is the composed term of the operations exactly as the program spells them, at the exact instance; nothing
  here evaluates a gather or a scatter.
-/
import proofs.«148930_j32976758899207_2_alg».proof.Proof.Gen.KernelIdeal.Launch
import proofs.«148930_j32976758899207_2_alg».proof.Proof.Spec

set_option maxRecDepth 16384

noncomputable section

namespace Cert.KernelIdeal.HostVal

open Cert.KernelIdeal Cert.KernelIdeal.Gen Idealize.ShloMosaic

/-- Row 0 of the edge list, flattened: the edge sources. -/
def v1Of (a1 : (⟨S2x1600000, .i32⟩ : BufTy).Contents (Elt Ideal)) : (⟨S1600000, .i32⟩ : BufTy).Contents (Elt Ideal) :=
  shapeCast _ (extractStridedSlice S1x1600000 ![0, 0] a1 slices_S2x1600000_S1x1600000_0_0) shapeCasts_S1x1600000_S1600000

/-- Row 1 of the edge list, flattened: the edge targets. -/
def v3Of (a1 : (⟨S2x1600000, .i32⟩ : BufTy).Contents (Elt Ideal)) : (⟨S1600000, .i32⟩ : BufTy).Contents (Elt Ideal) :=
  shapeCast _ (extractStridedSlice S1x1600000 ![1, 0] a1 slices_S2x1600000_S1x1600000_1_0) shapeCasts_S1x1600000_S1600000

/-- The reciprocal degrees as a column: 1 / max(deg, 1), deg the scatter-add of a one per edge at the edge's target. -/
def dinvV (v3 : (⟨S1600000, .i32⟩ : BufTy).Contents (Elt Ideal)) : (⟨S100000x1, .f32⟩ : BufTy).Contents (Elt Ideal) :=
  (broadcastInDim S100000x1 ![0] bcast_S100000_S100000x1_0 : (⟨S100000, .f32⟩ : BufTy).Contents (Elt Ideal) → (⟨S100000x1, .f32⟩ : BufTy).Contents (Elt Ideal))
    ((Host.divf (F := Ideal) (φ := .f32) : (⟨S100000, .f32⟩ : BufTy).Contents (Elt Ideal) → (⟨S100000, .f32⟩ : BufTy).Contents (Elt Ideal) → (⟨S100000, .f32⟩ : BufTy).Contents (Elt Ideal))
      ((broadcastInDim S100000 ![] bcast_S_S100000 : (⟨S_, .f32⟩ : BufTy).Contents (Elt Ideal) → (⟨S100000, .f32⟩ : BufTy).Contents (Elt Ideal))
        (constant (F := Ideal) S_ .f32 0x3F800000#32))
      ((maximumf (F := Ideal) (φ := .f32) : (⟨S100000, .f32⟩ : BufTy).Contents (Elt Ideal) → (⟨S100000, .f32⟩ : BufTy).Contents (Elt Ideal) → (⟨S100000, .f32⟩ : BufTy).Contents (Elt Ideal))
        (((fun x i u => Host.scatterAdd (F := Ideal) (φ := .f32) scatter_S100000_S1600000x1_S1600000_n_0_0_1 x i u) : (⟨S100000, .f32⟩ : BufTy).Contents (Elt Ideal) → (⟨S1600000x1, .i32⟩ : BufTy).Contents (Elt Ideal) → (⟨S1600000, .f32⟩ : BufTy).Contents (Elt Ideal) → (⟨S100000, .f32⟩ : BufTy).Contents (Elt Ideal))
          ((broadcastInDim S100000 ![] bcast_S_S100000 : (⟨S_, .f32⟩ : BufTy).Contents (Elt Ideal) → (⟨S100000, .f32⟩ : BufTy).Contents (Elt Ideal))
            (constant (F := Ideal) S_ .f32 0x00000000#32))
          ((broadcastInDim S1600000x1 ![0] bcast_S1600000_S1600000x1_0 : (⟨S1600000, .i32⟩ : BufTy).Contents (Elt Ideal) → (⟨S1600000x1, .i32⟩ : BufTy).Contents (Elt Ideal)) v3)
          ((broadcastInDim S1600000 ![] bcast_S_S1600000 : (⟨S_, .f32⟩ : BufTy).Contents (Elt Ideal) → (⟨S1600000, .f32⟩ : BufTy).Contents (Elt Ideal))
            (constant (F := Ideal) S_ .f32 0x3F800000#32)))
        ((broadcastInDim S100000 ![] bcast_S_S100000 : (⟨S_, .f32⟩ : BufTy).Contents (Elt Ideal) → (⟨S100000, .f32⟩ : BufTy).Contents (Elt Ideal))
          (constant (F := Ideal) S_ .f32 0x3F800000#32))))

/-- The aggregated neighbour sums of x: zeros, plus row (source) of x added into row (target) for every edge;
    a negative source number is first shifted by 100000. -/
def aggV (v1 v3 : (⟨S1600000, .i32⟩ : BufTy).Contents (Elt Ideal)) (x : (⟨S100000x128, .f32⟩ : BufTy).Contents (Elt Ideal)) :
    (⟨S100000x128, .f32⟩ : BufTy).Contents (Elt Ideal) :=
  ((fun x i u => Host.scatterAdd (F := Ideal) (φ := .f32) scatter_S100000x128_S1600000x1_S1600000x128_1_0_0_1 x i u) : (⟨S100000x128, .f32⟩ : BufTy).Contents (Elt Ideal) → (⟨S1600000x1, .i32⟩ : BufTy).Contents (Elt Ideal) → (⟨S1600000x128, .f32⟩ : BufTy).Contents (Elt Ideal) → (⟨S100000x128, .f32⟩ : BufTy).Contents (Elt Ideal))
    ((broadcastInDim S100000x128 ![] bcast_S_S100000x128 : (⟨S_, .f32⟩ : BufTy).Contents (Elt Ideal) → (⟨S100000x128, .f32⟩ : BufTy).Contents (Elt Ideal))
      (constant (F := Ideal) S_ .f32 0x00000000#32))
    ((broadcastInDim S1600000x1 ![0] bcast_S1600000_S1600000x1_0 : (⟨S1600000, .i32⟩ : BufTy).Contents (Elt Ideal) → (⟨S1600000x1, .i32⟩ : BufTy).Contents (Elt Ideal)) v3)
    (((fun x i => Host.gather gather_S100000x128_S1600000x1_S1600000x128_1_0_n_n_0_1_1128 x i) : (⟨S100000x128, .f32⟩ : BufTy).Contents (Elt Ideal) → (⟨S1600000x1, .i32⟩ : BufTy).Contents (Elt Ideal) → (⟨S1600000x128, .f32⟩ : BufTy).Contents (Elt Ideal))
      x
      ((broadcastInDim S1600000x1 ![0] bcast_S1600000_S1600000x1_0 : (⟨S1600000, .i32⟩ : BufTy).Contents (Elt Ideal) → (⟨S1600000x1, .i32⟩ : BufTy).Contents (Elt Ideal))
        ((select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal))
          ((cmpi .slt : (⟨S1600000, .i32⟩ : BufTy).Contents (Elt Ideal) → (⟨S1600000, .i32⟩ : BufTy).Contents (Elt Ideal) → (⟨S1600000, .i1⟩ : BufTy).Contents (Elt Ideal))
            v1
            ((broadcastInDim S1600000 ![] bcast_S_S1600000 : (⟨S_, .i32⟩ : BufTy).Contents (Elt Ideal) → (⟨S1600000, .i32⟩ : BufTy).Contents (Elt Ideal))
              (constantI S_ 32 0#32)))
          ((addi : (⟨S1600000, .i32⟩ : BufTy).Contents (Elt Ideal) → (⟨S1600000, .i32⟩ : BufTy).Contents (Elt Ideal) → (⟨S1600000, .i32⟩ : BufTy).Contents (Elt Ideal))
            v1
            ((broadcastInDim S1600000 ![] bcast_S_S1600000 : (⟨S_, .i32⟩ : BufTy).Contents (Elt Ideal) → (⟨S1600000, .i32⟩ : BufTy).Contents (Elt Ideal))
              (constantI S_ 32 100000#32)))
          v1)))

end Cert.KernelIdeal.HostVal

end
-- ==== Proof.KStretch0.lean ====
/-
  The host lines before the first region, read from an arbitrary starting valuation W.

  They split the edge list into sources and targets, compute the reciprocal degrees and the aggregated neighbour
  sums of the input features, and cut layer 0's two weight matrices and its bias out of the stacked parameters.
  Each result is stated as a function of W at the argument buffers only; the gather and the scatter-adds stay
  folded inside HostVal.dinvV and HostVal.aggV, and the cut-out parameters are read entry by entry.
-/
import proofs.«148930_j32976758899207_2_alg».proof.Proof.KHostDefs
import Idealize.ShloMosaic.Lib.Pipeline.Value
import Idealize.ShloMosaic.Lib.ValueIdx

set_option maxRecDepth 16384

noncomputable section

namespace Cert.KernelIdeal.KStretch0

open Cert.KernelIdeal Cert.KernelIdeal.Gen Cert.KernelIdeal.HostVal Idealize.ShloMosaic Idealize.ShloMosaic.ValueIdx
open Idealize.ShloMosaic.StableHlo Idealize.SL.Sem

variable (W : Valuation τ sig (Elt Ideal))

/-! ## The edge list, the degrees, the aggregated sums -/

/-- The edge sources: row 0 of the edge list. -/
theorem v1_eq : StableHlo.after (hostOps0 (F := Ideal)) W (Proc.devRef .tc main_v1) = v1Of (W (Proc.devRef .tc main_arg1)) := by
  after_results_simp; rfl

/-- The edge targets: row 1 of the edge list. -/
theorem v3_eq : StableHlo.after (hostOps0 (F := Ideal)) W (Proc.devRef .tc main_v3) = v3Of (W (Proc.devRef .tc main_arg1)) := by
  after_results_simp; rfl

/-- The reciprocal degrees, from the edge targets. -/
theorem v12_eq : StableHlo.after (hostOps0 (F := Ideal)) W (Proc.devRef .tc main_v12) = dinvV (v3Of (W (Proc.devRef .tc main_arg1))) := by
  after_results_simp; rfl

/-- The aggregated neighbour sums of the input features. -/
theorem v22_eq : StableHlo.after (hostOps0 (F := Ideal)) W (Proc.devRef .tc main_v22)
    = aggV (v1Of (W (Proc.devRef .tc main_arg1))) (v3Of (W (Proc.devRef .tc main_arg1))) (W (Proc.devRef .tc main_arg0)) := by
  after_results_simp; rfl

/-! ## Layer 0's parameters, entry by entry -/

/-- Matrix 0 of a stack of three 128 x 128 matrices, its leading unit axis dropped: entry (k, j) is entry (0, k, j) of the stack. -/
theorem mat_apply (x : (⟨S3x128x128, .f32⟩ : BufTy).Contents (Elt Ideal)) (k j : Fin 128) :
    shapeCast S128x128 (extractStridedSlice S1x128x128 ![0, 0, 0] x slices_S3x128x128_S1x128x128_0_0_0) shapeCasts_S1x128x128_S128x128 (ix2 k j)
      = x (ix3 (0 : Fin 3) k j) := by
  refine (shapeCast_apply _ shapeCasts_S1x128x128_S128x128 (ix2 k j) (ix3 (0 : Fin 1) k j) ?_).trans ?_
  · rewrite [Shape.rowMajor_val_three, Shape.rowMajor_val_two]
    show (0 * 128 + k.val) * 128 + j.val = k.val * 128 + j.val
    omega
  · exact extractStridedSlice_apply ![0, 0, 0] x slices_S3x128x128_S1x128x128_0_0_0 (ix3 (0 : Fin 1) k j) (ix3 (0 : Fin 3) k j) (fun a => match a with
      | ⟨0, _⟩ => by show (0 : Nat) = 0 + 0; rfl
      | ⟨1, _⟩ => by show k.val = 0 + k.val; omega
      | ⟨2, _⟩ => by show j.val = 0 + j.val; omega)

/-- Row 0 of a stack of three rows of 128, flattened and given back its unit axis: entry (0, j) is entry (0, j) of the stack. -/
theorem row_apply (x : (⟨S3x128, .f32⟩ : BufTy).Contents (Elt Ideal)) (j : Fin 128) :
    shapeCast S1x128 (shapeCast S128 (extractStridedSlice S1x128 ![0, 0] x slices_S3x128_S1x128_0_0) shapeCasts_S1x128_S128) shapeCasts_S128_S1x128 (ix2 (0 : Fin 1) j)
      = x (ix2 (0 : Fin 3) j) := by
  refine (shapeCast_apply _ shapeCasts_S128_S1x128 (ix2 (0 : Fin 1) j) (ix1 j) ?_).trans ?_
  · rewrite [Shape.rowMajor_val_one, Shape.rowMajor_val_two]
    show j.val = 0 * 128 + j.val
    omega
  refine (shapeCast_apply _ shapeCasts_S1x128_S128 (ix1 j) (ix2 (0 : Fin 1) j) ?_).trans ?_
  · rewrite [Shape.rowMajor_val_two, Shape.rowMajor_val_one]
    show 0 * 128 + j.val = j.val
    omega
  · exact extractStridedSlice_apply ![0, 0] x slices_S3x128_S1x128_0_0 (ix2 (0 : Fin 1) j) (ix2 (0 : Fin 3) j) (fun a => match a with
      | ⟨0, _⟩ => by show (0 : Nat) = 0 + 0; rfl
      | ⟨1, _⟩ => by show j.val = 0 + j.val; omega)

/-- The left weight matrix of layer 0. -/
theorem v24_apply (k j : Fin 128) :
    StableHlo.after (hostOps0 (F := Ideal)) W (Proc.devRef .tc main_v24) (ix2 k j) = W (Proc.devRef .tc main_arg2) (ix3 (0 : Fin 3) k j) := by
  have e : StableHlo.after (hostOps0 (F := Ideal)) W (Proc.devRef .tc main_v24)
      = shapeCast S128x128 (extractStridedSlice S1x128x128 ![0, 0, 0] (W (Proc.devRef .tc main_arg2)) slices_S3x128x128_S1x128x128_0_0_0) shapeCasts_S1x128x128_S128x128 := by
    after_results_simp; rfl
  rw [e]
  exact mat_apply _ k j

/-- The right weight matrix of layer 0. -/
theorem v28_apply (k j : Fin 128) :
    StableHlo.after (hostOps0 (F := Ideal)) W (Proc.devRef .tc main_v28) (ix2 k j) = W (Proc.devRef .tc main_arg4) (ix3 (0 : Fin 3) k j) := by
  have e : StableHlo.after (hostOps0 (F := Ideal)) W (Proc.devRef .tc main_v28)
      = shapeCast S128x128 (extractStridedSlice S1x128x128 ![0, 0, 0] (W (Proc.devRef .tc main_arg4)) slices_S3x128x128_S1x128x128_0_0_0) shapeCasts_S1x128x128_S128x128 := by
    after_results_simp; rfl
  rw [e]
  exact mat_apply _ k j

/-- The bias of layer 0, as a row. -/
theorem v29_apply (j : Fin 128) :
    StableHlo.after (hostOps0 (F := Ideal)) W (Proc.devRef .tc main_v29) (ix2 (0 : Fin 1) j) = W (Proc.devRef .tc main_arg3) (ix2 (0 : Fin 3) j) := by
  have e : StableHlo.after (hostOps0 (F := Ideal)) W (Proc.devRef .tc main_v29)
      = shapeCast S1x128 (shapeCast S128 (extractStridedSlice S1x128 ![0, 0] (W (Proc.devRef .tc main_arg3)) slices_S3x128_S1x128_0_0) shapeCasts_S1x128_S128) shapeCasts_S128_S1x128 := by
    after_results_simp; rfl
  rw [e]
  exact row_apply _ j

/-! ## What the stretch leaves alone -/

/-- No line of the stretch writes argument 0 (the input features). -/
theorem keep_main_arg0 : StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 1 (the edge list). -/
theorem keep_main_arg1 : StableHlo.after (hostOps0 (F := Ideal)) W (Proc.devRef .tc main_arg1) = W (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 2 (the stacked left weight matrices). -/
theorem keep_main_arg2 : StableHlo.after (hostOps0 (F := Ideal)) W (Proc.devRef .tc main_arg2) = W (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 3 (the stacked biases). -/
theorem keep_main_arg3 : StableHlo.after (hostOps0 (F := Ideal)) W (Proc.devRef .tc main_arg3) = W (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 4 (the stacked right weight matrices). -/
theorem keep_main_arg4 : StableHlo.after (hostOps0 (F := Ideal)) W (Proc.devRef .tc main_arg4) = W (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 5 (the stacked normalisation scales). -/
theorem keep_main_arg5 : StableHlo.after (hostOps0 (F := Ideal)) W (Proc.devRef .tc main_arg5) = W (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 6 (the stacked normalisation shifts). -/
theorem keep_main_arg6 : StableHlo.after (hostOps0 (F := Ideal)) W (Proc.devRef .tc main_arg6) = W (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The same fact about the input features under its other name. -/
theorem arg0_keep : StableHlo.after (hostOps0 (F := Ideal)) W (Proc.devRef .tc main_arg0) = W (Proc.devRef .tc main_arg0) :=
  keep_main_arg0 W

end Cert.KernelIdeal.KStretch0

end
-- ==== Proof.KStretch1.lean ====
/-
  The host operations between the first linear region and the first normalisation region.

  The linear region leaves two [160,128] arrays: for each of the 20 tiles of 5000 rows, the column sums of its output
  (in rows 8t … 8t+7 of the first array) and the column sums of the squares (the same rows of the second). The
  operations here read row 8t of each tile, add the 20 rows up, and compute per channel j

      mean(j)  = Σₜ s1(t, j) / 100000,          meansq(j) = Σₜ s2(t, j) / 100000,
      var(j)   = max(meansq(j) − mean(j)², 0),
      scale(j) = γ(j) · rsqrt(var(j) + ε),      shift(j)  = β(j) − mean(j) · scale(j),

  with γ and β row 0 of the two [2,128] parameter arrays. Each operation is named as a function of its operands and
  read at an index; the sum's starting word is the real 0 and drops out. The statements are over an arbitrary
  valuation of the buffers before the stretch. The last part records the buffers the stretch leaves untouched.
-/
import proofs.«148930_j32976758899207_2_alg».proof.Proof.Gen.KernelIdeal.Launch
import proofs.«148930_j32976758899207_2_alg».proof.Proof.Spec
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.KStretch1

open Cert.KernelIdeal Cert.KernelIdeal.Gen Cert.Sage Idealize.ShloMosaic Idealize.ShloMosaic.ValueIdx
open scoped BigOperators

/-! ## The stages, as functions of their operands -/

/-- Rows 0, 8, 16, … of a [160,128] array, as a [20,128] array: the array is cut into 20 groups of 8 rows and the
    first row of each group is kept. -/
def tileRows (x : FVec Ideal S160x128 .f32) : FVec Ideal S20x128 .f32 :=
  shapeCast S20x128
    (extractStridedSlice S20x1x128 ![0, 0, 0] (shapeCast S20x8x128 x shapeCasts_S160x128_S20x8x128)
      slices_S20x8x128_S20x1x128_0_0_0)
    shapeCasts_S20x1x128_S20x128

/-- Entry (t, j) of the kept rows is entry (8t, j) of the array. -/
theorem tileRows_apply (x : FVec Ideal S160x128 .f32) (t : Fin 20) (j : Fin 128) :
    tileRows x (ix2 t j) = x (ix2 (⟨8 * t.val, by omega⟩ : Fin 160) j) := by
  unfold tileRows
  refine (shapeCast_apply _ shapeCasts_S20x1x128_S20x128 (ix2 t j) (ix3 t (0 : Fin 1) j) ?_).trans ?_
  · rewrite [Shape.rowMajor_val_three, Shape.rowMajor_val_two]
    show (t.val * 1 + 0) * 128 + j.val = t.val * 128 + j.val
    omega
  refine (extractStridedSlice_apply ![0, 0, 0] _ slices_S20x8x128_S20x1x128_0_0_0 (ix3 t (0 : Fin 1) j)
    (ix3 t (0 : Fin 8) j) (fun a => match a with
      | ⟨0, _⟩ => by show t.val = 0 + t.val; omega
      | ⟨1, _⟩ => by show 0 = 0 + 0; rfl
      | ⟨2, _⟩ => by show j.val = 0 + j.val; omega)).trans ?_
  exact shapeCast_apply x shapeCasts_S160x128_S20x8x128 (ix3 t (0 : Fin 8) j) (ix2 (⟨8 * t.val, by omega⟩ : Fin 160) j)
    (by rewrite [Shape.rowMajor_val_two, Shape.rowMajor_val_three]
        show (8 * t.val) * 128 + j.val = (t.val * 8 + 0) * 128 + j.val
        omega)

/-- The column sums of a [20,128] array, started from the word of 0. -/
def colSum (y : FVec Ideal S20x128 .f32) : FVec Ideal S128 .f32 :=
  Host.reduceAdd (F := Ideal) y (constant (F := Ideal) S_ .f32 0x00000000#32) reducesTo_S20x128_S128_d0 h_S_

/-- Column j's sum is the plain sum of the 20 entries of column j: the starting word is the real 0. -/
theorem colSum_apply (y : FVec Ideal S20x128 .f32) (j : Fin 128) :
    colSum y (ix1 j) = ∑ t : Fin 20, y (ix2 t j) := by
  unfold colSum
  refine (hostReduceAdd_apply y _ reducesTo_S20x128_S128_d0 h_S_ (ix1 j)).trans ?_
  refine (Ideal.hostReduceAdd_single reducesTo_S20x128_S128_d0 (by decide) y _ (ix1 j)).trans ?_
  show Ideal.ofBits .f32 0x00000000#32 + ∑ t : Fin 20, y _ = _
  rw [Ideal.ofBits_zero_f32, zero_add]
  exact Finset.sum_congr rfl fun t _ => congrArg y (funext fun a => Fin.ext (by match a with | ⟨0, _⟩ => rfl | ⟨1, _⟩ => rfl))

/-- One float word in every channel. -/
def cvec (b : BitVec 32) : FVec Ideal S128 .f32 :=
  broadcastInDim S128 ![] bcast_S_S128 (constant (F := Ideal) S_ .f32 b)

theorem cvec_apply (b : BitVec 32) (i : S128.Idx) : cvec b i = Ideal.ofBits .f32 b := by
  unfold cvec
  exact (broadcastInDim_scalar_apply bcast_S_S128 _ i).trans rfl

/-- The mean per channel: the column sums of the kept rows over the word of 100000. -/
def meanV (x : FVec Ideal S160x128 .f32) : FVec Ideal S128 .f32 :=
  Host.divf (F := Ideal) (colSum (tileRows x)) (cvec 0x47C35000#32)

theorem meanV_apply (x : FVec Ideal S160x128 .f32) (j : Fin 128) :
    meanV x (ix1 j) = muT (fun t : Fin 20 => x (ix2 (⟨8 * t.val, by omega⟩ : Fin 160) j)) := by
  unfold meanV muT
  refine (hostDivf_apply _ _ (ix1 j)).trans ?_
  rw [colSum_apply, cvec_apply]
  exact congrArg (Ideal.div · cN) (Finset.sum_congr rfl fun t _ => tileRows_apply x t j)

/-- The scale per channel: γ · rsqrt(max(E[y²] − E[y]², 0) + ε), from the two arrays of tile sums and γ. -/
def scaleV (x1 x2 : FVec Ideal S160x128 .f32) (g : FVec Ideal S128 .f32) : FVec Ideal S128 .f32 :=
  mulf g (Host.rsqrt (F := Ideal)
    (addf (maximumf (subf (meanV x2) (mulf (meanV x1) (meanV x1))) (cvec 0x00000000#32)) (cvec 0x3727C5AC#32)))

theorem scaleV_apply (x1 x2 : FVec Ideal S160x128 .f32) (g : FVec Ideal S128 .f32) (j : Fin 128) :
    scaleV x1 x2 g (ix1 j)
      = scaleT (fun t : Fin 20 => x1 (ix2 (⟨8 * t.val, by omega⟩ : Fin 160) j))
          (fun t : Fin 20 => x2 (ix2 (⟨8 * t.val, by omega⟩ : Fin 160) j)) (g (ix1 j)) := by
  unfold scaleV scaleT varT
  show g (ix1 j) * Ideal.rsqrt (max (meanV x2 (ix1 j) - meanV x1 (ix1 j) * meanV x1 (ix1 j)) (cvec 0x00000000#32 (ix1 j))
      + cvec 0x3727C5AC#32 (ix1 j)) = _
  rw [meanV_apply, meanV_apply, cvec_apply, cvec_apply]
  rfl

/-- The shift per channel: β − mean · scale. -/
def shiftV (x1 x2 : FVec Ideal S160x128 .f32) (g be : FVec Ideal S128 .f32) : FVec Ideal S128 .f32 :=
  subf be (mulf (meanV x1) (scaleV x1 x2 g))

theorem shiftV_apply (x1 x2 : FVec Ideal S160x128 .f32) (g be : FVec Ideal S128 .f32) (j : Fin 128) :
    shiftV x1 x2 g be (ix1 j)
      = shiftT (fun t : Fin 20 => x1 (ix2 (⟨8 * t.val, by omega⟩ : Fin 160) j))
          (fun t : Fin 20 => x2 (ix2 (⟨8 * t.val, by omega⟩ : Fin 160) j)) (g (ix1 j)) (be (ix1 j)) := by
  unfold shiftV shiftT
  show be (ix1 j) - meanV x1 (ix1 j) * scaleV x1 x2 g (ix1 j) = _
  rw [meanV_apply, scaleV_apply]

/-- Row 0 of a [2,128] array, as a vector. -/
def row0 (a : FVec Ideal S2x128 .f32) : FVec Ideal S128 .f32 :=
  shapeCast S128 (extractStridedSlice S1x128 ![0, 0] a slices_S2x128_S1x128_0_0) shapeCasts_S1x128_S128

theorem row0_apply (a : FVec Ideal S2x128 .f32) (j : Fin 128) : row0 a (ix1 j) = a (ix2 (0 : Fin 2) j) := by
  unfold row0
  refine (shapeCast_apply _ shapeCasts_S1x128_S128 (ix1 j) (ix2 (0 : Fin 1) j) ?_).trans ?_
  · rewrite [Shape.rowMajor_val_two, Shape.rowMajor_val_one]
    show 0 * 128 + j.val = j.val
    omega
  exact extractStridedSlice_apply ![0, 0] a slices_S2x128_S1x128_0_0 (ix2 (0 : Fin 1) j) (ix2 (0 : Fin 2) j)
    (fun a => match a with
      | ⟨0, _⟩ => by show 0 = 0 + 0; rfl
      | ⟨1, _⟩ => by show j.val = 0 + j.val; omega)

/-- A vector as a one-row array. -/
def asRow (v : FVec Ideal S128 .f32) : FVec Ideal S1x128 .f32 := shapeCast S1x128 v shapeCasts_S128_S1x128

theorem asRow_apply (v : FVec Ideal S128 .f32) (j : Fin 128) : asRow v (ix2 (0 : Fin 1) j) = v (ix1 j) := by
  unfold asRow
  exact shapeCast_apply v shapeCasts_S128_S1x128 (ix2 (0 : Fin 1) j) (ix1 j)
    (by rewrite [Shape.rowMajor_val_two, Shape.rowMajor_val_one]
        show j.val = 0 * 128 + j.val
        omega)

/-! ## The stretch between the first two regions -/

/-- What the stretch leaves in the scale buffer: the composed stages. -/
theorem v57_eq (W : Valuation τ sig (Elt Ideal)) :
    StableHlo.after (hostOps1 (F := Ideal)) W (Proc.devRef .tc main_v57)
      = asRow (scaleV (W (Proc.devRef .tc main_v30_1)) (W (Proc.devRef .tc main_v30_2)) (row0 (W (Proc.devRef .tc main_arg5)))) := by
  after_results_simp
  rfl

/-- What the stretch leaves in the shift buffer. -/
theorem v58_eq (W : Valuation τ sig (Elt Ideal)) :
    StableHlo.after (hostOps1 (F := Ideal)) W (Proc.devRef .tc main_v58)
      = asRow (shiftV (W (Proc.devRef .tc main_v30_1)) (W (Proc.devRef .tc main_v30_2)) (row0 (W (Proc.devRef .tc main_arg5)))
          (row0 (W (Proc.devRef .tc main_arg6)))) := by
  after_results_simp
  rfl

/-- The scale of channel j after the stretch: γ(j) · rsqrt(var(j) + ε), the statistics from rows 8t of the two arrays
    of tile sums. -/
theorem v57_apply (W : Valuation τ sig (Elt Ideal)) (j : Fin 128) :
    StableHlo.after (hostOps1 (F := Ideal)) W (Proc.devRef .tc main_v57) (ix2 (0 : Fin 1) j)
      = Sage.scaleT (fun t : Fin 20 => W (Proc.devRef .tc main_v30_1) (ix2 (⟨8 * t.val, by omega⟩ : Fin 160) j))
          (fun t : Fin 20 => W (Proc.devRef .tc main_v30_2) (ix2 (⟨8 * t.val, by omega⟩ : Fin 160) j))
          (W (Proc.devRef .tc main_arg5) (ix2 (0 : Fin 2) j)) := by
  rw [v57_eq, asRow_apply, scaleV_apply, row0_apply]

/-- The shift of channel j after the stretch: β(j) − mean(j) · scale(j). -/
theorem v58_apply (W : Valuation τ sig (Elt Ideal)) (j : Fin 128) :
    StableHlo.after (hostOps1 (F := Ideal)) W (Proc.devRef .tc main_v58) (ix2 (0 : Fin 1) j)
      = Sage.shiftT (fun t : Fin 20 => W (Proc.devRef .tc main_v30_1) (ix2 (⟨8 * t.val, by omega⟩ : Fin 160) j))
          (fun t : Fin 20 => W (Proc.devRef .tc main_v30_2) (ix2 (⟨8 * t.val, by omega⟩ : Fin 160) j))
          (W (Proc.devRef .tc main_arg5) (ix2 (0 : Fin 2) j)) (W (Proc.devRef .tc main_arg6) (ix2 (0 : Fin 2) j)) := by
  rw [v58_eq, asRow_apply, shiftV_apply, row0_apply, row0_apply]

/-! ## Buffers the stretch does not write -/

/-- No operation of the stretch writes the buffer: each operation writes its own result buffer, another reference. -/
local macro "keep_tac" : tactic =>
  `(tactic| (refine StableHlo.after_of_forall_not_mem _ _ (List.forall_iff_forall_mem.mp ?_)
             simp only [hostOps1, List.Forall, StableHlo.nullary_writes, StableHlo.unary_writes, StableHlo.binary_writes,
               StableHlo.reshape_writes, Finset.mem_singleton]
             repeat' apply And.intro
             all_goals exact StableHlo.devRef_ne_of_ne (by decide)))

theorem keep_main_v30_0 (W : Valuation τ sig (Elt Ideal)) :
    StableHlo.after (hostOps1 (F := Ideal)) W (Proc.devRef .tc main_v30_0) = W (Proc.devRef .tc main_v30_0) := by keep_tac

theorem keep_main_v12 (W : Valuation τ sig (Elt Ideal)) :
    StableHlo.after (hostOps1 (F := Ideal)) W (Proc.devRef .tc main_v12) = W (Proc.devRef .tc main_v12) := by keep_tac

theorem keep_main_v1 (W : Valuation τ sig (Elt Ideal)) :
    StableHlo.after (hostOps1 (F := Ideal)) W (Proc.devRef .tc main_v1) = W (Proc.devRef .tc main_v1) := by keep_tac

theorem keep_main_v3 (W : Valuation τ sig (Elt Ideal)) :
    StableHlo.after (hostOps1 (F := Ideal)) W (Proc.devRef .tc main_v3) = W (Proc.devRef .tc main_v3) := by keep_tac

theorem keep_main_arg0 (W : Valuation τ sig (Elt Ideal)) :
    StableHlo.after (hostOps1 (F := Ideal)) W (Proc.devRef .tc main_arg0) = W (Proc.devRef .tc main_arg0) := by keep_tac

theorem keep_main_arg1 (W : Valuation τ sig (Elt Ideal)) :
    StableHlo.after (hostOps1 (F := Ideal)) W (Proc.devRef .tc main_arg1) = W (Proc.devRef .tc main_arg1) := by keep_tac

theorem keep_main_arg2 (W : Valuation τ sig (Elt Ideal)) :
    StableHlo.after (hostOps1 (F := Ideal)) W (Proc.devRef .tc main_arg2) = W (Proc.devRef .tc main_arg2) := by keep_tac

theorem keep_main_arg3 (W : Valuation τ sig (Elt Ideal)) :
    StableHlo.after (hostOps1 (F := Ideal)) W (Proc.devRef .tc main_arg3) = W (Proc.devRef .tc main_arg3) := by keep_tac

theorem keep_main_arg4 (W : Valuation τ sig (Elt Ideal)) :
    StableHlo.after (hostOps1 (F := Ideal)) W (Proc.devRef .tc main_arg4) = W (Proc.devRef .tc main_arg4) := by keep_tac

theorem keep_main_arg5 (W : Valuation τ sig (Elt Ideal)) :
    StableHlo.after (hostOps1 (F := Ideal)) W (Proc.devRef .tc main_arg5) = W (Proc.devRef .tc main_arg5) := by keep_tac

theorem keep_main_arg6 (W : Valuation τ sig (Elt Ideal)) :
    StableHlo.after (hostOps1 (F := Ideal)) W (Proc.devRef .tc main_arg6) = W (Proc.devRef .tc main_arg6) := by keep_tac

end Cert.KernelIdeal.KStretch1

end
-- ==== Proof.KStretch2.lean ====
/-
  The host lines before region 2, read from an arbitrary starting valuation W.

  They aggregate the neighbour sums of the features the previous region left (the same gather and scatter-add as
  before the first region, over the same edge sources and targets) and cut layer 1's two weight matrices and its
  bias out of the stacked parameters. The aggregate is stated as HostVal.aggV of W at the sources, the targets and
  the features; the cut-out parameters are read entry by entry; every buffer a later region still reads is untouched.
-/
import proofs.«148930_j32976758899207_2_alg».proof.Proof.KHostDefs
import Idealize.ShloMosaic.Lib.Pipeline.Value
import Idealize.ShloMosaic.Lib.ValueIdx

set_option maxRecDepth 16384

noncomputable section

namespace Cert.KernelIdeal.KStretch2

open Cert.KernelIdeal Cert.KernelIdeal.Gen Cert.KernelIdeal.HostVal Idealize.ShloMosaic Idealize.ShloMosaic.ValueIdx
open Idealize.ShloMosaic.StableHlo Idealize.SL.Sem

variable (W : Valuation τ sig (Elt Ideal))

/-! ## The aggregated sums -/

/-- The aggregated neighbour sums of the features entering layer 1. -/
theorem v69_eq : StableHlo.after (hostOps2 (F := Ideal)) W (Proc.devRef .tc main_v69)
    = aggV (W (Proc.devRef .tc main_v1)) (W (Proc.devRef .tc main_v3)) (W (Proc.devRef .tc main_v59)) := by
  after_results_simp; rfl

/-! ## Layer 1's parameters, entry by entry -/

/-- Matrix 1 of a stack of three 128 x 128 matrices, its leading unit axis dropped: entry (k, j) is entry (1, k, j) of the stack. -/
theorem mat_apply (x : (⟨S3x128x128, .f32⟩ : BufTy).Contents (Elt Ideal)) (k j : Fin 128) :
    shapeCast S128x128 (extractStridedSlice S1x128x128 ![1, 0, 0] x slices_S3x128x128_S1x128x128_1_0_0) shapeCasts_S1x128x128_S128x128 (ix2 k j)
      = x (ix3 (1 : Fin 3) k j) := by
  refine (shapeCast_apply _ shapeCasts_S1x128x128_S128x128 (ix2 k j) (ix3 (0 : Fin 1) k j) ?_).trans ?_
  · rewrite [Shape.rowMajor_val_three, Shape.rowMajor_val_two]
    show (0 * 128 + k.val) * 128 + j.val = k.val * 128 + j.val
    omega
  · exact extractStridedSlice_apply ![1, 0, 0] x slices_S3x128x128_S1x128x128_1_0_0 (ix3 (0 : Fin 1) k j) (ix3 (1 : Fin 3) k j) (fun a => match a with
      | ⟨0, _⟩ => by show (1 : Nat) = 1 + 0; rfl
      | ⟨1, _⟩ => by show k.val = 0 + k.val; omega
      | ⟨2, _⟩ => by show j.val = 0 + j.val; omega)

/-- Row 1 of a stack of three rows of 128, flattened and given back its unit axis: entry (0, j) is entry (1, j) of the stack. -/
theorem row_apply (x : (⟨S3x128, .f32⟩ : BufTy).Contents (Elt Ideal)) (j : Fin 128) :
    shapeCast S1x128 (shapeCast S128 (extractStridedSlice S1x128 ![1, 0] x slices_S3x128_S1x128_1_0) shapeCasts_S1x128_S128) shapeCasts_S128_S1x128 (ix2 (0 : Fin 1) j)
      = x (ix2 (1 : Fin 3) j) := by
  refine (shapeCast_apply _ shapeCasts_S128_S1x128 (ix2 (0 : Fin 1) j) (ix1 j) ?_).trans ?_
  · rewrite [Shape.rowMajor_val_one, Shape.rowMajor_val_two]
    show j.val = 0 * 128 + j.val
    omega
  refine (shapeCast_apply _ shapeCasts_S1x128_S128 (ix1 j) (ix2 (0 : Fin 1) j) ?_).trans ?_
  · rewrite [Shape.rowMajor_val_two, Shape.rowMajor_val_one]
    show 0 * 128 + j.val = j.val
    omega
  · exact extractStridedSlice_apply ![1, 0] x slices_S3x128_S1x128_1_0 (ix2 (0 : Fin 1) j) (ix2 (1 : Fin 3) j) (fun a => match a with
      | ⟨0, _⟩ => by show (1 : Nat) = 1 + 0; rfl
      | ⟨1, _⟩ => by show j.val = 0 + j.val; omega)

/-- The left weight matrix of layer 1. -/
theorem v71_apply (k j : Fin 128) :
    StableHlo.after (hostOps2 (F := Ideal)) W (Proc.devRef .tc main_v71) (ix2 k j) = W (Proc.devRef .tc main_arg2) (ix3 (1 : Fin 3) k j) := by
  have e : StableHlo.after (hostOps2 (F := Ideal)) W (Proc.devRef .tc main_v71)
      = shapeCast S128x128 (extractStridedSlice S1x128x128 ![1, 0, 0] (W (Proc.devRef .tc main_arg2)) slices_S3x128x128_S1x128x128_1_0_0) shapeCasts_S1x128x128_S128x128 := by
    after_results_simp; rfl
  rw [e]
  exact mat_apply _ k j

/-- The right weight matrix of layer 1. -/
theorem v75_apply (k j : Fin 128) :
    StableHlo.after (hostOps2 (F := Ideal)) W (Proc.devRef .tc main_v75) (ix2 k j) = W (Proc.devRef .tc main_arg4) (ix3 (1 : Fin 3) k j) := by
  have e : StableHlo.after (hostOps2 (F := Ideal)) W (Proc.devRef .tc main_v75)
      = shapeCast S128x128 (extractStridedSlice S1x128x128 ![1, 0, 0] (W (Proc.devRef .tc main_arg4)) slices_S3x128x128_S1x128x128_1_0_0) shapeCasts_S1x128x128_S128x128 := by
    after_results_simp; rfl
  rw [e]
  exact mat_apply _ k j

/-- The bias of layer 1, as a row. -/
theorem v76_apply (j : Fin 128) :
    StableHlo.after (hostOps2 (F := Ideal)) W (Proc.devRef .tc main_v76) (ix2 (0 : Fin 1) j) = W (Proc.devRef .tc main_arg3) (ix2 (1 : Fin 3) j) := by
  have e : StableHlo.after (hostOps2 (F := Ideal)) W (Proc.devRef .tc main_v76)
      = shapeCast S1x128 (shapeCast S128 (extractStridedSlice S1x128 ![1, 0] (W (Proc.devRef .tc main_arg3)) slices_S3x128_S1x128_1_0) shapeCasts_S1x128_S128) shapeCasts_S128_S1x128 := by
    after_results_simp; rfl
  rw [e]
  exact row_apply _ j

/-! ## What the stretch leaves alone -/

/-- No line of the stretch writes the reciprocal degrees. -/
theorem keep_main_v12 : StableHlo.after (hostOps2 (F := Ideal)) W (Proc.devRef .tc main_v12) = W (Proc.devRef .tc main_v12) :=
  StableHlo.after_of_forall_not_mem (b := Proc.devRef .tc main_v12) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes the features entering layer 1. -/
theorem keep_main_v59 : StableHlo.after (hostOps2 (F := Ideal)) W (Proc.devRef .tc main_v59) = W (Proc.devRef .tc main_v59) :=
  StableHlo.after_of_forall_not_mem (b := Proc.devRef .tc main_v59) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes the edge sources. -/
theorem keep_main_v1 : StableHlo.after (hostOps2 (F := Ideal)) W (Proc.devRef .tc main_v1) = W (Proc.devRef .tc main_v1) :=
  StableHlo.after_of_forall_not_mem (b := Proc.devRef .tc main_v1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes the edge targets. -/
theorem keep_main_v3 : StableHlo.after (hostOps2 (F := Ideal)) W (Proc.devRef .tc main_v3) = W (Proc.devRef .tc main_v3) :=
  StableHlo.after_of_forall_not_mem (b := Proc.devRef .tc main_v3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 0 (the input features). -/
theorem keep_main_arg0 : StableHlo.after (hostOps2 (F := Ideal)) W (Proc.devRef .tc main_arg0) = W (Proc.devRef .tc main_arg0) :=
  StableHlo.after_of_forall_not_mem (b := Proc.devRef .tc main_arg0) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 1 (the edge list). -/
theorem keep_main_arg1 : StableHlo.after (hostOps2 (F := Ideal)) W (Proc.devRef .tc main_arg1) = W (Proc.devRef .tc main_arg1) :=
  StableHlo.after_of_forall_not_mem (b := Proc.devRef .tc main_arg1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 2 (the stacked left weight matrices). -/
theorem keep_main_arg2 : StableHlo.after (hostOps2 (F := Ideal)) W (Proc.devRef .tc main_arg2) = W (Proc.devRef .tc main_arg2) :=
  StableHlo.after_of_forall_not_mem (b := Proc.devRef .tc main_arg2) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 3 (the stacked biases). -/
theorem keep_main_arg3 : StableHlo.after (hostOps2 (F := Ideal)) W (Proc.devRef .tc main_arg3) = W (Proc.devRef .tc main_arg3) :=
  StableHlo.after_of_forall_not_mem (b := Proc.devRef .tc main_arg3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 4 (the stacked right weight matrices). -/
theorem keep_main_arg4 : StableHlo.after (hostOps2 (F := Ideal)) W (Proc.devRef .tc main_arg4) = W (Proc.devRef .tc main_arg4) :=
  StableHlo.after_of_forall_not_mem (b := Proc.devRef .tc main_arg4) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 5 (the stacked normalisation scales). -/
theorem keep_main_arg5 : StableHlo.after (hostOps2 (F := Ideal)) W (Proc.devRef .tc main_arg5) = W (Proc.devRef .tc main_arg5) :=
  StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 6 (the stacked normalisation shifts). -/
theorem keep_main_arg6 : StableHlo.after (hostOps2 (F := Ideal)) W (Proc.devRef .tc main_arg6) = W (Proc.devRef .tc main_arg6) :=
  StableHlo.after_of_forall_not_mem (b := Proc.devRef .tc main_arg6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.KStretch2

end
-- ==== Proof.KStretch3.lean ====
/-
  The host operations between the second linear region and the second normalisation region: the same computation as
  between the first two, on the second layer's tile sums. From the two [160,128] arrays of per-tile column sums and
  column sums of squares (row 8t holds tile t's), per channel j

      mean(j)  = Σₜ s1(t, j) / 100000,          meansq(j) = Σₜ s2(t, j) / 100000,
      var(j)   = max(meansq(j) − mean(j)², 0),
      scale(j) = γ(j) · rsqrt(var(j) + ε),      shift(j)  = β(j) − mean(j) · scale(j),

  now with γ and β row 1 of the two [2,128] parameter arrays. The stages are the functions named for the first
  stretch; only the row of the parameters differs. The last part records the buffers the stretch leaves untouched.
-/
import proofs.«148930_j32976758899207_2_alg».proof.Proof.KStretch1

noncomputable section

namespace Cert.KernelIdeal.KStretch3

open Cert.KernelIdeal Cert.KernelIdeal.Gen Cert.Sage Idealize.ShloMosaic Idealize.ShloMosaic.ValueIdx
open Cert.KernelIdeal.KStretch1
open scoped BigOperators

/-- Row 1 of a [2,128] array, as a vector. -/
def row1 (a : FVec Ideal S2x128 .f32) : FVec Ideal S128 .f32 :=
  shapeCast S128 (extractStridedSlice S1x128 ![1, 0] a slices_S2x128_S1x128_1_0) shapeCasts_S1x128_S128

theorem row1_apply (a : FVec Ideal S2x128 .f32) (j : Fin 128) : row1 a (ix1 j) = a (ix2 (1 : Fin 2) j) := by
  unfold row1
  refine (shapeCast_apply _ shapeCasts_S1x128_S128 (ix1 j) (ix2 (0 : Fin 1) j) ?_).trans ?_
  · rewrite [Shape.rowMajor_val_two, Shape.rowMajor_val_one]
    show 0 * 128 + j.val = j.val
    omega
  exact extractStridedSlice_apply ![1, 0] a slices_S2x128_S1x128_1_0 (ix2 (0 : Fin 1) j) (ix2 (1 : Fin 2) j)
    (fun a => match a with
      | ⟨0, _⟩ => by show 1 = 1 + 0; rfl
      | ⟨1, _⟩ => by show j.val = 0 + j.val; omega)

/-! ## The stretch between the second linear region and the second normalisation region -/

/-- What the stretch leaves in the scale buffer: the composed stages. -/
theorem v104_eq (W : Valuation τ sig (Elt Ideal)) :
    StableHlo.after (hostOps3 (F := Ideal)) W (Proc.devRef .tc main_v104)
      = asRow (scaleV (W (Proc.devRef .tc main_v77_1)) (W (Proc.devRef .tc main_v77_2)) (row1 (W (Proc.devRef .tc main_arg5)))) := by
  after_results_simp
  rfl

/-- What the stretch leaves in the shift buffer. -/
theorem v105_eq (W : Valuation τ sig (Elt Ideal)) :
    StableHlo.after (hostOps3 (F := Ideal)) W (Proc.devRef .tc main_v105)
      = asRow (shiftV (W (Proc.devRef .tc main_v77_1)) (W (Proc.devRef .tc main_v77_2)) (row1 (W (Proc.devRef .tc main_arg5)))
          (row1 (W (Proc.devRef .tc main_arg6)))) := by
  after_results_simp
  rfl

/-- The scale of channel j after the stretch: γ(j) · rsqrt(var(j) + ε), the statistics from rows 8t of the two arrays
    of tile sums. -/
theorem v104_apply (W : Valuation τ sig (Elt Ideal)) (j : Fin 128) :
    StableHlo.after (hostOps3 (F := Ideal)) W (Proc.devRef .tc main_v104) (ix2 (0 : Fin 1) j)
      = Sage.scaleT (fun t : Fin 20 => W (Proc.devRef .tc main_v77_1) (ix2 (⟨8 * t.val, by omega⟩ : Fin 160) j))
          (fun t : Fin 20 => W (Proc.devRef .tc main_v77_2) (ix2 (⟨8 * t.val, by omega⟩ : Fin 160) j))
          (W (Proc.devRef .tc main_arg5) (ix2 (1 : Fin 2) j)) := by
  rw [v104_eq, asRow_apply, scaleV_apply, row1_apply]

/-- The shift of channel j after the stretch: β(j) − mean(j) · scale(j). -/
theorem v105_apply (W : Valuation τ sig (Elt Ideal)) (j : Fin 128) :
    StableHlo.after (hostOps3 (F := Ideal)) W (Proc.devRef .tc main_v105) (ix2 (0 : Fin 1) j)
      = Sage.shiftT (fun t : Fin 20 => W (Proc.devRef .tc main_v77_1) (ix2 (⟨8 * t.val, by omega⟩ : Fin 160) j))
          (fun t : Fin 20 => W (Proc.devRef .tc main_v77_2) (ix2 (⟨8 * t.val, by omega⟩ : Fin 160) j))
          (W (Proc.devRef .tc main_arg5) (ix2 (1 : Fin 2) j)) (W (Proc.devRef .tc main_arg6) (ix2 (1 : Fin 2) j)) := by
  rw [v105_eq, asRow_apply, shiftV_apply, row1_apply, row1_apply]

/-! ## Buffers the stretch does not write -/

/-- No operation of the stretch writes the buffer: each operation writes its own result buffer, another reference. -/
local macro "keep_tac" : tactic =>
  `(tactic| (refine StableHlo.after_of_forall_not_mem _ _ (List.forall_iff_forall_mem.mp ?_)
             simp only [hostOps3, List.Forall, StableHlo.nullary_writes, StableHlo.unary_writes, StableHlo.binary_writes,
               StableHlo.reshape_writes, Finset.mem_singleton]
             repeat' apply And.intro
             all_goals exact StableHlo.devRef_ne_of_ne (by decide)))

theorem keep_main_v77_0 (W : Valuation τ sig (Elt Ideal)) :
    StableHlo.after (hostOps3 (F := Ideal)) W (Proc.devRef .tc main_v77_0) = W (Proc.devRef .tc main_v77_0) := by keep_tac

theorem keep_main_v12 (W : Valuation τ sig (Elt Ideal)) :
    StableHlo.after (hostOps3 (F := Ideal)) W (Proc.devRef .tc main_v12) = W (Proc.devRef .tc main_v12) := by keep_tac

theorem keep_main_v1 (W : Valuation τ sig (Elt Ideal)) :
    StableHlo.after (hostOps3 (F := Ideal)) W (Proc.devRef .tc main_v1) = W (Proc.devRef .tc main_v1) := by keep_tac

theorem keep_main_v3 (W : Valuation τ sig (Elt Ideal)) :
    StableHlo.after (hostOps3 (F := Ideal)) W (Proc.devRef .tc main_v3) = W (Proc.devRef .tc main_v3) := by keep_tac

theorem keep_main_arg0 (W : Valuation τ sig (Elt Ideal)) :
    StableHlo.after (hostOps3 (F := Ideal)) W (Proc.devRef .tc main_arg0) = W (Proc.devRef .tc main_arg0) := by keep_tac

theorem keep_main_arg1 (W : Valuation τ sig (Elt Ideal)) :
    StableHlo.after (hostOps3 (F := Ideal)) W (Proc.devRef .tc main_arg1) = W (Proc.devRef .tc main_arg1) := by keep_tac

theorem keep_main_arg2 (W : Valuation τ sig (Elt Ideal)) :
    StableHlo.after (hostOps3 (F := Ideal)) W (Proc.devRef .tc main_arg2) = W (Proc.devRef .tc main_arg2) := by keep_tac

theorem keep_main_arg3 (W : Valuation τ sig (Elt Ideal)) :
    StableHlo.after (hostOps3 (F := Ideal)) W (Proc.devRef .tc main_arg3) = W (Proc.devRef .tc main_arg3) := by keep_tac

theorem keep_main_arg4 (W : Valuation τ sig (Elt Ideal)) :
    StableHlo.after (hostOps3 (F := Ideal)) W (Proc.devRef .tc main_arg4) = W (Proc.devRef .tc main_arg4) := by keep_tac

theorem keep_main_arg5 (W : Valuation τ sig (Elt Ideal)) :
    StableHlo.after (hostOps3 (F := Ideal)) W (Proc.devRef .tc main_arg5) = W (Proc.devRef .tc main_arg5) := by keep_tac

theorem keep_main_arg6 (W : Valuation τ sig (Elt Ideal)) :
    StableHlo.after (hostOps3 (F := Ideal)) W (Proc.devRef .tc main_arg6) = W (Proc.devRef .tc main_arg6) := by keep_tac

end Cert.KernelIdeal.KStretch3

end
-- ==== Proof.KWalkAll.lean ====
/-
  What the long-lived buffers hold at each boundary between a stretch of host operations and a pallas region. The seven
  argument arrays are written by nothing, so at every boundary they hold their launch contents; the two rows of the edge
  list and the column of reciprocal degrees are written once, by the first stretch, and by nothing after it.
  Boundary 1 is the entry of the first region; boundary 2k its exit … boundary 8 the exit of the fourth region.
-/
import proofs.«148930_j32976758899207_2_alg».proof.Proof.KWalk
import proofs.«148930_j32976758899207_2_alg».proof.Proof.KHostDefs
import proofs.«148930_j32976758899207_2_alg».proof.Proof.KStretch0
import proofs.«148930_j32976758899207_2_alg».proof.Proof.KStretch1
import proofs.«148930_j32976758899207_2_alg».proof.Proof.KStretch2
import proofs.«148930_j32976758899207_2_alg».proof.Proof.KStretch3

set_option maxRecDepth 16384

noncomputable section

namespace Cert.KernelIdeal.KWalk

open Cert.KernelIdeal Cert.KernelIdeal.Gen Cert.KernelIdeal.HostVal Idealize.ShloMosaic Idealize.ShloMosaic.TcCoe Idealize.SL.Sem

variable (m : (ℓ : Loc nD τ sig) → Buf (Elt Ideal) ℓ) (ρ : Dev nD → PrngReg) (c : Dev nD)

/-- The edge list as launched. -/
abbrev edges : (⟨S2x1600000, .i32⟩ : BufTy).Contents (Elt Ideal) := m ((c : Thread nD τ).loc main_arg1)

theorem w1_main_arg0 : W1 (F := Ideal) m ρ c (Proc.devRef .tc main_arg0) = m ((c : Thread nD τ).loc main_arg0) :=
  (KStretch0.keep_main_arg0 (W0 m ρ c)).trans rfl
theorem w2_main_arg0 : W2 (F := Ideal) m ρ c (Proc.devRef .tc main_arg0) = m ((c : Thread nD τ).loc main_arg0) :=
  (r0_main_arg0 m ρ c).trans (w1_main_arg0 m ρ c)
theorem w3_main_arg0 : W3 (F := Ideal) m ρ c (Proc.devRef .tc main_arg0) = m ((c : Thread nD τ).loc main_arg0) :=
  (KStretch1.keep_main_arg0 (W2 m ρ c)).trans (w2_main_arg0 m ρ c)
theorem w4_main_arg0 : W4 (F := Ideal) m ρ c (Proc.devRef .tc main_arg0) = m ((c : Thread nD τ).loc main_arg0) :=
  (r1_main_arg0 m ρ c).trans (w3_main_arg0 m ρ c)
theorem w5_main_arg0 : W5 (F := Ideal) m ρ c (Proc.devRef .tc main_arg0) = m ((c : Thread nD τ).loc main_arg0) :=
  (KStretch2.keep_main_arg0 (W4 m ρ c)).trans (w4_main_arg0 m ρ c)
theorem w6_main_arg0 : W6 (F := Ideal) m ρ c (Proc.devRef .tc main_arg0) = m ((c : Thread nD τ).loc main_arg0) :=
  (r2_main_arg0 m ρ c).trans (w5_main_arg0 m ρ c)
theorem w7_main_arg0 : W7 (F := Ideal) m ρ c (Proc.devRef .tc main_arg0) = m ((c : Thread nD τ).loc main_arg0) :=
  (KStretch3.keep_main_arg0 (W6 m ρ c)).trans (w6_main_arg0 m ρ c)
theorem w8_main_arg0 : W8 (F := Ideal) m ρ c (Proc.devRef .tc main_arg0) = m ((c : Thread nD τ).loc main_arg0) :=
  (r3_main_arg0 m ρ c).trans (w7_main_arg0 m ρ c)

theorem w1_main_arg1 : W1 (F := Ideal) m ρ c (Proc.devRef .tc main_arg1) = m ((c : Thread nD τ).loc main_arg1) :=
  (KStretch0.keep_main_arg1 (W0 m ρ c)).trans rfl
theorem w2_main_arg1 : W2 (F := Ideal) m ρ c (Proc.devRef .tc main_arg1) = m ((c : Thread nD τ).loc main_arg1) :=
  (r0_main_arg1 m ρ c).trans (w1_main_arg1 m ρ c)
theorem w3_main_arg1 : W3 (F := Ideal) m ρ c (Proc.devRef .tc main_arg1) = m ((c : Thread nD τ).loc main_arg1) :=
  (KStretch1.keep_main_arg1 (W2 m ρ c)).trans (w2_main_arg1 m ρ c)
theorem w4_main_arg1 : W4 (F := Ideal) m ρ c (Proc.devRef .tc main_arg1) = m ((c : Thread nD τ).loc main_arg1) :=
  (r1_main_arg1 m ρ c).trans (w3_main_arg1 m ρ c)
theorem w5_main_arg1 : W5 (F := Ideal) m ρ c (Proc.devRef .tc main_arg1) = m ((c : Thread nD τ).loc main_arg1) :=
  (KStretch2.keep_main_arg1 (W4 m ρ c)).trans (w4_main_arg1 m ρ c)
theorem w6_main_arg1 : W6 (F := Ideal) m ρ c (Proc.devRef .tc main_arg1) = m ((c : Thread nD τ).loc main_arg1) :=
  (r2_main_arg1 m ρ c).trans (w5_main_arg1 m ρ c)
theorem w7_main_arg1 : W7 (F := Ideal) m ρ c (Proc.devRef .tc main_arg1) = m ((c : Thread nD τ).loc main_arg1) :=
  (KStretch3.keep_main_arg1 (W6 m ρ c)).trans (w6_main_arg1 m ρ c)
theorem w8_main_arg1 : W8 (F := Ideal) m ρ c (Proc.devRef .tc main_arg1) = m ((c : Thread nD τ).loc main_arg1) :=
  (r3_main_arg1 m ρ c).trans (w7_main_arg1 m ρ c)

theorem w1_main_arg2 : W1 (F := Ideal) m ρ c (Proc.devRef .tc main_arg2) = m ((c : Thread nD τ).loc main_arg2) :=
  (KStretch0.keep_main_arg2 (W0 m ρ c)).trans rfl
theorem w2_main_arg2 : W2 (F := Ideal) m ρ c (Proc.devRef .tc main_arg2) = m ((c : Thread nD τ).loc main_arg2) :=
  (r0_main_arg2 m ρ c).trans (w1_main_arg2 m ρ c)
theorem w3_main_arg2 : W3 (F := Ideal) m ρ c (Proc.devRef .tc main_arg2) = m ((c : Thread nD τ).loc main_arg2) :=
  (KStretch1.keep_main_arg2 (W2 m ρ c)).trans (w2_main_arg2 m ρ c)
theorem w4_main_arg2 : W4 (F := Ideal) m ρ c (Proc.devRef .tc main_arg2) = m ((c : Thread nD τ).loc main_arg2) :=
  (r1_main_arg2 m ρ c).trans (w3_main_arg2 m ρ c)
theorem w5_main_arg2 : W5 (F := Ideal) m ρ c (Proc.devRef .tc main_arg2) = m ((c : Thread nD τ).loc main_arg2) :=
  (KStretch2.keep_main_arg2 (W4 m ρ c)).trans (w4_main_arg2 m ρ c)
theorem w6_main_arg2 : W6 (F := Ideal) m ρ c (Proc.devRef .tc main_arg2) = m ((c : Thread nD τ).loc main_arg2) :=
  (r2_main_arg2 m ρ c).trans (w5_main_arg2 m ρ c)
theorem w7_main_arg2 : W7 (F := Ideal) m ρ c (Proc.devRef .tc main_arg2) = m ((c : Thread nD τ).loc main_arg2) :=
  (KStretch3.keep_main_arg2 (W6 m ρ c)).trans (w6_main_arg2 m ρ c)
theorem w8_main_arg2 : W8 (F := Ideal) m ρ c (Proc.devRef .tc main_arg2) = m ((c : Thread nD τ).loc main_arg2) :=
  (r3_main_arg2 m ρ c).trans (w7_main_arg2 m ρ c)

theorem w1_main_arg3 : W1 (F := Ideal) m ρ c (Proc.devRef .tc main_arg3) = m ((c : Thread nD τ).loc main_arg3) :=
  (KStretch0.keep_main_arg3 (W0 m ρ c)).trans rfl
theorem w2_main_arg3 : W2 (F := Ideal) m ρ c (Proc.devRef .tc main_arg3) = m ((c : Thread nD τ).loc main_arg3) :=
  (r0_main_arg3 m ρ c).trans (w1_main_arg3 m ρ c)
theorem w3_main_arg3 : W3 (F := Ideal) m ρ c (Proc.devRef .tc main_arg3) = m ((c : Thread nD τ).loc main_arg3) :=
  (KStretch1.keep_main_arg3 (W2 m ρ c)).trans (w2_main_arg3 m ρ c)
theorem w4_main_arg3 : W4 (F := Ideal) m ρ c (Proc.devRef .tc main_arg3) = m ((c : Thread nD τ).loc main_arg3) :=
  (r1_main_arg3 m ρ c).trans (w3_main_arg3 m ρ c)
theorem w5_main_arg3 : W5 (F := Ideal) m ρ c (Proc.devRef .tc main_arg3) = m ((c : Thread nD τ).loc main_arg3) :=
  (KStretch2.keep_main_arg3 (W4 m ρ c)).trans (w4_main_arg3 m ρ c)
theorem w6_main_arg3 : W6 (F := Ideal) m ρ c (Proc.devRef .tc main_arg3) = m ((c : Thread nD τ).loc main_arg3) :=
  (r2_main_arg3 m ρ c).trans (w5_main_arg3 m ρ c)
theorem w7_main_arg3 : W7 (F := Ideal) m ρ c (Proc.devRef .tc main_arg3) = m ((c : Thread nD τ).loc main_arg3) :=
  (KStretch3.keep_main_arg3 (W6 m ρ c)).trans (w6_main_arg3 m ρ c)
theorem w8_main_arg3 : W8 (F := Ideal) m ρ c (Proc.devRef .tc main_arg3) = m ((c : Thread nD τ).loc main_arg3) :=
  (r3_main_arg3 m ρ c).trans (w7_main_arg3 m ρ c)

theorem w1_main_arg4 : W1 (F := Ideal) m ρ c (Proc.devRef .tc main_arg4) = m ((c : Thread nD τ).loc main_arg4) :=
  (KStretch0.keep_main_arg4 (W0 m ρ c)).trans rfl
theorem w2_main_arg4 : W2 (F := Ideal) m ρ c (Proc.devRef .tc main_arg4) = m ((c : Thread nD τ).loc main_arg4) :=
  (r0_main_arg4 m ρ c).trans (w1_main_arg4 m ρ c)
theorem w3_main_arg4 : W3 (F := Ideal) m ρ c (Proc.devRef .tc main_arg4) = m ((c : Thread nD τ).loc main_arg4) :=
  (KStretch1.keep_main_arg4 (W2 m ρ c)).trans (w2_main_arg4 m ρ c)
theorem w4_main_arg4 : W4 (F := Ideal) m ρ c (Proc.devRef .tc main_arg4) = m ((c : Thread nD τ).loc main_arg4) :=
  (r1_main_arg4 m ρ c).trans (w3_main_arg4 m ρ c)
theorem w5_main_arg4 : W5 (F := Ideal) m ρ c (Proc.devRef .tc main_arg4) = m ((c : Thread nD τ).loc main_arg4) :=
  (KStretch2.keep_main_arg4 (W4 m ρ c)).trans (w4_main_arg4 m ρ c)
theorem w6_main_arg4 : W6 (F := Ideal) m ρ c (Proc.devRef .tc main_arg4) = m ((c : Thread nD τ).loc main_arg4) :=
  (r2_main_arg4 m ρ c).trans (w5_main_arg4 m ρ c)
theorem w7_main_arg4 : W7 (F := Ideal) m ρ c (Proc.devRef .tc main_arg4) = m ((c : Thread nD τ).loc main_arg4) :=
  (KStretch3.keep_main_arg4 (W6 m ρ c)).trans (w6_main_arg4 m ρ c)
theorem w8_main_arg4 : W8 (F := Ideal) m ρ c (Proc.devRef .tc main_arg4) = m ((c : Thread nD τ).loc main_arg4) :=
  (r3_main_arg4 m ρ c).trans (w7_main_arg4 m ρ c)

theorem w1_main_arg5 : W1 (F := Ideal) m ρ c (Proc.devRef .tc main_arg5) = m ((c : Thread nD τ).loc main_arg5) :=
  (KStretch0.keep_main_arg5 (W0 m ρ c)).trans rfl
theorem w2_main_arg5 : W2 (F := Ideal) m ρ c (Proc.devRef .tc main_arg5) = m ((c : Thread nD τ).loc main_arg5) :=
  (r0_main_arg5 m ρ c).trans (w1_main_arg5 m ρ c)
theorem w3_main_arg5 : W3 (F := Ideal) m ρ c (Proc.devRef .tc main_arg5) = m ((c : Thread nD τ).loc main_arg5) :=
  (KStretch1.keep_main_arg5 (W2 m ρ c)).trans (w2_main_arg5 m ρ c)
theorem w4_main_arg5 : W4 (F := Ideal) m ρ c (Proc.devRef .tc main_arg5) = m ((c : Thread nD τ).loc main_arg5) :=
  (r1_main_arg5 m ρ c).trans (w3_main_arg5 m ρ c)
theorem w5_main_arg5 : W5 (F := Ideal) m ρ c (Proc.devRef .tc main_arg5) = m ((c : Thread nD τ).loc main_arg5) :=
  (KStretch2.keep_main_arg5 (W4 m ρ c)).trans (w4_main_arg5 m ρ c)
theorem w6_main_arg5 : W6 (F := Ideal) m ρ c (Proc.devRef .tc main_arg5) = m ((c : Thread nD τ).loc main_arg5) :=
  (r2_main_arg5 m ρ c).trans (w5_main_arg5 m ρ c)
theorem w7_main_arg5 : W7 (F := Ideal) m ρ c (Proc.devRef .tc main_arg5) = m ((c : Thread nD τ).loc main_arg5) :=
  (KStretch3.keep_main_arg5 (W6 m ρ c)).trans (w6_main_arg5 m ρ c)
theorem w8_main_arg5 : W8 (F := Ideal) m ρ c (Proc.devRef .tc main_arg5) = m ((c : Thread nD τ).loc main_arg5) :=
  (r3_main_arg5 m ρ c).trans (w7_main_arg5 m ρ c)

theorem w1_main_arg6 : W1 (F := Ideal) m ρ c (Proc.devRef .tc main_arg6) = m ((c : Thread nD τ).loc main_arg6) :=
  (KStretch0.keep_main_arg6 (W0 m ρ c)).trans rfl
theorem w2_main_arg6 : W2 (F := Ideal) m ρ c (Proc.devRef .tc main_arg6) = m ((c : Thread nD τ).loc main_arg6) :=
  (r0_main_arg6 m ρ c).trans (w1_main_arg6 m ρ c)
theorem w3_main_arg6 : W3 (F := Ideal) m ρ c (Proc.devRef .tc main_arg6) = m ((c : Thread nD τ).loc main_arg6) :=
  (KStretch1.keep_main_arg6 (W2 m ρ c)).trans (w2_main_arg6 m ρ c)
theorem w4_main_arg6 : W4 (F := Ideal) m ρ c (Proc.devRef .tc main_arg6) = m ((c : Thread nD τ).loc main_arg6) :=
  (r1_main_arg6 m ρ c).trans (w3_main_arg6 m ρ c)
theorem w5_main_arg6 : W5 (F := Ideal) m ρ c (Proc.devRef .tc main_arg6) = m ((c : Thread nD τ).loc main_arg6) :=
  (KStretch2.keep_main_arg6 (W4 m ρ c)).trans (w4_main_arg6 m ρ c)
theorem w6_main_arg6 : W6 (F := Ideal) m ρ c (Proc.devRef .tc main_arg6) = m ((c : Thread nD τ).loc main_arg6) :=
  (r2_main_arg6 m ρ c).trans (w5_main_arg6 m ρ c)
theorem w7_main_arg6 : W7 (F := Ideal) m ρ c (Proc.devRef .tc main_arg6) = m ((c : Thread nD τ).loc main_arg6) :=
  (KStretch3.keep_main_arg6 (W6 m ρ c)).trans (w6_main_arg6 m ρ c)
theorem w8_main_arg6 : W8 (F := Ideal) m ρ c (Proc.devRef .tc main_arg6) = m ((c : Thread nD τ).loc main_arg6) :=
  (r3_main_arg6 m ρ c).trans (w7_main_arg6 m ρ c)

theorem w1_main_v1 : W1 (F := Ideal) m ρ c (Proc.devRef .tc main_v1) = v1Of (edges m c) :=
  (KStretch0.v1_eq (W0 m ρ c)).trans rfl
theorem w2_main_v1 : W2 (F := Ideal) m ρ c (Proc.devRef .tc main_v1) = v1Of (edges m c) :=
  (r0_main_v1 m ρ c).trans (w1_main_v1 m ρ c)
theorem w3_main_v1 : W3 (F := Ideal) m ρ c (Proc.devRef .tc main_v1) = v1Of (edges m c) :=
  (KStretch1.keep_main_v1 (W2 m ρ c)).trans (w2_main_v1 m ρ c)
theorem w4_main_v1 : W4 (F := Ideal) m ρ c (Proc.devRef .tc main_v1) = v1Of (edges m c) :=
  (r1_main_v1 m ρ c).trans (w3_main_v1 m ρ c)
theorem w5_main_v1 : W5 (F := Ideal) m ρ c (Proc.devRef .tc main_v1) = v1Of (edges m c) :=
  (KStretch2.keep_main_v1 (W4 m ρ c)).trans (w4_main_v1 m ρ c)
theorem w6_main_v1 : W6 (F := Ideal) m ρ c (Proc.devRef .tc main_v1) = v1Of (edges m c) :=
  (r2_main_v1 m ρ c).trans (w5_main_v1 m ρ c)
theorem w7_main_v1 : W7 (F := Ideal) m ρ c (Proc.devRef .tc main_v1) = v1Of (edges m c) :=
  (KStretch3.keep_main_v1 (W6 m ρ c)).trans (w6_main_v1 m ρ c)
theorem w8_main_v1 : W8 (F := Ideal) m ρ c (Proc.devRef .tc main_v1) = v1Of (edges m c) :=
  (r3_main_v1 m ρ c).trans (w7_main_v1 m ρ c)

theorem w1_main_v3 : W1 (F := Ideal) m ρ c (Proc.devRef .tc main_v3) = v3Of (edges m c) :=
  (KStretch0.v3_eq (W0 m ρ c)).trans rfl
theorem w2_main_v3 : W2 (F := Ideal) m ρ c (Proc.devRef .tc main_v3) = v3Of (edges m c) :=
  (r0_main_v3 m ρ c).trans (w1_main_v3 m ρ c)
theorem w3_main_v3 : W3 (F := Ideal) m ρ c (Proc.devRef .tc main_v3) = v3Of (edges m c) :=
  (KStretch1.keep_main_v3 (W2 m ρ c)).trans (w2_main_v3 m ρ c)
theorem w4_main_v3 : W4 (F := Ideal) m ρ c (Proc.devRef .tc main_v3) = v3Of (edges m c) :=
  (r1_main_v3 m ρ c).trans (w3_main_v3 m ρ c)
theorem w5_main_v3 : W5 (F := Ideal) m ρ c (Proc.devRef .tc main_v3) = v3Of (edges m c) :=
  (KStretch2.keep_main_v3 (W4 m ρ c)).trans (w4_main_v3 m ρ c)
theorem w6_main_v3 : W6 (F := Ideal) m ρ c (Proc.devRef .tc main_v3) = v3Of (edges m c) :=
  (r2_main_v3 m ρ c).trans (w5_main_v3 m ρ c)
theorem w7_main_v3 : W7 (F := Ideal) m ρ c (Proc.devRef .tc main_v3) = v3Of (edges m c) :=
  (KStretch3.keep_main_v3 (W6 m ρ c)).trans (w6_main_v3 m ρ c)
theorem w8_main_v3 : W8 (F := Ideal) m ρ c (Proc.devRef .tc main_v3) = v3Of (edges m c) :=
  (r3_main_v3 m ρ c).trans (w7_main_v3 m ρ c)

theorem w1_main_v12 : W1 (F := Ideal) m ρ c (Proc.devRef .tc main_v12) = dinvV (v3Of (edges m c)) :=
  (KStretch0.v12_eq (W0 m ρ c)).trans rfl
theorem w2_main_v12 : W2 (F := Ideal) m ρ c (Proc.devRef .tc main_v12) = dinvV (v3Of (edges m c)) :=
  (r0_main_v12 m ρ c).trans (w1_main_v12 m ρ c)
theorem w3_main_v12 : W3 (F := Ideal) m ρ c (Proc.devRef .tc main_v12) = dinvV (v3Of (edges m c)) :=
  (KStretch1.keep_main_v12 (W2 m ρ c)).trans (w2_main_v12 m ρ c)
theorem w4_main_v12 : W4 (F := Ideal) m ρ c (Proc.devRef .tc main_v12) = dinvV (v3Of (edges m c)) :=
  (r1_main_v12 m ρ c).trans (w3_main_v12 m ρ c)
theorem w5_main_v12 : W5 (F := Ideal) m ρ c (Proc.devRef .tc main_v12) = dinvV (v3Of (edges m c)) :=
  (KStretch2.keep_main_v12 (W4 m ρ c)).trans (w4_main_v12 m ρ c)
theorem w6_main_v12 : W6 (F := Ideal) m ρ c (Proc.devRef .tc main_v12) = dinvV (v3Of (edges m c)) :=
  (r2_main_v12 m ρ c).trans (w5_main_v12 m ρ c)
theorem w7_main_v12 : W7 (F := Ideal) m ρ c (Proc.devRef .tc main_v12) = dinvV (v3Of (edges m c)) :=
  (KStretch3.keep_main_v12 (W6 m ρ c)).trans (w6_main_v12 m ρ c)
theorem w8_main_v12 : W8 (F := Ideal) m ρ c (Proc.devRef .tc main_v12) = dinvV (v3Of (edges m c)) :=
  (r3_main_v12 m ρ c).trans (w7_main_v12 m ρ c)

end Cert.KernelIdeal.KWalk

end
-- ==== Proof.KStretch4.lean ====
/-
  The host lines before region 4, read from an arbitrary starting valuation W.

  They aggregate the neighbour sums of the features the previous region left (the same gather and scatter-add as
  before the first region, over the same edge sources and targets) and cut layer 2's two weight matrices and its
  bias out of the stacked parameters. The aggregate is stated as HostVal.aggV of W at the sources, the targets and
  the features; the cut-out parameters are read entry by entry; every buffer a later region still reads is untouched.
-/
import proofs.«148930_j32976758899207_2_alg».proof.Proof.KHostDefs
import Idealize.ShloMosaic.Lib.Pipeline.Value
import Idealize.ShloMosaic.Lib.ValueIdx

set_option maxRecDepth 16384

noncomputable section

namespace Cert.KernelIdeal.KStretch4

open Cert.KernelIdeal Cert.KernelIdeal.Gen Cert.KernelIdeal.HostVal Idealize.ShloMosaic Idealize.ShloMosaic.ValueIdx
open Idealize.ShloMosaic.StableHlo Idealize.SL.Sem

variable (W : Valuation τ sig (Elt Ideal))

/-! ## The aggregated sums -/

/-- The aggregated neighbour sums of the features entering layer 2. -/
theorem v116_eq : StableHlo.after (hostOps4 (F := Ideal)) W (Proc.devRef .tc main_v116)
    = aggV (W (Proc.devRef .tc main_v1)) (W (Proc.devRef .tc main_v3)) (W (Proc.devRef .tc main_v106)) := by
  after_results_simp; rfl

/-! ## Layer 2's parameters, entry by entry -/

/-- Matrix 2 of a stack of three 128 x 128 matrices, its leading unit axis dropped: entry (k, j) is entry (2, k, j) of the stack. -/
theorem mat_apply (x : (⟨S3x128x128, .f32⟩ : BufTy).Contents (Elt Ideal)) (k j : Fin 128) :
    shapeCast S128x128 (extractStridedSlice S1x128x128 ![2, 0, 0] x slices_S3x128x128_S1x128x128_2_0_0) shapeCasts_S1x128x128_S128x128 (ix2 k j)
      = x (ix3 (2 : Fin 3) k j) := by
  refine (shapeCast_apply _ shapeCasts_S1x128x128_S128x128 (ix2 k j) (ix3 (0 : Fin 1) k j) ?_).trans ?_
  · rewrite [Shape.rowMajor_val_three, Shape.rowMajor_val_two]
    show (0 * 128 + k.val) * 128 + j.val = k.val * 128 + j.val
    omega
  · exact extractStridedSlice_apply ![2, 0, 0] x slices_S3x128x128_S1x128x128_2_0_0 (ix3 (0 : Fin 1) k j) (ix3 (2 : Fin 3) k j) (fun a => match a with
      | ⟨0, _⟩ => by show (2 : Nat) = 2 + 0; rfl
      | ⟨1, _⟩ => by show k.val = 0 + k.val; omega
      | ⟨2, _⟩ => by show j.val = 0 + j.val; omega)

/-- Row 2 of a stack of three rows of 128, flattened and given back its unit axis: entry (0, j) is entry (2, j) of the stack. -/
theorem row_apply (x : (⟨S3x128, .f32⟩ : BufTy).Contents (Elt Ideal)) (j : Fin 128) :
    shapeCast S1x128 (shapeCast S128 (extractStridedSlice S1x128 ![2, 0] x slices_S3x128_S1x128_2_0) shapeCasts_S1x128_S128) shapeCasts_S128_S1x128 (ix2 (0 : Fin 1) j)
      = x (ix2 (2 : Fin 3) j) := by
  refine (shapeCast_apply _ shapeCasts_S128_S1x128 (ix2 (0 : Fin 1) j) (ix1 j) ?_).trans ?_
  · rewrite [Shape.rowMajor_val_one, Shape.rowMajor_val_two]
    show j.val = 0 * 128 + j.val
    omega
  refine (shapeCast_apply _ shapeCasts_S1x128_S128 (ix1 j) (ix2 (0 : Fin 1) j) ?_).trans ?_
  · rewrite [Shape.rowMajor_val_two, Shape.rowMajor_val_one]
    show 0 * 128 + j.val = j.val
    omega
  · exact extractStridedSlice_apply ![2, 0] x slices_S3x128_S1x128_2_0 (ix2 (0 : Fin 1) j) (ix2 (2 : Fin 3) j) (fun a => match a with
      | ⟨0, _⟩ => by show (2 : Nat) = 2 + 0; rfl
      | ⟨1, _⟩ => by show j.val = 0 + j.val; omega)

/-- The left weight matrix of layer 2. -/
theorem v118_apply (k j : Fin 128) :
    StableHlo.after (hostOps4 (F := Ideal)) W (Proc.devRef .tc main_v118) (ix2 k j) = W (Proc.devRef .tc main_arg2) (ix3 (2 : Fin 3) k j) := by
  have e : StableHlo.after (hostOps4 (F := Ideal)) W (Proc.devRef .tc main_v118)
      = shapeCast S128x128 (extractStridedSlice S1x128x128 ![2, 0, 0] (W (Proc.devRef .tc main_arg2)) slices_S3x128x128_S1x128x128_2_0_0) shapeCasts_S1x128x128_S128x128 := by
    after_results_simp; rfl
  rw [e]
  exact mat_apply _ k j

/-- The right weight matrix of layer 2. -/
theorem v122_apply (k j : Fin 128) :
    StableHlo.after (hostOps4 (F := Ideal)) W (Proc.devRef .tc main_v122) (ix2 k j) = W (Proc.devRef .tc main_arg4) (ix3 (2 : Fin 3) k j) := by
  have e : StableHlo.after (hostOps4 (F := Ideal)) W (Proc.devRef .tc main_v122)
      = shapeCast S128x128 (extractStridedSlice S1x128x128 ![2, 0, 0] (W (Proc.devRef .tc main_arg4)) slices_S3x128x128_S1x128x128_2_0_0) shapeCasts_S1x128x128_S128x128 := by
    after_results_simp; rfl
  rw [e]
  exact mat_apply _ k j

/-- The bias of layer 2, as a row. -/
theorem v123_apply (j : Fin 128) :
    StableHlo.after (hostOps4 (F := Ideal)) W (Proc.devRef .tc main_v123) (ix2 (0 : Fin 1) j) = W (Proc.devRef .tc main_arg3) (ix2 (2 : Fin 3) j) := by
  have e : StableHlo.after (hostOps4 (F := Ideal)) W (Proc.devRef .tc main_v123)
      = shapeCast S1x128 (shapeCast S128 (extractStridedSlice S1x128 ![2, 0] (W (Proc.devRef .tc main_arg3)) slices_S3x128_S1x128_2_0) shapeCasts_S1x128_S128) shapeCasts_S128_S1x128 := by
    after_results_simp; rfl
  rw [e]
  exact row_apply _ j

/-! ## What the stretch leaves alone -/

/-- No line of the stretch writes the reciprocal degrees. -/
theorem keep_main_v12 : StableHlo.after (hostOps4 (F := Ideal)) W (Proc.devRef .tc main_v12) = W (Proc.devRef .tc main_v12) :=
  StableHlo.after_of_forall_not_mem (b := Proc.devRef .tc main_v12) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes the features entering layer 2. -/
theorem keep_main_v106 : StableHlo.after (hostOps4 (F := Ideal)) W (Proc.devRef .tc main_v106) = W (Proc.devRef .tc main_v106) :=
  StableHlo.after_of_forall_not_mem (b := Proc.devRef .tc main_v106) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes the edge sources. -/
theorem keep_main_v1 : StableHlo.after (hostOps4 (F := Ideal)) W (Proc.devRef .tc main_v1) = W (Proc.devRef .tc main_v1) :=
  StableHlo.after_of_forall_not_mem (b := Proc.devRef .tc main_v1) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes the edge targets. -/
theorem keep_main_v3 : StableHlo.after (hostOps4 (F := Ideal)) W (Proc.devRef .tc main_v3) = W (Proc.devRef .tc main_v3) :=
  StableHlo.after_of_forall_not_mem (b := Proc.devRef .tc main_v3) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 0 (the input features). -/
theorem keep_main_arg0 : StableHlo.after (hostOps4 (F := Ideal)) W (Proc.devRef .tc main_arg0) = W (Proc.devRef .tc main_arg0) :=
  StableHlo.after_of_forall_not_mem (b := Proc.devRef .tc main_arg0) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 1 (the edge list). -/
theorem keep_main_arg1 : StableHlo.after (hostOps4 (F := Ideal)) W (Proc.devRef .tc main_arg1) = W (Proc.devRef .tc main_arg1) :=
  StableHlo.after_of_forall_not_mem (b := Proc.devRef .tc main_arg1) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 2 (the stacked left weight matrices). -/
theorem keep_main_arg2 : StableHlo.after (hostOps4 (F := Ideal)) W (Proc.devRef .tc main_arg2) = W (Proc.devRef .tc main_arg2) :=
  StableHlo.after_of_forall_not_mem (b := Proc.devRef .tc main_arg2) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 3 (the stacked biases). -/
theorem keep_main_arg3 : StableHlo.after (hostOps4 (F := Ideal)) W (Proc.devRef .tc main_arg3) = W (Proc.devRef .tc main_arg3) :=
  StableHlo.after_of_forall_not_mem (b := Proc.devRef .tc main_arg3) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 4 (the stacked right weight matrices). -/
theorem keep_main_arg4 : StableHlo.after (hostOps4 (F := Ideal)) W (Proc.devRef .tc main_arg4) = W (Proc.devRef .tc main_arg4) :=
  StableHlo.after_of_forall_not_mem (b := Proc.devRef .tc main_arg4) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 5 (the stacked normalisation scales). -/
theorem keep_main_arg5 : StableHlo.after (hostOps4 (F := Ideal)) W (Proc.devRef .tc main_arg5) = W (Proc.devRef .tc main_arg5) :=
  StableHlo.after_of_forall_not_mem (b := Proc.devRef .tc main_arg5) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line of the stretch writes argument 6 (the stacked normalisation shifts). -/
theorem keep_main_arg6 : StableHlo.after (hostOps4 (F := Ideal)) W (Proc.devRef .tc main_arg6) = W (Proc.devRef .tc main_arg6) :=
  StableHlo.after_of_forall_not_mem (b := Proc.devRef .tc main_arg6) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.KStretch4

end
-- ==== Proof.SageRegion0.lean ====
/-
  The value of the first linear stage of the network, read off the kernel's run block by block.

  The stage computes, for 100000 nodes in 20 tiles of 5000 rows,  y = (A · d) Wl + x Wr + b  with the bias added last:
  at row p of a tile and column j,  (Σₖ (A(p,k) · d(p)) · Wl(k,j) + Σₖ x(p,k) · Wr(k,j)) + b(j).  A change of float format is
  the identity on extended reals, a product accumulated into zero is the plain sum over the contracted coordinate, a column
  [5000,1] broadcast along the row reads the row's one entry, a row [1,128] broadcast down the rows reads the column's entry.
  Besides y the stage writes, for each tile, the column sums of y and of y² over the tile's 5000 rows, each repeated on 8 rows.

  From blocks to arrays: the row-blocked operands' block at grid point t is rows 5000·t … 5000·t + 4999 of their arrays, the
  weights and the bias are staged whole, so what point t writes back is block t of ONE whole-array function of the arrays the
  stage starts from; row r of the result is written by point r / 5000, row q of the two statistics by point q / 8; the blocks
  cover the arrays, so the arrays end holding those functions.
-/
import proofs.«148930_j32976758899207_2_alg».proof.Proof.Gen.KernelIdeal.Frame
import proofs.«148930_j32976758899207_2_alg».proof.Proof.Spec
import Idealize.ShloMosaic.Lib.Pipeline.Value
import Idealize.ShloMosaic.Lib.ValueLayout
import Idealize.ShloMosaic.PureOps.Ideal.Laws

noncomputable section

namespace Cert.KernelIdeal.SageRegion0

open Cert.KernelIdeal Cert.KernelIdeal.Gen Cert.Sage Idealize.ShloMosaic Idealize.ShloMosaic.ValueIdx
open Idealize.ShloMosaic.TcCoe Idealize.SL.Sem
open Idealize.ShloMosaic.Pipeline (Dat)
open scoped BigOperators

/-- A column [a,1] broadcast over b columns reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The left operand's row coordinate in the product is the output's row. -/
theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted one. -/
theorem lhs_col (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contracted one. -/
theorem rhs_row (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a [5000,128] block with a [128,128] matrix, accumulated into zero, at row p and column j:
    the sum over the 128 contracted coordinates. -/
theorem matmul_at (l : FVec Ideal S5000x128 .bf16) (r : FVec Ideal S128x128 .bf16) (p : Fin 5000) (j : Fin 128) :
    matmul dot_S5000x128_S128x128_S5000x128_1_0_0_1_n_n none l r (constant (F := Ideal) S5000x128 .f32 0x00000000#32) (ix2 p j)
      = ∑ k : Fin 128, l (ix2 p k) * r (ix2 k j) := by
  show FloatOps.matmul dot_S5000x128_S128x128_S5000x128_1_0_0_1_n_n none l r (constant S5000x128 .f32 0x00000000#32) (ix2 p j) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs_row _ _).trans hk
    | ⟨1, _⟩ => exact rhs_col _ _)
  rw [el, er]

/-- The linear stage's block at row p and column j: with A the aggregated sums, d the reciprocal degrees, x the features,
    Wl, Wr the weights and b the bias (as one row),
    (Σₖ (A(p,k) · d(p)) · Wl(k,j) + Σₖ x(p,k) · Wr(k,j)) + b(j). -/
theorem pay1_at (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (p : Fin 5000) (j : Fin 128) :
    k0_pay1 (F := Ideal) x0 x1 x2 x3 x5 x4 (ix2 p j)
      = ((∑ k : Fin 128, (x0 (ix2 p k) * x1 (ix2 p (0 : Fin 1))) * x3 (ix2 k j)) + ∑ k : Fin 128, x2 (ix2 p k) * x5 (ix2 k j))
        + x4 (ix2 (0 : Fin 1) j) := by
  unfold k0_pay1
  simp only [shapeCast_self]
  refine (addf_apply _ _ _).trans ?_
  refine congrArg₂ (· + ·) ((addf_apply _ _ _).trans (congrArg₂ (· + ·) ?_ ?_)) ?_
  · refine (matmul_at _ _ p j).trans (Finset.sum_congr rfl fun k _ => ?_)
    refine congrArg₂ (· * ·) ?_ rfl
    show x0 (ix2 p k) * broadcastTo S5000x128 x1 _ (ix2 p k) = _
    rw [broadcastTo_a1_ab_apply]
  · exact matmul_at _ _ p j
  · exact broadcastTo_1b_ab_apply _ _ p j

/-- Inserting the row r into the column index j of the sum over rows gives the entry (r, j). -/
theorem lift_row (j : Fin 128) (r : Fin 5000) :
    (reduces_S5000x128_S128 : S5000x128.Reduces [0] S128).lift (ix1 j) r = ix2 r j :=
  funext fun a => Fin.ext (by
    match a with
    | ⟨0, _⟩ => rfl
    | ⟨1, _⟩ => rfl)

/-- The sum over the 5000 rows of a block, at column j. -/
theorem colsum_at (src : FVec Ideal S5000x128 .f32) (j : Fin 128) :
    multiReduction (F := Ideal) .add [0] S128 src 0x00000000#32 reduces_S5000x128_S128 (.inl rfl) rfl (ix1 j)
      = ∑ r : Fin 5000, src (ix2 r j) := by
  refine (Ideal.multiReduction_add_single src 0x00000000#32 reduces_S5000x128_S128 (.inl rfl) rfl (ix1 j)).trans ?_
  show ∑ r : Fin 5000, src ((reduces_S5000x128_S128 : S5000x128.Reduces [0] S128).lift (ix1 j) r) = _
  exact Finset.sum_congr rfl fun r _ => congrArg src (lift_row j r)

/-- The first statistic of a block: every one of its 8 rows holds, at column j, the sum of the linear stage's column j
    over the block's 5000 rows. -/
theorem pay2_at (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (q : Fin 8) (j : Fin 128) :
    k0_pay2 (F := Ideal) x0 x1 x2 x3 x5 x4 (ix2 q j)
      = ∑ r : Fin 5000, k0_pay1 (F := Ideal) x0 x1 x2 x3 x5 x4 (ix2 r j) := by
  unfold k0_pay2
  simp only [shapeCast_self]
  refine (broadcastTo_1b_ab_apply _ _ q j).trans ?_
  refine (shapeCast_a_1a_apply _ _ (0 : Fin 1) j).trans ?_
  exact colsum_at _ j

/-- The second statistic of a block: the same sum of the squares. -/
theorem pay3_at (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (q : Fin 8) (j : Fin 128) :
    k0_pay3 (F := Ideal) x0 x1 x2 x3 x5 x4 (ix2 q j)
      = ∑ r : Fin 5000, k0_pay1 (F := Ideal) x0 x1 x2 x3 x5 x4 (ix2 r j) * k0_pay1 (F := Ideal) x0 x1 x2 x3 x5 x4 (ix2 r j) := by
  unfold k0_pay3
  simp only [shapeCast_self]
  refine (broadcastTo_1b_ab_apply _ _ q j).trans ?_
  refine (shapeCast_a_1a_apply _ _ (0 : Fin 1) j).trans ?_
  exact colsum_at _ j

/-! ## From the blocks to the arrays -/

variable (V : (c : Dev nD) → (b : Ref sig .tc) → Buf (Elt Ideal) ((c : Thread nD τ).loc b))

/-- The linear stage of the arrays as the region finds them. -/
abbrev Ylin (c : Dev nD) : SX.Idx → EReal :=
  Sage.linK (V c main_v22) (V c main_v12) (V c main_arg0) (fun k j => V c main_v24 (ix2 k j))
    (fun k j => V c main_v28 (ix2 k j)) (fun j => V c main_v29 (ix2 (0 : Fin 1) j))

theorem hz : (![0, 0] : Fin 2 → Nat) = fun _ => 0 := funext fun a => by fin_cases a <;> rfl

/-- Where each window's block sits at grid point t: the row-blocked windows at block row t, the weights and the bias whole. -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = t.val ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = 0 ∧ win0_5.index t (1 : Fin 2) = 0
  ∧ win0_6.index t (0 : Fin 2) = t.val ∧ win0_6.index t (1 : Fin 2) = 0
  ∧ win0_7.index t (0 : Fin 2) = t.val ∧ win0_7.index t (1 : Fin 2) = 0
  ∧ win0_8.index t (0 : Fin 2) = t.val ∧ win0_8.index t (1 : Fin 2) = 0 :=
  (by decide +kernel : ∀ t : Fin grid0.N, _)

/-- The block of the aggregated sums at point t is rows 5000·t … 5000·t + 4999. -/
theorem blk0_at (c : Dev nD) (t : Fin cfg0.N) (n : Fin 20) (hn : n.val = t.val) (p : Fin 5000) (k : Fin 128) :
    (iblk0 V c 0 t : Vec Ideal S5000x128 .f32) (ix2 p k) = (V c main_v22 : SX.Idx → EReal) (ix2 (tileRow n p) k) := by
  obtain ⟨e0, e1, -⟩ := idx_facts t
  unfold iblk0
  rw [View.read_apply]
  show V c main_v22 _ = V c main_v22 _
  refine congrArg _ (funext fun a => Fin.ext ?_)
  match a with
  | ⟨0, _⟩ => show win0_0.index t (0 : Fin 2) * 5000 + 1 * p.val = 5000 * n.val + p.val; rw [e0, hn]; omega
  | ⟨1, _⟩ => show win0_0.index t (1 : Fin 2) * 128 + 1 * k.val = k.val; rw [e1]; omega

/-- The block of the reciprocal degrees at point t is the same rows of the one column. -/
theorem blk1_at (c : Dev nD) (t : Fin cfg0.N) (n : Fin 20) (hn : n.val = t.val) (p : Fin 5000) :
    (iblk0 V c 1 t : Vec Ideal S5000x1 .f32) (ix2 p (0 : Fin 1)) = (V c main_v12 : SC.Idx → EReal) (ix2 (tileRow n p) (0 : Fin 1)) := by
  obtain ⟨-, -, e0, e1, -⟩ := idx_facts t
  unfold iblk0
  rw [View.read_apply]
  show V c main_v12 _ = V c main_v12 _
  refine congrArg _ (funext fun a => Fin.ext ?_)
  match a with
  | ⟨0, _⟩ => show win0_1.index t (0 : Fin 2) * 5000 + 1 * p.val = 5000 * n.val + p.val; rw [e0, hn]; omega
  | ⟨1, _⟩ => show win0_1.index t (1 : Fin 2) * 1 + 1 * 0 = 0; rw [e1]

/-- The block of the node features at point t is the same rows. -/
theorem blk2_at (c : Dev nD) (t : Fin cfg0.N) (n : Fin 20) (hn : n.val = t.val) (p : Fin 5000) (k : Fin 128) :
    (iblk0 V c 2 t : Vec Ideal S5000x128 .f32) (ix2 p k) = (V c main_arg0 : SX.Idx → EReal) (ix2 (tileRow n p) k) := by
  obtain ⟨-, -, -, -, e0, e1, -⟩ := idx_facts t
  unfold iblk0
  rw [View.read_apply]
  show V c main_arg0 _ = V c main_arg0 _
  refine congrArg _ (funext fun a => Fin.ext ?_)
  match a with
  | ⟨0, _⟩ => show win0_2.index t (0 : Fin 2) * 5000 + 1 * p.val = 5000 * n.val + p.val; rw [e0, hn]; omega
  | ⟨1, _⟩ => show win0_2.index t (1 : Fin 2) * 128 + 1 * k.val = k.val; rw [e1]; omega

/-- The first weight matrix is staged whole at every point. -/
theorem blk3_eq (c : Dev nD) (t : Fin cfg0.N) :
    (iblk0 V c 3 t : Vec Ideal S128x128 .f32) = (V c main_v24 : S128x128.Idx → EReal) := by
  obtain ⟨-, -, -, -, -, -, e0, e1, -⟩ := idx_facts t
  funext y
  unfold iblk0
  rw [View.read_apply]
  show V c main_v24 _ = V c main_v24 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias row is staged whole at every point. -/
theorem blk4_eq (c : Dev nD) (t : Fin cfg0.N) :
    (iblk0 V c 4 t : Vec Ideal S1x128 .f32) = (V c main_v29 : S1x128.Idx → EReal) := by
  obtain ⟨-, -, -, -, -, -, -, -, e0, e1, -⟩ := idx_facts t
  funext y
  unfold iblk0
  rw [View.read_apply]
  show V c main_v29 _ = V c main_v29 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The second weight matrix is staged whole at every point. -/
theorem blk5_eq (c : Dev nD) (t : Fin cfg0.N) :
    (iblk0 V c 5 t : Vec Ideal S128x128 .f32) = (V c main_v28 : S128x128.Idx → EReal) := by
  obtain ⟨-, -, -, -, -, -, -, -, -, -, e0, e1, -⟩ := idx_facts t
  funext y
  unfold iblk0
  rw [View.read_apply]
  show V c main_v28 _ = V c main_v28 y
  refine congrArg _ (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-! ## One tile of the linear stage -/

omit V in
/-- When the three row-blocked operands are tile n of whole arrays A, d, x, the body's linear stage at row p of the block is the
    whole-array linear stage at row 5000·n + p. -/
theorem tile_pay1 (A x : SX.Idx → EReal) (dinv : SC.Idx → EReal) (Wl Wr : Vec Ideal S128x128 .f32) (b : Vec Ideal S1x128 .f32)
    (x0 x2 : Vec Ideal S5000x128 .f32) (x1 : Vec Ideal S5000x1 .f32) (n : Fin 20)
    (h0 : ∀ p k, x0 (ix2 p k) = A (ix2 (tileRow n p) k))
    (h1 : ∀ p, x1 (ix2 p (0 : Fin 1)) = dinv (ix2 (tileRow n p) (0 : Fin 1)))
    (h2 : ∀ p k, x2 (ix2 p k) = x (ix2 (tileRow n p) k))
    (p : Fin 5000) (j : Fin 128) :
    k0_pay1 (F := Ideal) x0 x1 x2 Wl Wr b (ix2 p j)
      = linK A dinv x (fun k j => Wl (ix2 k j)) (fun k j => Wr (ix2 k j)) (fun j => b (ix2 (0 : Fin 1) j)) (ix2 (tileRow n p) j) := by
  rw [pay1_at, linK_apply]
  simp only [h0, h1, h2]

omit V in
/-- So the block's first statistic is the tile's column sum of the whole-array linear stage, -/
theorem tile_pay2 (A x : SX.Idx → EReal) (dinv : SC.Idx → EReal) (Wl Wr : Vec Ideal S128x128 .f32) (b : Vec Ideal S1x128 .f32)
    (x0 x2 : Vec Ideal S5000x128 .f32) (x1 : Vec Ideal S5000x1 .f32) (n : Fin 20)
    (h0 : ∀ p k, x0 (ix2 p k) = A (ix2 (tileRow n p) k))
    (h1 : ∀ p, x1 (ix2 p (0 : Fin 1)) = dinv (ix2 (tileRow n p) (0 : Fin 1)))
    (h2 : ∀ p k, x2 (ix2 p k) = x (ix2 (tileRow n p) k))
    (q : Fin 8) (j : Fin 128) :
    k0_pay2 (F := Ideal) x0 x1 x2 Wl Wr b (ix2 q j)
      = tileSum (linK A dinv x (fun k j => Wl (ix2 k j)) (fun k j => Wr (ix2 k j)) (fun j => b (ix2 (0 : Fin 1) j))) n j := by
  rw [pay2_at]
  exact Finset.sum_congr rfl fun r _ => tile_pay1 A x dinv Wl Wr b x0 x2 x1 n h0 h1 h2 r j

omit V in
/-- and its second statistic the tile's column sum of squares. -/
theorem tile_pay3 (A x : SX.Idx → EReal) (dinv : SC.Idx → EReal) (Wl Wr : Vec Ideal S128x128 .f32) (b : Vec Ideal S1x128 .f32)
    (x0 x2 : Vec Ideal S5000x128 .f32) (x1 : Vec Ideal S5000x1 .f32) (n : Fin 20)
    (h0 : ∀ p k, x0 (ix2 p k) = A (ix2 (tileRow n p) k))
    (h1 : ∀ p, x1 (ix2 p (0 : Fin 1)) = dinv (ix2 (tileRow n p) (0 : Fin 1)))
    (h2 : ∀ p k, x2 (ix2 p k) = x (ix2 (tileRow n p) k))
    (q : Fin 8) (j : Fin 128) :
    k0_pay3 (F := Ideal) x0 x1 x2 Wl Wr b (ix2 q j)
      = tileSq (linK A dinv x (fun k j => Wl (ix2 k j)) (fun k j => Wr (ix2 k j)) (fun j => b (ix2 (0 : Fin 1) j))) n j := by
  rw [pay3_at]
  exact Finset.sum_congr rfl fun r _ => by rw [tile_pay1 A x dinv Wl Wr b x0 x2 x1 n h0 h1 h2 r j]

/-! ## Output 6: the linear stage itself -/

/-- What point t writes back to the first output is block t of the whole-array linear stage. -/
theorem flushed6_eq (c : Dev nD) (t : Fin cfg0.N) :
    (dat0 (F := Ideal) V c).flushed 6 t = ((cfg0.win 6).blk t).view.read (Elt Ideal) (Ylin V c) := by
  have hN : t.val < 20 := lt_of_lt_of_eq t.isLt (show cfg0.N = 20 from N_0)
  obtain ⟨-, -, -, -, -, -, -, -, -, -, -, -, e0, e1, -⟩ := idx_facts t
  show (cfg0.win 6).cut (grid0.coords t) ((dat0 (F := Ideal) V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  show (k0_pay1 (F := Ideal) (iblk0 V c 0 t) (iblk0 V c 1 t) (iblk0 V c 2 t) (iblk0 V c 3 t) (iblk0 V c 5 t) (iblk0 V c 4 t) : Vec Ideal S5000x128 .f32)
    = fun y : S5000x128.Idx => Ylin V c (((cfg0.win 6).blk t).view.emb y)
  rw [blk3_eq V c t, blk4_eq V c t, blk5_eq V c t]
  funext y
  obtain ⟨p, j, rfl⟩ : ∃ (p : Fin 5000) (j : Fin 128), y = ix2 p j := ⟨y 0, y 1, eq_ix2 y⟩
  have he : ((cfg0.win 6).blk t).view.emb (ix2 p j) = (ix2 (tileRow ⟨t.val, hN⟩ p) j : SX.Idx) := by
    funext a; apply Fin.ext
    match a with
    | ⟨0, _⟩ => show win0_6.index t (0 : Fin 2) * 5000 + 1 * p.val = 5000 * t.val + p.val; rw [e0]; omega
    | ⟨1, _⟩ => show win0_6.index t (1 : Fin 2) * 128 + 1 * j.val = j.val; rw [e1]; omega
  show _ = Ylin V c (((cfg0.win 6).blk t).view.emb (ix2 p j))
  rw [he]
  exact tile_pay1 (V c main_v22) (V c main_arg0) (V c main_v12) (V c main_v24) (V c main_v28) (V c main_v29)
    (iblk0 V c 0 t) (iblk0 V c 2 t) (iblk0 V c 1 t) ⟨t.val, hN⟩
    (blk0_at V c t ⟨t.val, hN⟩ rfl) (blk1_at V c t ⟨t.val, hN⟩ rfl) (blk2_at V c t ⟨t.val, hN⟩ rfl) p j

omit V in
/-- An index of the first output lies in point t's block exactly when, on each axis, its coordinate is inside the block's range. -/
theorem mem_blk6 (t : Fin cfg0.N) (i : SX.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v30_0).slice (win0_6.rect t)).set ↔ _
  rw [View.set_slice_whole, Rect.mem_set_unit]
  exact Iff.rfl

omit V in
/-- Row r of the first output is written by point r / 5000. -/
theorem cover6 (i : SX.Idx) : ∃ t : Fin cfg0.N, (cfg0.win 6).flush t = true ∧ i ∈ ((cfg0.win 6).blk t).view.set := by
  have hi0 : (i 0).val < 100000 := idx2_lt0 i
  have hi1 : (i 1).val < 128 := idx2_lt1 i
  have hlt : (i 0).val / 5000 < cfg0.N := by rw [show cfg0.N = 20 from N_0]; omega
  obtain ⟨-, -, -, -, -, -, -, -, -, -, -, -, e0, e1, -⟩ := idx_facts ⟨(i 0).val / 5000, hlt⟩
  refine ⟨⟨(i 0).val / 5000, hlt⟩, flush0_6 _, ?_⟩
  rw [mem_blk6]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    rw [e1]
    omega

/-- THE FIRST OUTPUT after the region: the linear stage of the arrays the region found. -/
theorem out_Y (c : Dev nD) :
    (Gen.dat0 (F := Ideal) V c).arrAt 6 cfg0.N
      = Sage.linK (V c main_v22) (V c main_v12) (V c main_arg0) (fun k j => V c main_v24 (ix2 k j))
        (fun k j => V c main_v28 (ix2 k j)) (fun j => V c main_v29 (ix2 (0 : Fin 1) j)) :=
  (dat0 (F := Ideal) V c).arrAt_eq_of_cover 6 (Ylin V c) (fun t _ => flushed6_eq V c t) cover6

/-! ## Output 7: the tiles' column sums -/

/-- Row q of the second output holds, at column j, the column sum of the linear stage over tile q / 8. -/
abbrev S1 (c : Dev nD) : S160x128.Idx → EReal :=
  fun i => tileSum (Ylin V c) ⟨(i 0).val / 8, by have := idx2_lt0 i; omega⟩ ⟨(i 1).val, idx2_lt1 i⟩

/-- What point t writes back to the second output is block t of that array: eight copies of tile t's column sums. -/
theorem flushed7_eq (c : Dev nD) (t : Fin cfg0.N) :
    (dat0 (F := Ideal) V c).flushed 7 t = ((cfg0.win 7).blk t).view.read (Elt Ideal) (S1 V c) := by
  have hN : t.val < 20 := lt_of_lt_of_eq t.isLt (show cfg0.N = 20 from N_0)
  obtain ⟨-, -, -, -, -, -, -, -, -, -, -, -, -, -, e0, e1, -⟩ := idx_facts t
  show (cfg0.win 7).cut (grid0.coords t) ((dat0 (F := Ideal) V c).after 7 t) = _
  rw [after0_7]
  unfold out0_7
  rw [View.canon_unit_zero hz]
  simp only [View.ld_unit_zero (S := S5000x128) hz, View.ld_unit_zero (S := S5000x1) hz, View.ld_unit_zero (S := S128x128) hz,
    View.ld_unit_zero (S := S1x128) hz]
  show (k0_pay2 (F := Ideal) (iblk0 V c 0 t) (iblk0 V c 1 t) (iblk0 V c 2 t) (iblk0 V c 3 t) (iblk0 V c 5 t) (iblk0 V c 4 t) : Vec Ideal S8x128 .f32)
    = fun y : S8x128.Idx => S1 V c (((cfg0.win 7).blk t).view.emb y)
  rw [blk3_eq V c t, blk4_eq V c t, blk5_eq V c t]
  funext y
  obtain ⟨q, j, rfl⟩ : ∃ (q : Fin 8) (j : Fin 128), y = ix2 q j := ⟨y 0, y 1, eq_ix2 y⟩
  have hq : 8 * t.val + q.val < 160 := by have := q.isLt; omega
  have hn : (8 * t.val + q.val) / 8 < 20 := by omega
  have he : ((cfg0.win 7).blk t).view.emb (ix2 q j) = (ix2 (⟨8 * t.val + q.val, hq⟩ : Fin 160) j : S160x128.Idx) := by
    funext a; apply Fin.ext
    match a with
    | ⟨0, _⟩ => show win0_7.index t (0 : Fin 2) * 8 + 1 * q.val = 8 * t.val + q.val; rw [e0]; omega
    | ⟨1, _⟩ => show win0_7.index t (1 : Fin 2) * 128 + 1 * j.val = j.val; rw [e1]; omega
  have hnt : (⟨(8 * t.val + q.val) / 8, hn⟩ : Fin 20).val = t.val := by
    show (8 * t.val + q.val) / 8 = t.val
    have := q.isLt; omega
  show _ = S1 V c (((cfg0.win 7).blk t).view.emb (ix2 q j))
  rw [he]
  exact tile_pay2 (V c main_v22) (V c main_arg0) (V c main_v12) (V c main_v24) (V c main_v28) (V c main_v29)
    (iblk0 V c 0 t) (iblk0 V c 2 t) (iblk0 V c 1 t) ⟨(8 * t.val + q.val) / 8, hn⟩
    (blk0_at V c t _ hnt) (blk1_at V c t _ hnt) (blk2_at V c t _ hnt) q j

omit V in
/-- An index of this output lies in point t's block exactly when, on each axis, its coordinate is inside the block's range. -/
theorem mem_blk7 (t : Fin cfg0.N) (i : S160x128.Idx) :
    i ∈ ((cfg0.win 7).blk t).view.set ↔ ∀ a : Fin 2, win0_7.index t a * S8x128.size a ≤ (i a).val
      ∧ (i a).val < win0_7.index t a * S8x128.size a + S8x128.size a := by
  show i ∈ ((View.whole main_v30_1).slice (win0_7.rect t)).set ↔ _
  rw [View.set_slice_whole, Rect.mem_set_unit]
  exact Iff.rfl

omit V in
/-- Row q of this output is written by point q / 8. -/
theorem cover7 (i : S160x128.Idx) : ∃ t : Fin cfg0.N, (cfg0.win 7).flush t = true ∧ i ∈ ((cfg0.win 7).blk t).view.set := by
  have hi0 : (i 0).val < 160 := idx2_lt0 i
  have hi1 : (i 1).val < 128 := idx2_lt1 i
  have hlt : (i 0).val / 8 < cfg0.N := by rw [show cfg0.N = 20 from N_0]; omega
  obtain ⟨-, -, -, -, -, -, -, -, -, -, -, -, -, -, e0, e1, -⟩ := idx_facts ⟨(i 0).val / 8, hlt⟩
  refine ⟨⟨(i 0).val / 8, hlt⟩, flush0_7 _, ?_⟩
  rw [mem_blk7]
  intro a
  match a with
  | ⟨0, _⟩ =>
    show win0_7.index ⟨(i 0).val / 8, hlt⟩ (0 : Fin 2) * 8 ≤ (i 0).val
      ∧ (i 0).val < win0_7.index ⟨(i 0).val / 8, hlt⟩ (0 : Fin 2) * 8 + 8
    rw [e0]
    show (i 0).val / 8 * 8 ≤ (i 0).val ∧ (i 0).val < (i 0).val / 8 * 8 + 8
    omega
  | ⟨1, _⟩ =>
    show win0_7.index ⟨(i 0).val / 8, hlt⟩ (1 : Fin 2) * 128 ≤ (i 1).val
      ∧ (i 1).val < win0_7.index ⟨(i 0).val / 8, hlt⟩ (1 : Fin 2) * 128 + 128
    rw [e1]
    omega

/-- THE SECOND OUTPUT after the region: row q holds the column sums of the linear stage over the 5000 rows of tile q / 8. -/
theorem out_S1 (c : Dev nD) (q : Fin 160) (j : Fin 128) :
    (Gen.dat0 (F := Ideal) V c).arrAt 7 cfg0.N (ix2 q j)
      = Sage.tileSum (Sage.linK (V c main_v22) (V c main_v12) (V c main_arg0) (fun k j => V c main_v24 (ix2 k j))
        (fun k j => V c main_v28 (ix2 k j)) (fun j => V c main_v29 (ix2 (0 : Fin 1) j))) ⟨q.val / 8, by omega⟩ j :=
  congrFun ((dat0 (F := Ideal) V c).arrAt_eq_of_cover 7 (S1 V c) (fun t _ => flushed7_eq V c t) cover7) (ix2 q j)

/-! ## Output 8: the tiles' column sums of squares -/

/-- Row q of the third output holds, at column j, the column sum of squares of the linear stage over tile q / 8. -/
abbrev S2 (c : Dev nD) : S160x128.Idx → EReal :=
  fun i => tileSq (Ylin V c) ⟨(i 0).val / 8, by have := idx2_lt0 i; omega⟩ ⟨(i 1).val, idx2_lt1 i⟩

/-- What point t writes back to the third output is block t of that array: eight copies of tile t's column sums of squares. -/
theorem flushed8_eq (c : Dev nD) (t : Fin cfg0.N) :
    (dat0 (F := Ideal) V c).flushed 8 t = ((cfg0.win 8).blk t).view.read (Elt Ideal) (S2 V c) := by
  have hN : t.val < 20 := lt_of_lt_of_eq t.isLt (show cfg0.N = 20 from N_0)
  obtain ⟨-, -, -, -, -, -, -, -, -, -, -, -, -, -, -, -, e0, e1⟩ := idx_facts t
  show (cfg0.win 8).cut (grid0.coords t) ((dat0 (F := Ideal) V c).after 8 t) = _
  rw [after0_8]
  unfold out0_8
  rw [View.canon_unit_zero hz]
  simp only [View.ld_unit_zero (S := S5000x128) hz, View.ld_unit_zero (S := S5000x1) hz, View.ld_unit_zero (S := S128x128) hz,
    View.ld_unit_zero (S := S1x128) hz]
  show (k0_pay3 (F := Ideal) (iblk0 V c 0 t) (iblk0 V c 1 t) (iblk0 V c 2 t) (iblk0 V c 3 t) (iblk0 V c 5 t) (iblk0 V c 4 t) : Vec Ideal S8x128 .f32)
    = fun y : S8x128.Idx => S2 V c (((cfg0.win 8).blk t).view.emb y)
  rw [blk3_eq V c t, blk4_eq V c t, blk5_eq V c t]
  funext y
  obtain ⟨q, j, rfl⟩ : ∃ (q : Fin 8) (j : Fin 128), y = ix2 q j := ⟨y 0, y 1, eq_ix2 y⟩
  have hq : 8 * t.val + q.val < 160 := by have := q.isLt; omega
  have hn : (8 * t.val + q.val) / 8 < 20 := by omega
  have he : ((cfg0.win 8).blk t).view.emb (ix2 q j) = (ix2 (⟨8 * t.val + q.val, hq⟩ : Fin 160) j : S160x128.Idx) := by
    funext a; apply Fin.ext
    match a with
    | ⟨0, _⟩ => show win0_8.index t (0 : Fin 2) * 8 + 1 * q.val = 8 * t.val + q.val; rw [e0]; omega
    | ⟨1, _⟩ => show win0_8.index t (1 : Fin 2) * 128 + 1 * j.val = j.val; rw [e1]; omega
  have hnt : (⟨(8 * t.val + q.val) / 8, hn⟩ : Fin 20).val = t.val := by
    show (8 * t.val + q.val) / 8 = t.val
    have := q.isLt; omega
  show _ = S2 V c (((cfg0.win 8).blk t).view.emb (ix2 q j))
  rw [he]
  exact tile_pay3 (V c main_v22) (V c main_arg0) (V c main_v12) (V c main_v24) (V c main_v28) (V c main_v29)
    (iblk0 V c 0 t) (iblk0 V c 2 t) (iblk0 V c 1 t) ⟨(8 * t.val + q.val) / 8, hn⟩
    (blk0_at V c t _ hnt) (blk1_at V c t _ hnt) (blk2_at V c t _ hnt) q j

omit V in
/-- An index of this output lies in point t's block exactly when, on each axis, its coordinate is inside the block's range. -/
theorem mem_blk8 (t : Fin cfg0.N) (i : S160x128.Idx) :
    i ∈ ((cfg0.win 8).blk t).view.set ↔ ∀ a : Fin 2, win0_8.index t a * S8x128.size a ≤ (i a).val
      ∧ (i a).val < win0_8.index t a * S8x128.size a + S8x128.size a := by
  show i ∈ ((View.whole main_v30_2).slice (win0_8.rect t)).set ↔ _
  rw [View.set_slice_whole, Rect.mem_set_unit]
  exact Iff.rfl

omit V in
/-- Row q of this output is written by point q / 8. -/
theorem cover8 (i : S160x128.Idx) : ∃ t : Fin cfg0.N, (cfg0.win 8).flush t = true ∧ i ∈ ((cfg0.win 8).blk t).view.set := by
  have hi0 : (i 0).val < 160 := idx2_lt0 i
  have hi1 : (i 1).val < 128 := idx2_lt1 i
  have hlt : (i 0).val / 8 < cfg0.N := by rw [show cfg0.N = 20 from N_0]; omega
  obtain ⟨-, -, -, -, -, -, -, -, -, -, -, -, -, -, -, -, e0, e1⟩ := idx_facts ⟨(i 0).val / 8, hlt⟩
  refine ⟨⟨(i 0).val / 8, hlt⟩, flush0_8 _, ?_⟩
  rw [mem_blk8]
  intro a
  match a with
  | ⟨0, _⟩ =>
    show win0_8.index ⟨(i 0).val / 8, hlt⟩ (0 : Fin 2) * 8 ≤ (i 0).val
      ∧ (i 0).val < win0_8.index ⟨(i 0).val / 8, hlt⟩ (0 : Fin 2) * 8 + 8
    rw [e0]
    show (i 0).val / 8 * 8 ≤ (i 0).val ∧ (i 0).val < (i 0).val / 8 * 8 + 8
    omega
  | ⟨1, _⟩ =>
    show win0_8.index ⟨(i 0).val / 8, hlt⟩ (1 : Fin 2) * 128 ≤ (i 1).val
      ∧ (i 1).val < win0_8.index ⟨(i 0).val / 8, hlt⟩ (1 : Fin 2) * 128 + 128
    rw [e1]
    omega

/-- THE THIRD OUTPUT after the region: row q holds the column sums of squares of the linear stage over the 5000 rows of tile q / 8. -/
theorem out_S2 (c : Dev nD) (q : Fin 160) (j : Fin 128) :
    (Gen.dat0 (F := Ideal) V c).arrAt 8 cfg0.N (ix2 q j)
      = Sage.tileSq (Sage.linK (V c main_v22) (V c main_v12) (V c main_arg0) (fun k j => V c main_v24 (ix2 k j))
        (fun k j => V c main_v28 (ix2 k j)) (fun j => V c main_v29 (ix2 (0 : Fin 1) j))) ⟨q.val / 8, by omega⟩ j :=
  congrFun ((dat0 (F := Ideal) V c).arrAt_eq_of_cover 8 (S2 V c) (fun t _ => flushed8_eq V c t) cover8) (ix2 q j)

end Cert.KernelIdeal.SageRegion0

end
-- ==== Proof.SageRegion2.lean ====
/-
  The value of the second linear stage of the network, read off the kernel's run block by block.

  The stage computes, for 100000 nodes in 20 tiles of 5000 rows,  y = (A · d) Wl + x Wr + b  with the bias added last:
  at row p of a tile and column j,  (Σₖ (A(p,k) · d(p)) · Wl(k,j) + Σₖ x(p,k) · Wr(k,j)) + b(j).  A change of float format is
  the identity on extended reals, a product accumulated into zero is the plain sum over the contracted coordinate, a column
  [5000,1] broadcast along the row reads the row's one entry, a row [1,128] broadcast down the rows reads the column's entry.
  Besides y the stage writes, for each tile, the column sums of y and of y² over the tile's 5000 rows, each repeated on 8 rows.

  From blocks to arrays: the row-blocked operands' block at grid point t is rows 5000·t … 5000·t + 4999 of their arrays, the
  weights and the bias are staged whole, so what point t writes back is block t of ONE whole-array function of the arrays the
  stage starts from; row r of the result is written by point r / 5000, row q of the two statistics by point q / 8; the blocks
  cover the arrays, so the arrays end holding those functions.
-/
import proofs.«148930_j32976758899207_2_alg».proof.Proof.Gen.KernelIdeal.Frame
import proofs.«148930_j32976758899207_2_alg».proof.Proof.Spec
import Idealize.ShloMosaic.Lib.Pipeline.Value
import Idealize.ShloMosaic.Lib.ValueLayout
import Idealize.ShloMosaic.PureOps.Ideal.Laws

noncomputable section

namespace Cert.KernelIdeal.SageRegion2

open Cert.KernelIdeal Cert.KernelIdeal.Gen Cert.Sage Idealize.ShloMosaic Idealize.ShloMosaic.ValueIdx
open Idealize.ShloMosaic.TcCoe Idealize.SL.Sem
open Idealize.ShloMosaic.Pipeline (Dat)
open scoped BigOperators

/-- A column [a,1] broadcast over b columns reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The left operand's row coordinate in the product is the output's row. -/
theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted one. -/
theorem lhs_col (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contracted one. -/
theorem rhs_row (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a [5000,128] block with a [128,128] matrix, accumulated into zero, at row p and column j:
    the sum over the 128 contracted coordinates. -/
theorem matmul_at (l : FVec Ideal S5000x128 .bf16) (r : FVec Ideal S128x128 .bf16) (p : Fin 5000) (j : Fin 128) :
    matmul dot_S5000x128_S128x128_S5000x128_1_0_0_1_n_n none l r (constant (F := Ideal) S5000x128 .f32 0x00000000#32) (ix2 p j)
      = ∑ k : Fin 128, l (ix2 p k) * r (ix2 k j) := by
  show FloatOps.matmul dot_S5000x128_S128x128_S5000x128_1_0_0_1_n_n none l r (constant S5000x128 .f32 0x00000000#32) (ix2 p j) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs_row _ _).trans hk
    | ⟨1, _⟩ => exact rhs_col _ _)
  rw [el, er]

/-- The linear stage's block at row p and column j: with A the aggregated sums, d the reciprocal degrees, x the features,
    Wl, Wr the weights and b the bias (as one row),
    (Σₖ (A(p,k) · d(p)) · Wl(k,j) + Σₖ x(p,k) · Wr(k,j)) + b(j). -/
theorem pay1_at (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (p : Fin 5000) (j : Fin 128) :
    k2_pay1 (F := Ideal) x0 x1 x2 x3 x5 x4 (ix2 p j)
      = ((∑ k : Fin 128, (x0 (ix2 p k) * x1 (ix2 p (0 : Fin 1))) * x3 (ix2 k j)) + ∑ k : Fin 128, x2 (ix2 p k) * x5 (ix2 k j))
        + x4 (ix2 (0 : Fin 1) j) := by
  unfold k2_pay1
  simp only [shapeCast_self]
  refine (addf_apply _ _ _).trans ?_
  refine congrArg₂ (· + ·) ((addf_apply _ _ _).trans (congrArg₂ (· + ·) ?_ ?_)) ?_
  · refine (matmul_at _ _ p j).trans (Finset.sum_congr rfl fun k _ => ?_)
    refine congrArg₂ (· * ·) ?_ rfl
    show x0 (ix2 p k) * broadcastTo S5000x128 x1 _ (ix2 p k) = _
    rw [broadcastTo_a1_ab_apply]
  · exact matmul_at _ _ p j
  · exact broadcastTo_1b_ab_apply _ _ p j

/-- Inserting the row r into the column index j of the sum over rows gives the entry (r, j). -/
theorem lift_row (j : Fin 128) (r : Fin 5000) :
    (reduces_S5000x128_S128 : S5000x128.Reduces [0] S128).lift (ix1 j) r = ix2 r j :=
  funext fun a => Fin.ext (by
    match a with
    | ⟨0, _⟩ => rfl
    | ⟨1, _⟩ => rfl)

/-- The sum over the 5000 rows of a block, at column j. -/
theorem colsum_at (src : FVec Ideal S5000x128 .f32) (j : Fin 128) :
    multiReduction (F := Ideal) .add [0] S128 src 0x00000000#32 reduces_S5000x128_S128 (.inl rfl) rfl (ix1 j)
      = ∑ r : Fin 5000, src (ix2 r j) := by
  refine (Ideal.multiReduction_add_single src 0x00000000#32 reduces_S5000x128_S128 (.inl rfl) rfl (ix1 j)).trans ?_
  show ∑ r : Fin 5000, src ((reduces_S5000x128_S128 : S5000x128.Reduces [0] S128).lift (ix1 j) r) = _
  exact Finset.sum_congr rfl fun r _ => congrArg src (lift_row j r)

/-- The first statistic of a block: every one of its 8 rows holds, at column j, the sum of the linear stage's column j
    over the block's 5000 rows. -/
theorem pay2_at (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (q : Fin 8) (j : Fin 128) :
    k2_pay2 (F := Ideal) x0 x1 x2 x3 x5 x4 (ix2 q j)
      = ∑ r : Fin 5000, k2_pay1 (F := Ideal) x0 x1 x2 x3 x5 x4 (ix2 r j) := by
  unfold k2_pay2
  simp only [shapeCast_self]
  refine (broadcastTo_1b_ab_apply _ _ q j).trans ?_
  refine (shapeCast_a_1a_apply _ _ (0 : Fin 1) j).trans ?_
  exact colsum_at _ j

/-- The second statistic of a block: the same sum of the squares. -/
theorem pay3_at (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (q : Fin 8) (j : Fin 128) :
    k2_pay3 (F := Ideal) x0 x1 x2 x3 x5 x4 (ix2 q j)
      = ∑ r : Fin 5000, k2_pay1 (F := Ideal) x0 x1 x2 x3 x5 x4 (ix2 r j) * k2_pay1 (F := Ideal) x0 x1 x2 x3 x5 x4 (ix2 r j) := by
  unfold k2_pay3
  simp only [shapeCast_self]
  refine (broadcastTo_1b_ab_apply _ _ q j).trans ?_
  refine (shapeCast_a_1a_apply _ _ (0 : Fin 1) j).trans ?_
  exact colsum_at _ j

/-! ## From the blocks to the arrays -/

variable (V : (c : Dev nD) → (b : Ref sig .tc) → Buf (Elt Ideal) ((c : Thread nD τ).loc b))

/-- The linear stage of the arrays as the region finds them. -/
abbrev Ylin (c : Dev nD) : SX.Idx → EReal :=
  Sage.linK (V c main_v69) (V c main_v12) (V c main_v59) (fun k j => V c main_v71 (ix2 k j))
    (fun k j => V c main_v75 (ix2 k j)) (fun j => V c main_v76 (ix2 (0 : Fin 1) j))

theorem hz : (![0, 0] : Fin 2 → Nat) = fun _ => 0 := funext fun a => by fin_cases a <;> rfl

/-- Where each window's block sits at grid point t: the row-blocked windows at block row t, the weights and the bias whole. -/
theorem idx_facts : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = t.val ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = 0 ∧ win2_5.index t (1 : Fin 2) = 0
  ∧ win2_6.index t (0 : Fin 2) = t.val ∧ win2_6.index t (1 : Fin 2) = 0
  ∧ win2_7.index t (0 : Fin 2) = t.val ∧ win2_7.index t (1 : Fin 2) = 0
  ∧ win2_8.index t (0 : Fin 2) = t.val ∧ win2_8.index t (1 : Fin 2) = 0 :=
  (by decide +kernel : ∀ t : Fin grid2.N, _)

/-- The block of the aggregated sums at point t is rows 5000·t … 5000·t + 4999. -/
theorem blk0_at (c : Dev nD) (t : Fin cfg2.N) (n : Fin 20) (hn : n.val = t.val) (p : Fin 5000) (k : Fin 128) :
    (iblk2 V c 0 t : Vec Ideal S5000x128 .f32) (ix2 p k) = (V c main_v69 : SX.Idx → EReal) (ix2 (tileRow n p) k) := by
  obtain ⟨e0, e1, -⟩ := idx_facts t
  unfold iblk2
  rw [View.read_apply]
  show V c main_v69 _ = V c main_v69 _
  refine congrArg _ (funext fun a => Fin.ext ?_)
  match a with
  | ⟨0, _⟩ => show win2_0.index t (0 : Fin 2) * 5000 + 1 * p.val = 5000 * n.val + p.val; rw [e0, hn]; omega
  | ⟨1, _⟩ => show win2_0.index t (1 : Fin 2) * 128 + 1 * k.val = k.val; rw [e1]; omega

/-- The block of the reciprocal degrees at point t is the same rows of the one column. -/
theorem blk1_at (c : Dev nD) (t : Fin cfg2.N) (n : Fin 20) (hn : n.val = t.val) (p : Fin 5000) :
    (iblk2 V c 1 t : Vec Ideal S5000x1 .f32) (ix2 p (0 : Fin 1)) = (V c main_v12 : SC.Idx → EReal) (ix2 (tileRow n p) (0 : Fin 1)) := by
  obtain ⟨-, -, e0, e1, -⟩ := idx_facts t
  unfold iblk2
  rw [View.read_apply]
  show V c main_v12 _ = V c main_v12 _
  refine congrArg _ (funext fun a => Fin.ext ?_)
  match a with
  | ⟨0, _⟩ => show win2_1.index t (0 : Fin 2) * 5000 + 1 * p.val = 5000 * n.val + p.val; rw [e0, hn]; omega
  | ⟨1, _⟩ => show win2_1.index t (1 : Fin 2) * 1 + 1 * 0 = 0; rw [e1]

/-- The block of the node features at point t is the same rows. -/
theorem blk2_at (c : Dev nD) (t : Fin cfg2.N) (n : Fin 20) (hn : n.val = t.val) (p : Fin 5000) (k : Fin 128) :
    (iblk2 V c 2 t : Vec Ideal S5000x128 .f32) (ix2 p k) = (V c main_v59 : SX.Idx → EReal) (ix2 (tileRow n p) k) := by
  obtain ⟨-, -, -, -, e0, e1, -⟩ := idx_facts t
  unfold iblk2
  rw [View.read_apply]
  show V c main_v59 _ = V c main_v59 _
  refine congrArg _ (funext fun a => Fin.ext ?_)
  match a with
  | ⟨0, _⟩ => show win2_2.index t (0 : Fin 2) * 5000 + 1 * p.val = 5000 * n.val + p.val; rw [e0, hn]; omega
  | ⟨1, _⟩ => show win2_2.index t (1 : Fin 2) * 128 + 1 * k.val = k.val; rw [e1]; omega

/-- The first weight matrix is staged whole at every point. -/
theorem blk3_eq (c : Dev nD) (t : Fin cfg2.N) :
    (iblk2 V c 3 t : Vec Ideal S128x128 .f32) = (V c main_v71 : S128x128.Idx → EReal) := by
  obtain ⟨-, -, -, -, -, -, e0, e1, -⟩ := idx_facts t
  funext y
  unfold iblk2
  rw [View.read_apply]
  show V c main_v71 _ = V c main_v71 y
  refine congrArg _ (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- The bias row is staged whole at every point. -/
theorem blk4_eq (c : Dev nD) (t : Fin cfg2.N) :
    (iblk2 V c 4 t : Vec Ideal S1x128 .f32) = (V c main_v76 : S1x128.Idx → EReal) := by
  obtain ⟨-, -, -, -, -, -, -, -, e0, e1, -⟩ := idx_facts t
  funext y
  unfold iblk2
  rw [View.read_apply]
  show V c main_v76 _ = V c main_v76 y
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The second weight matrix is staged whole at every point. -/
theorem blk5_eq (c : Dev nD) (t : Fin cfg2.N) :
    (iblk2 V c 5 t : Vec Ideal S128x128 .f32) = (V c main_v75 : S128x128.Idx → EReal) := by
  obtain ⟨-, -, -, -, -, -, -, -, -, -, e0, e1, -⟩ := idx_facts t
  funext y
  unfold iblk2
  rw [View.read_apply]
  show V c main_v75 _ = V c main_v75 y
  refine congrArg _ (funext fun a => Fin.ext ?_)
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

/-! ## One tile of the linear stage -/

omit V in
/-- When the three row-blocked operands are tile n of whole arrays A, d, x, the body's linear stage at row p of the block is the
    whole-array linear stage at row 5000·n + p. -/
theorem tile_pay1 (A x : SX.Idx → EReal) (dinv : SC.Idx → EReal) (Wl Wr : Vec Ideal S128x128 .f32) (b : Vec Ideal S1x128 .f32)
    (x0 x2 : Vec Ideal S5000x128 .f32) (x1 : Vec Ideal S5000x1 .f32) (n : Fin 20)
    (h0 : ∀ p k, x0 (ix2 p k) = A (ix2 (tileRow n p) k))
    (h1 : ∀ p, x1 (ix2 p (0 : Fin 1)) = dinv (ix2 (tileRow n p) (0 : Fin 1)))
    (h2 : ∀ p k, x2 (ix2 p k) = x (ix2 (tileRow n p) k))
    (p : Fin 5000) (j : Fin 128) :
    k2_pay1 (F := Ideal) x0 x1 x2 Wl Wr b (ix2 p j)
      = linK A dinv x (fun k j => Wl (ix2 k j)) (fun k j => Wr (ix2 k j)) (fun j => b (ix2 (0 : Fin 1) j)) (ix2 (tileRow n p) j) := by
  rw [pay1_at, linK_apply]
  simp only [h0, h1, h2]

omit V in
/-- So the block's first statistic is the tile's column sum of the whole-array linear stage, -/
theorem tile_pay2 (A x : SX.Idx → EReal) (dinv : SC.Idx → EReal) (Wl Wr : Vec Ideal S128x128 .f32) (b : Vec Ideal S1x128 .f32)
    (x0 x2 : Vec Ideal S5000x128 .f32) (x1 : Vec Ideal S5000x1 .f32) (n : Fin 20)
    (h0 : ∀ p k, x0 (ix2 p k) = A (ix2 (tileRow n p) k))
    (h1 : ∀ p, x1 (ix2 p (0 : Fin 1)) = dinv (ix2 (tileRow n p) (0 : Fin 1)))
    (h2 : ∀ p k, x2 (ix2 p k) = x (ix2 (tileRow n p) k))
    (q : Fin 8) (j : Fin 128) :
    k2_pay2 (F := Ideal) x0 x1 x2 Wl Wr b (ix2 q j)
      = tileSum (linK A dinv x (fun k j => Wl (ix2 k j)) (fun k j => Wr (ix2 k j)) (fun j => b (ix2 (0 : Fin 1) j))) n j := by
  rw [pay2_at]
  exact Finset.sum_congr rfl fun r _ => tile_pay1 A x dinv Wl Wr b x0 x2 x1 n h0 h1 h2 r j

omit V in
/-- and its second statistic the tile's column sum of squares. -/
theorem tile_pay3 (A x : SX.Idx → EReal) (dinv : SC.Idx → EReal) (Wl Wr : Vec Ideal S128x128 .f32) (b : Vec Ideal S1x128 .f32)
    (x0 x2 : Vec Ideal S5000x128 .f32) (x1 : Vec Ideal S5000x1 .f32) (n : Fin 20)
    (h0 : ∀ p k, x0 (ix2 p k) = A (ix2 (tileRow n p) k))
    (h1 : ∀ p, x1 (ix2 p (0 : Fin 1)) = dinv (ix2 (tileRow n p) (0 : Fin 1)))
    (h2 : ∀ p k, x2 (ix2 p k) = x (ix2 (tileRow n p) k))
    (q : Fin 8) (j : Fin 128) :
    k2_pay3 (F := Ideal) x0 x1 x2 Wl Wr b (ix2 q j)
      = tileSq (linK A dinv x (fun k j => Wl (ix2 k j)) (fun k j => Wr (ix2 k j)) (fun j => b (ix2 (0 : Fin 1) j))) n j := by
  rw [pay3_at]
  exact Finset.sum_congr rfl fun r _ => by rw [tile_pay1 A x dinv Wl Wr b x0 x2 x1 n h0 h1 h2 r j]

/-! ## Output 6: the linear stage itself -/

/-- What point t writes back to the first output is block t of the whole-array linear stage. -/
theorem flushed6_eq (c : Dev nD) (t : Fin cfg2.N) :
    (dat2 (F := Ideal) V c).flushed 6 t = ((cfg2.win 6).blk t).view.read (Elt Ideal) (Ylin V c) := by
  have hN : t.val < 20 := lt_of_lt_of_eq t.isLt (show cfg2.N = 20 from N_2)
  obtain ⟨-, -, -, -, -, -, -, -, -, -, -, -, e0, e1, -⟩ := idx_facts t
  show (cfg2.win 6).cut (grid2.coords t) ((dat2 (F := Ideal) V c).after 6 t) = _
  rw [after2_6]
  unfold out2_6
  rw [View.canon_unit_zero hz]
  simp only [View.ld_unit_zero (S := S5000x128) hz, View.ld_unit_zero (S := S5000x1) hz, View.ld_unit_zero (S := S128x128) hz,
    View.ld_unit_zero (S := S1x128) hz]
  show (k2_pay1 (F := Ideal) (iblk2 V c 0 t) (iblk2 V c 1 t) (iblk2 V c 2 t) (iblk2 V c 3 t) (iblk2 V c 5 t) (iblk2 V c 4 t) : Vec Ideal S5000x128 .f32)
    = fun y : S5000x128.Idx => Ylin V c (((cfg2.win 6).blk t).view.emb y)
  rw [blk3_eq V c t, blk4_eq V c t, blk5_eq V c t]
  funext y
  obtain ⟨p, j, rfl⟩ : ∃ (p : Fin 5000) (j : Fin 128), y = ix2 p j := ⟨y 0, y 1, eq_ix2 y⟩
  have he : ((cfg2.win 6).blk t).view.emb (ix2 p j) = (ix2 (tileRow ⟨t.val, hN⟩ p) j : SX.Idx) := by
    funext a; apply Fin.ext
    match a with
    | ⟨0, _⟩ => show win2_6.index t (0 : Fin 2) * 5000 + 1 * p.val = 5000 * t.val + p.val; rw [e0]; omega
    | ⟨1, _⟩ => show win2_6.index t (1 : Fin 2) * 128 + 1 * j.val = j.val; rw [e1]; omega
  show _ = Ylin V c (((cfg2.win 6).blk t).view.emb (ix2 p j))
  rw [he]
  exact tile_pay1 (V c main_v69) (V c main_v59) (V c main_v12) (V c main_v71) (V c main_v75) (V c main_v76)
    (iblk2 V c 0 t) (iblk2 V c 2 t) (iblk2 V c 1 t) ⟨t.val, hN⟩
    (blk0_at V c t ⟨t.val, hN⟩ rfl) (blk1_at V c t ⟨t.val, hN⟩ rfl) (blk2_at V c t ⟨t.val, hN⟩ rfl) p j

omit V in
/-- An index of the first output lies in point t's block exactly when, on each axis, its coordinate is inside the block's range. -/
theorem mem_blk6 (t : Fin cfg2.N) (i : SX.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v77_0).slice (win2_6.rect t)).set ↔ _
  rw [View.set_slice_whole, Rect.mem_set_unit]
  exact Iff.rfl

omit V in
/-- Row r of the first output is written by point r / 5000. -/
theorem cover6 (i : SX.Idx) : ∃ t : Fin cfg2.N, (cfg2.win 6).flush t = true ∧ i ∈ ((cfg2.win 6).blk t).view.set := by
  have hi0 : (i 0).val < 100000 := idx2_lt0 i
  have hi1 : (i 1).val < 128 := idx2_lt1 i
  have hlt : (i 0).val / 5000 < cfg2.N := by rw [show cfg2.N = 20 from N_2]; omega
  obtain ⟨-, -, -, -, -, -, -, -, -, -, -, -, e0, e1, -⟩ := idx_facts ⟨(i 0).val / 5000, hlt⟩
  refine ⟨⟨(i 0).val / 5000, hlt⟩, flush2_6 _, ?_⟩
  rw [mem_blk6]
  intro a
  match a with
  | ⟨0, _⟩ =>
    show win2_6.index ⟨(i 0).val / 5000, hlt⟩ (0 : Fin 2) * 5000 ≤ (i 0).val
      ∧ (i 0).val < win2_6.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win2_6.index ⟨(i 0).val / 5000, hlt⟩ (1 : Fin 2) * 128 ≤ (i 1).val
      ∧ (i 1).val < win2_6.index ⟨(i 0).val / 5000, hlt⟩ (1 : Fin 2) * 128 + 128
    rw [e1]
    omega

/-- THE FIRST OUTPUT after the region: the linear stage of the arrays the region found. -/
theorem out_Y (c : Dev nD) :
    (Gen.dat2 (F := Ideal) V c).arrAt 6 cfg2.N
      = Sage.linK (V c main_v69) (V c main_v12) (V c main_v59) (fun k j => V c main_v71 (ix2 k j))
        (fun k j => V c main_v75 (ix2 k j)) (fun j => V c main_v76 (ix2 (0 : Fin 1) j)) :=
  (dat2 (F := Ideal) V c).arrAt_eq_of_cover 6 (Ylin V c) (fun t _ => flushed6_eq V c t) cover6

/-! ## Output 7: the tiles' column sums -/

/-- Row q of the second output holds, at column j, the column sum of the linear stage over tile q / 8. -/
abbrev S1 (c : Dev nD) : S160x128.Idx → EReal :=
  fun i => tileSum (Ylin V c) ⟨(i 0).val / 8, by have := idx2_lt0 i; omega⟩ ⟨(i 1).val, idx2_lt1 i⟩

/-- What point t writes back to the second output is block t of that array: eight copies of tile t's column sums. -/
theorem flushed7_eq (c : Dev nD) (t : Fin cfg2.N) :
    (dat2 (F := Ideal) V c).flushed 7 t = ((cfg2.win 7).blk t).view.read (Elt Ideal) (S1 V c) := by
  have hN : t.val < 20 := lt_of_lt_of_eq t.isLt (show cfg2.N = 20 from N_2)
  obtain ⟨-, -, -, -, -, -, -, -, -, -, -, -, -, -, e0, e1, -⟩ := idx_facts t
  show (cfg2.win 7).cut (grid2.coords t) ((dat2 (F := Ideal) V c).after 7 t) = _
  rw [after2_7]
  unfold out2_7
  rw [View.canon_unit_zero hz]
  simp only [View.ld_unit_zero (S := S5000x128) hz, View.ld_unit_zero (S := S5000x1) hz, View.ld_unit_zero (S := S128x128) hz,
    View.ld_unit_zero (S := S1x128) hz]
  show (k2_pay2 (F := Ideal) (iblk2 V c 0 t) (iblk2 V c 1 t) (iblk2 V c 2 t) (iblk2 V c 3 t) (iblk2 V c 5 t) (iblk2 V c 4 t) : Vec Ideal S8x128 .f32)
    = fun y : S8x128.Idx => S1 V c (((cfg2.win 7).blk t).view.emb y)
  rw [blk3_eq V c t, blk4_eq V c t, blk5_eq V c t]
  funext y
  obtain ⟨q, j, rfl⟩ : ∃ (q : Fin 8) (j : Fin 128), y = ix2 q j := ⟨y 0, y 1, eq_ix2 y⟩
  have hq : 8 * t.val + q.val < 160 := by have := q.isLt; omega
  have hn : (8 * t.val + q.val) / 8 < 20 := by omega
  have he : ((cfg2.win 7).blk t).view.emb (ix2 q j) = (ix2 (⟨8 * t.val + q.val, hq⟩ : Fin 160) j : S160x128.Idx) := by
    funext a; apply Fin.ext
    match a with
    | ⟨0, _⟩ => show win2_7.index t (0 : Fin 2) * 8 + 1 * q.val = 8 * t.val + q.val; rw [e0]; omega
    | ⟨1, _⟩ => show win2_7.index t (1 : Fin 2) * 128 + 1 * j.val = j.val; rw [e1]; omega
  have hnt : (⟨(8 * t.val + q.val) / 8, hn⟩ : Fin 20).val = t.val := by
    show (8 * t.val + q.val) / 8 = t.val
    have := q.isLt; omega
  show _ = S1 V c (((cfg2.win 7).blk t).view.emb (ix2 q j))
  rw [he]
  exact tile_pay2 (V c main_v69) (V c main_v59) (V c main_v12) (V c main_v71) (V c main_v75) (V c main_v76)
    (iblk2 V c 0 t) (iblk2 V c 2 t) (iblk2 V c 1 t) ⟨(8 * t.val + q.val) / 8, hn⟩
    (blk0_at V c t _ hnt) (blk1_at V c t _ hnt) (blk2_at V c t _ hnt) q j

omit V in
/-- An index of this output lies in point t's block exactly when, on each axis, its coordinate is inside the block's range. -/
theorem mem_blk7 (t : Fin cfg2.N) (i : S160x128.Idx) :
    i ∈ ((cfg2.win 7).blk t).view.set ↔ ∀ a : Fin 2, win2_7.index t a * S8x128.size a ≤ (i a).val
      ∧ (i a).val < win2_7.index t a * S8x128.size a + S8x128.size a := by
  show i ∈ ((View.whole main_v77_1).slice (win2_7.rect t)).set ↔ _
  rw [View.set_slice_whole, Rect.mem_set_unit]
  exact Iff.rfl

omit V in
/-- Row q of this output is written by point q / 8. -/
theorem cover7 (i : S160x128.Idx) : ∃ t : Fin cfg2.N, (cfg2.win 7).flush t = true ∧ i ∈ ((cfg2.win 7).blk t).view.set := by
  have hi0 : (i 0).val < 160 := idx2_lt0 i
  have hi1 : (i 1).val < 128 := idx2_lt1 i
  have hlt : (i 0).val / 8 < cfg2.N := by rw [show cfg2.N = 20 from N_2]; omega
  obtain ⟨-, -, -, -, -, -, -, -, -, -, -, -, -, -, e0, e1, -⟩ := idx_facts ⟨(i 0).val / 8, hlt⟩
  refine ⟨⟨(i 0).val / 8, hlt⟩, flush2_7 _, ?_⟩
  rw [mem_blk7]
  intro a
  match a with
  | ⟨0, _⟩ =>
    show win2_7.index ⟨(i 0).val / 8, hlt⟩ (0 : Fin 2) * 8 ≤ (i 0).val
      ∧ (i 0).val < win2_7.index ⟨(i 0).val / 8, hlt⟩ (0 : Fin 2) * 8 + 8
    rw [e0]
    show (i 0).val / 8 * 8 ≤ (i 0).val ∧ (i 0).val < (i 0).val / 8 * 8 + 8
    omega
  | ⟨1, _⟩ =>
    show win2_7.index ⟨(i 0).val / 8, hlt⟩ (1 : Fin 2) * 128 ≤ (i 1).val
      ∧ (i 1).val < win2_7.index ⟨(i 0).val / 8, hlt⟩ (1 : Fin 2) * 128 + 128
    rw [e1]
    omega

/-- THE SECOND OUTPUT after the region: row q holds the column sums of the linear stage over the 5000 rows of tile q / 8. -/
theorem out_S1 (c : Dev nD) (q : Fin 160) (j : Fin 128) :
    (Gen.dat2 (F := Ideal) V c).arrAt 7 cfg2.N (ix2 q j)
      = Sage.tileSum (Sage.linK (V c main_v69) (V c main_v12) (V c main_v59) (fun k j => V c main_v71 (ix2 k j))
        (fun k j => V c main_v75 (ix2 k j)) (fun j => V c main_v76 (ix2 (0 : Fin 1) j))) ⟨q.val / 8, by omega⟩ j :=
  congrFun ((dat2 (F := Ideal) V c).arrAt_eq_of_cover 7 (S1 V c) (fun t _ => flushed7_eq V c t) cover7) (ix2 q j)

/-! ## Output 8: the tiles' column sums of squares -/

/-- Row q of the third output holds, at column j, the column sum of squares of the linear stage over tile q / 8. -/
abbrev S2 (c : Dev nD) : S160x128.Idx → EReal :=
  fun i => tileSq (Ylin V c) ⟨(i 0).val / 8, by have := idx2_lt0 i; omega⟩ ⟨(i 1).val, idx2_lt1 i⟩

/-- What point t writes back to the third output is block t of that array: eight copies of tile t's column sums of squares. -/
theorem flushed8_eq (c : Dev nD) (t : Fin cfg2.N) :
    (dat2 (F := Ideal) V c).flushed 8 t = ((cfg2.win 8).blk t).view.read (Elt Ideal) (S2 V c) := by
  have hN : t.val < 20 := lt_of_lt_of_eq t.isLt (show cfg2.N = 20 from N_2)
  obtain ⟨-, -, -, -, -, -, -, -, -, -, -, -, -, -, -, -, e0, e1⟩ := idx_facts t
  show (cfg2.win 8).cut (grid2.coords t) ((dat2 (F := Ideal) V c).after 8 t) = _
  rw [after2_8]
  unfold out2_8
  rw [View.canon_unit_zero hz]
  simp only [View.ld_unit_zero (S := S5000x128) hz, View.ld_unit_zero (S := S5000x1) hz, View.ld_unit_zero (S := S128x128) hz,
    View.ld_unit_zero (S := S1x128) hz]
  show (k2_pay3 (F := Ideal) (iblk2 V c 0 t) (iblk2 V c 1 t) (iblk2 V c 2 t) (iblk2 V c 3 t) (iblk2 V c 5 t) (iblk2 V c 4 t) : Vec Ideal S8x128 .f32)
    = fun y : S8x128.Idx => S2 V c (((cfg2.win 8).blk t).view.emb y)
  rw [blk3_eq V c t, blk4_eq V c t, blk5_eq V c t]
  funext y
  obtain ⟨q, j, rfl⟩ : ∃ (q : Fin 8) (j : Fin 128), y = ix2 q j := ⟨y 0, y 1, eq_ix2 y⟩
  have hq : 8 * t.val + q.val < 160 := by have := q.isLt; omega
  have hn : (8 * t.val + q.val) / 8 < 20 := by omega
  have he : ((cfg2.win 8).blk t).view.emb (ix2 q j) = (ix2 (⟨8 * t.val + q.val, hq⟩ : Fin 160) j : S160x128.Idx) := by
    funext a; apply Fin.ext
    match a with
    | ⟨0, _⟩ => show win2_8.index t (0 : Fin 2) * 8 + 1 * q.val = 8 * t.val + q.val; rw [e0]; omega
    | ⟨1, _⟩ => show win2_8.index t (1 : Fin 2) * 128 + 1 * j.val = j.val; rw [e1]; omega
  have hnt : (⟨(8 * t.val + q.val) / 8, hn⟩ : Fin 20).val = t.val := by
    show (8 * t.val + q.val) / 8 = t.val
    have := q.isLt; omega
  show _ = S2 V c (((cfg2.win 8).blk t).view.emb (ix2 q j))
  rw [he]
  exact tile_pay3 (V c main_v69) (V c main_v59) (V c main_v12) (V c main_v71) (V c main_v75) (V c main_v76)
    (iblk2 V c 0 t) (iblk2 V c 2 t) (iblk2 V c 1 t) ⟨(8 * t.val + q.val) / 8, hn⟩
    (blk0_at V c t _ hnt) (blk1_at V c t _ hnt) (blk2_at V c t _ hnt) q j

omit V in
/-- An index of this output lies in point t's block exactly when, on each axis, its coordinate is inside the block's range. -/
theorem mem_blk8 (t : Fin cfg2.N) (i : S160x128.Idx) :
    i ∈ ((cfg2.win 8).blk t).view.set ↔ ∀ a : Fin 2, win2_8.index t a * S8x128.size a ≤ (i a).val
      ∧ (i a).val < win2_8.index t a * S8x128.size a + S8x128.size a := by
  show i ∈ ((View.whole main_v77_2).slice (win2_8.rect t)).set ↔ _
  rw [View.set_slice_whole, Rect.mem_set_unit]
  exact Iff.rfl

omit V in
/-- Row q of this output is written by point q / 8. -/
theorem cover8 (i : S160x128.Idx) : ∃ t : Fin cfg2.N, (cfg2.win 8).flush t = true ∧ i ∈ ((cfg2.win 8).blk t).view.set := by
  have hi0 : (i 0).val < 160 := idx2_lt0 i
  have hi1 : (i 1).val < 128 := idx2_lt1 i
  have hlt : (i 0).val / 8 < cfg2.N := by rw [show cfg2.N = 20 from N_2]; omega
  obtain ⟨-, -, -, -, -, -, -, -, -, -, -, -, -, -, -, -, e0, e1⟩ := idx_facts ⟨(i 0).val / 8, hlt⟩
  refine ⟨⟨(i 0).val / 8, hlt⟩, flush2_8 _, ?_⟩
  rw [mem_blk8]
  intro a
  match a with
  | ⟨0, _⟩ =>
    show win2_8.index ⟨(i 0).val / 8, hlt⟩ (0 : Fin 2) * 8 ≤ (i 0).val
      ∧ (i 0).val < win2_8.index ⟨(i 0).val / 8, hlt⟩ (0 : Fin 2) * 8 + 8
    rw [e0]
    show (i 0).val / 8 * 8 ≤ (i 0).val ∧ (i 0).val < (i 0).val / 8 * 8 + 8
    omega
  | ⟨1, _⟩ =>
    show win2_8.index ⟨(i 0).val / 8, hlt⟩ (1 : Fin 2) * 128 ≤ (i 1).val
      ∧ (i 1).val < win2_8.index ⟨(i 0).val / 8, hlt⟩ (1 : Fin 2) * 128 + 128
    rw [e1]
    omega

/-- THE THIRD OUTPUT after the region: row q holds the column sums of squares of the linear stage over the 5000 rows of tile q / 8. -/
theorem out_S2 (c : Dev nD) (q : Fin 160) (j : Fin 128) :
    (Gen.dat2 (F := Ideal) V c).arrAt 8 cfg2.N (ix2 q j)
      = Sage.tileSq (Sage.linK (V c main_v69) (V c main_v12) (V c main_v59) (fun k j => V c main_v71 (ix2 k j))
        (fun k j => V c main_v75 (ix2 k j)) (fun j => V c main_v76 (ix2 (0 : Fin 1) j))) ⟨q.val / 8, by omega⟩ j :=
  congrFun ((dat2 (F := Ideal) V c).arrAt_eq_of_cover 8 (S2 V c) (fun t _ => flushed8_eq V c t) cover8) (ix2 q j)

end Cert.KernelIdeal.SageRegion2

end
-- ==== Proof.SageRegion4.lean ====
/-
  The value of the third linear stage of the network, read off the kernel's run block by block.

  The stage computes, for 100000 nodes in 20 tiles of 5000 rows,  y = (A · d) Wl + x Wr + b  with the bias added last:
  at row p of a tile and column j,  (Σₖ (A(p,k) · d(p)) · Wl(k,j) + Σₖ x(p,k) · Wr(k,j)) + b(j).  A change of float format is
  the identity on extended reals, a product accumulated into zero is the plain sum over the contracted coordinate, a column
  [5000,1] broadcast along the row reads the row's one entry, a row [1,128] broadcast down the rows reads the column's entry.

  From blocks to arrays: the row-blocked operands' block at grid point t is rows 5000·t … 5000·t + 4999 of their arrays, the
  weights and the bias are staged whole, so what point t writes back is block t of ONE whole-array function of the arrays the
  stage starts from; row r of the result is written by point r / 5000; the blocks
  cover the arrays, so the arrays end holding those functions.
-/
import proofs.«148930_j32976758899207_2_alg».proof.Proof.Gen.KernelIdeal.Frame
import proofs.«148930_j32976758899207_2_alg».proof.Proof.Spec
import Idealize.ShloMosaic.Lib.Pipeline.Value
import Idealize.ShloMosaic.Lib.ValueLayout
import Idealize.ShloMosaic.PureOps.Ideal.Laws

noncomputable section

namespace Cert.KernelIdeal.SageRegion4

open Cert.KernelIdeal Cert.KernelIdeal.Gen Cert.Sage Idealize.ShloMosaic Idealize.ShloMosaic.ValueIdx
open Idealize.ShloMosaic.TcCoe Idealize.SL.Sem
open Idealize.ShloMosaic.Pipeline (Dat)
open scoped BigOperators

/-- A column [a,1] broadcast over b columns reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The left operand's row coordinate in the product is the output's row. -/
theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted one. -/
theorem lhs_col (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contracted one. -/
theorem rhs_row (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a [5000,128] block with a [128,128] matrix, accumulated into zero, at row p and column j:
    the sum over the 128 contracted coordinates. -/
theorem matmul_at (l : FVec Ideal S5000x128 .bf16) (r : FVec Ideal S128x128 .bf16) (p : Fin 5000) (j : Fin 128) :
    matmul dot_S5000x128_S128x128_S5000x128_1_0_0_1_n_n none l r (constant (F := Ideal) S5000x128 .f32 0x00000000#32) (ix2 p j)
      = ∑ k : Fin 128, l (ix2 p k) * r (ix2 k j) := by
  show FloatOps.matmul dot_S5000x128_S128x128_S5000x128_1_0_0_1_n_n none l r (constant S5000x128 .f32 0x00000000#32) (ix2 p j) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs_row _ _).trans hk
    | ⟨1, _⟩ => exact rhs_col _ _)
  rw [el, er]

/-- The linear stage's block at row p and column j: with A the aggregated sums, d the reciprocal degrees, x the features,
    Wl, Wr the weights and b the bias (as one row),
    (Σₖ (A(p,k) · d(p)) · Wl(k,j) + Σₖ x(p,k) · Wr(k,j)) + b(j). -/
theorem pay1_at (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (p : Fin 5000) (j : Fin 128) :
    k4_pay1 (F := Ideal) x0 x1 x2 x3 x5 x4 (ix2 p j)
      = ((∑ k : Fin 128, (x0 (ix2 p k) * x1 (ix2 p (0 : Fin 1))) * x3 (ix2 k j)) + ∑ k : Fin 128, x2 (ix2 p k) * x5 (ix2 k j))
        + x4 (ix2 (0 : Fin 1) j) := by
  unfold k4_pay1
  simp only [shapeCast_self]
  refine (addf_apply _ _ _).trans ?_
  refine congrArg₂ (· + ·) ((addf_apply _ _ _).trans (congrArg₂ (· + ·) ?_ ?_)) ?_
  · refine (matmul_at _ _ p j).trans (Finset.sum_congr rfl fun k _ => ?_)
    refine congrArg₂ (· * ·) ?_ rfl
    show x0 (ix2 p k) * broadcastTo S5000x128 x1 _ (ix2 p k) = _
    rw [broadcastTo_a1_ab_apply]
  · exact matmul_at _ _ p j
  · exact broadcastTo_1b_ab_apply _ _ p j

/-! ## From the blocks to the arrays -/

variable (V : (c : Dev nD) → (b : Ref sig .tc) → Buf (Elt Ideal) ((c : Thread nD τ).loc b))

/-- The linear stage of the arrays as the region finds them. -/
abbrev Ylin (c : Dev nD) : SX.Idx → EReal :=
  Sage.linK (V c main_v116) (V c main_v12) (V c main_v106) (fun k j => V c main_v118 (ix2 k j))
    (fun k j => V c main_v122 (ix2 k j)) (fun j => V c main_v123 (ix2 (0 : Fin 1) j))

theorem hz : (![0, 0] : Fin 2 → Nat) = fun _ => 0 := funext fun a => by fin_cases a <;> rfl

/-- Where each window's block sits at grid point t: the row-blocked windows at block row t, the weights and the bias whole. -/
theorem idx_facts : ∀ t : Fin cfg4.N,
    win4_0.index t (0 : Fin 2) = t.val ∧ win4_0.index t (1 : Fin 2) = 0
  ∧ win4_1.index t (0 : Fin 2) = t.val ∧ win4_1.index t (1 : Fin 2) = 0
  ∧ win4_2.index t (0 : Fin 2) = t.val ∧ win4_2.index t (1 : Fin 2) = 0
  ∧ win4_3.index t (0 : Fin 2) = 0 ∧ win4_3.index t (1 : Fin 2) = 0
  ∧ win4_4.index t (0 : Fin 2) = 0 ∧ win4_4.index t (1 : Fin 2) = 0
  ∧ win4_5.index t (0 : Fin 2) = 0 ∧ win4_5.index t (1 : Fin 2) = 0
  ∧ win4_6.index t (0 : Fin 2) = t.val ∧ win4_6.index t (1 : Fin 2) = 0
  ∧ win4_7.index t (0 : Fin 2) = t.val ∧ win4_7.index t (1 : Fin 2) = 0
  ∧ win4_8.index t (0 : Fin 2) = t.val ∧ win4_8.index t (1 : Fin 2) = 0 :=
  (by decide +kernel : ∀ t : Fin grid4.N, _)

/-- The block of the aggregated sums at point t is rows 5000·t … 5000·t + 4999. -/
theorem blk0_at (c : Dev nD) (t : Fin cfg4.N) (n : Fin 20) (hn : n.val = t.val) (p : Fin 5000) (k : Fin 128) :
    (iblk4 V c 0 t : Vec Ideal S5000x128 .f32) (ix2 p k) = (V c main_v116 : SX.Idx → EReal) (ix2 (tileRow n p) k) := by
  obtain ⟨e0, e1, -⟩ := idx_facts t
  unfold iblk4
  rw [View.read_apply]
  show V c main_v116 _ = V c main_v116 _
  refine congrArg _ (funext fun a => Fin.ext ?_)
  match a with
  | ⟨0, _⟩ => show win4_0.index t (0 : Fin 2) * 5000 + 1 * p.val = 5000 * n.val + p.val; rw [e0, hn]; omega
  | ⟨1, _⟩ => show win4_0.index t (1 : Fin 2) * 128 + 1 * k.val = k.val; rw [e1]; omega

/-- The block of the reciprocal degrees at point t is the same rows of the one column. -/
theorem blk1_at (c : Dev nD) (t : Fin cfg4.N) (n : Fin 20) (hn : n.val = t.val) (p : Fin 5000) :
    (iblk4 V c 1 t : Vec Ideal S5000x1 .f32) (ix2 p (0 : Fin 1)) = (V c main_v12 : SC.Idx → EReal) (ix2 (tileRow n p) (0 : Fin 1)) := by
  obtain ⟨-, -, e0, e1, -⟩ := idx_facts t
  unfold iblk4
  rw [View.read_apply]
  show V c main_v12 _ = V c main_v12 _
  refine congrArg _ (funext fun a => Fin.ext ?_)
  match a with
  | ⟨0, _⟩ => show win4_1.index t (0 : Fin 2) * 5000 + 1 * p.val = 5000 * n.val + p.val; rw [e0, hn]; omega
  | ⟨1, _⟩ => show win4_1.index t (1 : Fin 2) * 1 + 1 * 0 = 0; rw [e1]

/-- The block of the node features at point t is the same rows. -/
theorem blk2_at (c : Dev nD) (t : Fin cfg4.N) (n : Fin 20) (hn : n.val = t.val) (p : Fin 5000) (k : Fin 128) :
    (iblk4 V c 2 t : Vec Ideal S5000x128 .f32) (ix2 p k) = (V c main_v106 : SX.Idx → EReal) (ix2 (tileRow n p) k) := by
  obtain ⟨-, -, -, -, e0, e1, -⟩ := idx_facts t
  unfold iblk4
  rw [View.read_apply]
  show V c main_v106 _ = V c main_v106 _
  refine congrArg _ (funext fun a => Fin.ext ?_)
  match a with
  | ⟨0, _⟩ => show win4_2.index t (0 : Fin 2) * 5000 + 1 * p.val = 5000 * n.val + p.val; rw [e0, hn]; omega
  | ⟨1, _⟩ => show win4_2.index t (1 : Fin 2) * 128 + 1 * k.val = k.val; rw [e1]; omega

/-- The first weight matrix is staged whole at every point. -/
theorem blk3_eq (c : Dev nD) (t : Fin cfg4.N) :
    (iblk4 V c 3 t : Vec Ideal S128x128 .f32) = (V c main_v118 : S128x128.Idx → EReal) := by
  obtain ⟨-, -, -, -, -, -, e0, e1, -⟩ := idx_facts t
  funext y
  unfold iblk4
  rw [View.read_apply]
  show V c main_v118 _ = V c main_v118 y
  refine congrArg _ (funext fun a => Fin.ext ?_)
  match a with
  | ⟨0, _⟩ => show win4_3.index t (0 : Fin 2) * 128 + 1 * (y 0).val = (y 0).val; rw [e0]; omega
  | ⟨1, _⟩ => show win4_3.index t (1 : Fin 2) * 128 + 1 * (y 1).val = (y 1).val; rw [e1]; omega

/-- The bias row is staged whole at every point. -/
theorem blk4_eq (c : Dev nD) (t : Fin cfg4.N) :
    (iblk4 V c 4 t : Vec Ideal S1x128 .f32) = (V c main_v123 : S1x128.Idx → EReal) := by
  obtain ⟨-, -, -, -, -, -, -, -, e0, e1, -⟩ := idx_facts t
  funext y
  unfold iblk4
  rw [View.read_apply]
  show V c main_v123 _ = V c main_v123 y
  refine congrArg _ (funext fun a => Fin.ext ?_)
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

/-- The second weight matrix is staged whole at every point. -/
theorem blk5_eq (c : Dev nD) (t : Fin cfg4.N) :
    (iblk4 V c 5 t : Vec Ideal S128x128 .f32) = (V c main_v122 : S128x128.Idx → EReal) := by
  obtain ⟨-, -, -, -, -, -, -, -, -, -, e0, e1, -⟩ := idx_facts t
  funext y
  unfold iblk4
  rw [View.read_apply]
  show V c main_v122 _ = V c main_v122 y
  refine congrArg _ (funext fun a => Fin.ext ?_)
  match a with
  | ⟨0, _⟩ => show win4_5.index t (0 : Fin 2) * 128 + 1 * (y 0).val = (y 0).val; rw [e0]; omega
  | ⟨1, _⟩ => show win4_5.index t (1 : Fin 2) * 128 + 1 * (y 1).val = (y 1).val; rw [e1]; omega

/-! ## One tile of the linear stage -/

omit V in
/-- When the three row-blocked operands are tile n of whole arrays A, d, x, the body's linear stage at row p of the block is the
    whole-array linear stage at row 5000·n + p. -/
theorem tile_pay1 (A x : SX.Idx → EReal) (dinv : SC.Idx → EReal) (Wl Wr : Vec Ideal S128x128 .f32) (b : Vec Ideal S1x128 .f32)
    (x0 x2 : Vec Ideal S5000x128 .f32) (x1 : Vec Ideal S5000x1 .f32) (n : Fin 20)
    (h0 : ∀ p k, x0 (ix2 p k) = A (ix2 (tileRow n p) k))
    (h1 : ∀ p, x1 (ix2 p (0 : Fin 1)) = dinv (ix2 (tileRow n p) (0 : Fin 1)))
    (h2 : ∀ p k, x2 (ix2 p k) = x (ix2 (tileRow n p) k))
    (p : Fin 5000) (j : Fin 128) :
    k4_pay1 (F := Ideal) x0 x1 x2 Wl Wr b (ix2 p j)
      = linK A dinv x (fun k j => Wl (ix2 k j)) (fun k j => Wr (ix2 k j)) (fun j => b (ix2 (0 : Fin 1) j)) (ix2 (tileRow n p) j) := by
  rw [pay1_at, linK_apply]
  simp only [h0, h1, h2]

/-! ## Output 6: the linear stage itself -/

/-- What point t writes back to the first output is block t of the whole-array linear stage. -/
theorem flushed6_eq (c : Dev nD) (t : Fin cfg4.N) :
    (dat4 (F := Ideal) V c).flushed 6 t = ((cfg4.win 6).blk t).view.read (Elt Ideal) (Ylin V c) := by
  have hN : t.val < 20 := lt_of_lt_of_eq t.isLt (show cfg4.N = 20 from N_4)
  obtain ⟨-, -, -, -, -, -, -, -, -, -, -, -, e0, e1, -⟩ := idx_facts t
  show (cfg4.win 6).cut (grid4.coords t) ((dat4 (F := Ideal) V c).after 6 t) = _
  rw [after4_6]
  unfold out4_6
  rw [View.canon_unit_zero hz]
  simp only [View.ld_unit_zero (S := S5000x128) hz, View.ld_unit_zero (S := S5000x1) hz, View.ld_unit_zero (S := S128x128) hz,
    View.ld_unit_zero (S := S1x128) hz]
  show (k4_pay1 (F := Ideal) (iblk4 V c 0 t) (iblk4 V c 1 t) (iblk4 V c 2 t) (iblk4 V c 3 t) (iblk4 V c 5 t) (iblk4 V c 4 t) : Vec Ideal S5000x128 .f32)
    = fun y : S5000x128.Idx => Ylin V c (((cfg4.win 6).blk t).view.emb y)
  rw [blk3_eq V c t, blk4_eq V c t, blk5_eq V c t]
  funext y
  obtain ⟨p, j, rfl⟩ : ∃ (p : Fin 5000) (j : Fin 128), y = ix2 p j := ⟨y 0, y 1, eq_ix2 y⟩
  have he : ((cfg4.win 6).blk t).view.emb (ix2 p j) = (ix2 (tileRow ⟨t.val, hN⟩ p) j : SX.Idx) := by
    funext a; apply Fin.ext
    match a with
    | ⟨0, _⟩ => show win4_6.index t (0 : Fin 2) * 5000 + 1 * p.val = 5000 * t.val + p.val; rw [e0]; omega
    | ⟨1, _⟩ => show win4_6.index t (1 : Fin 2) * 128 + 1 * j.val = j.val; rw [e1]; omega
  show _ = Ylin V c (((cfg4.win 6).blk t).view.emb (ix2 p j))
  rw [he]
  exact tile_pay1 (V c main_v116) (V c main_v106) (V c main_v12) (V c main_v118) (V c main_v122) (V c main_v123)
    (iblk4 V c 0 t) (iblk4 V c 2 t) (iblk4 V c 1 t) ⟨t.val, hN⟩
    (blk0_at V c t ⟨t.val, hN⟩ rfl) (blk1_at V c t ⟨t.val, hN⟩ rfl) (blk2_at V c t ⟨t.val, hN⟩ rfl) p j

omit V in
/-- An index of the first output lies in point t's block exactly when, on each axis, its coordinate is inside the block's range. -/
theorem mem_blk6 (t : Fin cfg4.N) (i : SX.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_v124_0).slice (win4_6.rect t)).set ↔ _
  rw [View.set_slice_whole, Rect.mem_set_unit]
  exact Iff.rfl

omit V in
/-- Row r of the first output is written by point r / 5000. -/
theorem cover6 (i : SX.Idx) : ∃ t : Fin cfg4.N, (cfg4.win 6).flush t = true ∧ i ∈ ((cfg4.win 6).blk t).view.set := by
  have hi0 : (i 0).val < 100000 := idx2_lt0 i
  have hi1 : (i 1).val < 128 := idx2_lt1 i
  have hlt : (i 0).val / 5000 < cfg4.N := by rw [show cfg4.N = 20 from N_4]; omega
  obtain ⟨-, -, -, -, -, -, -, -, -, -, -, -, e0, e1, -⟩ := idx_facts ⟨(i 0).val / 5000, hlt⟩
  refine ⟨⟨(i 0).val / 5000, hlt⟩, flush4_6 _, ?_⟩
  rw [mem_blk6]
  intro a
  match a with
  | ⟨0, _⟩ =>
    show win4_6.index ⟨(i 0).val / 5000, hlt⟩ (0 : Fin 2) * 5000 ≤ (i 0).val
      ∧ (i 0).val < win4_6.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win4_6.index ⟨(i 0).val / 5000, hlt⟩ (1 : Fin 2) * 128 ≤ (i 1).val
      ∧ (i 1).val < win4_6.index ⟨(i 0).val / 5000, hlt⟩ (1 : Fin 2) * 128 + 128
    rw [e1]
    omega

/-- THE FIRST OUTPUT after the region: the linear stage of the arrays the region found. -/
theorem out_Y (c : Dev nD) :
    (Gen.dat4 (F := Ideal) V c).arrAt 6 cfg4.N
      = Sage.linK (V c main_v116) (V c main_v12) (V c main_v106) (fun k j => V c main_v118 (ix2 k j))
        (fun k j => V c main_v122 (ix2 k j)) (fun j => V c main_v123 (ix2 (0 : Fin 1) j)) :=
  (dat4 (F := Ideal) V c).arrAt_eq_of_cover 6 (Ylin V c) (fun t _ => flushed6_eq V c t) cover6

end Cert.KernelIdeal.SageRegion4

end
-- ==== Proof.BnRegion1.lean ====
/-
  The value of the first normalisation region: max(y · scale + shift, 0), read off the generated frame at generic
  entry contents V.

  The region's grid has 10 points.  At point t the body loads rows 10000·t … 10000·t + 9999 of the array y (all 128
  channels) and the whole one-row arrays scale and shift, and stores, at row p and channel j of its block,
  max(y(10000·t + p, j) · scale(0, j) + shift(0, j), 0).  The block it writes back is rows 10000·t … 10000·t + 9999
  of the output array, so what point t writes is the restriction to those rows of ONE function of the whole arrays,
  Sage.affRelu.  Row r of the output lies in the block of point r / 10000, so the ten blocks cover the array and the
  array ends holding that function.
-/
import proofs.«148930_j32976758899207_2_alg».proof.Proof.Gen.KernelIdeal.Frame
import proofs.«148930_j32976758899207_2_alg».proof.Proof.Spec
import Idealize.ShloMosaic.Lib.Pipeline.Value
import Idealize.ShloMosaic.Lib.ValueLayout
import Idealize.ShloMosaic.Lib.ValueIdx

noncomputable section

namespace Cert.KernelIdeal.BnRegion1

open Cert.KernelIdeal Cert.KernelIdeal.Gen Cert.Sage Idealize.ShloMosaic Idealize.ShloMosaic.ValueIdx
open Idealize.ShloMosaic.TcCoe Idealize.SL.Sem
open Idealize.ShloMosaic.Pipeline (Dat)

/-! ## The body's arithmetic at one entry -/

/-- The stored value at row p and channel j of the block: the product of the block's entry with the scale's entry
    of channel j, plus the shift's entry of channel j, clamped below at 0.  (The casts between equal shapes are the
    identity; a one-row array broadcast over the rows reads its one row; a broadcast scalar reads itself.) -/
theorem pay_apply (x0 : Vec Ideal S10000x128 .f32) (x1 x2 : Vec Ideal S1x128 .f32) (p : Fin 10000) (j : Fin 128) :
    Gen.k1_pay1 x0 x1 x2 (ix2 p j)
      = max (x0 (ix2 p j) * x1 (ix2 (0 : Fin 1) j) + x2 (ix2 (0 : Fin 1) j)) (Ideal.ofBits .f32 0x00000000#32) := by
  unfold Gen.k1_pay1
  rw [shapeCast_self, shapeCast_self, shapeCast_self]
  show max (x0 (ix2 p j) * broadcastTo S10000x128 x1 broadcasts_S1x128_S10000x128 (ix2 p j)
      + broadcastTo S10000x128 x2 broadcasts_S1x128_S10000x128 (ix2 p j)) (Ideal.ofBits .f32 0x00000000#32) = _
  rw [broadcastTo_1b_ab_apply x1 _ p j, broadcastTo_1b_ab_apply x2 _ p j]

/-- The same when the three blocks are restrictions of whole arrays Y, sc, sh: if the block's entry (p, j) is Y's
    entry k, and k's channel is j, the stored value is affRelu of the whole arrays at k. -/
theorem pay_of_blocks (Y : SX.Idx → EReal) (sc sh : S1x128.Idx → EReal)
    (x0 : Vec Ideal S10000x128 .f32) (x1 x2 : Vec Ideal S1x128 .f32) (p : Fin 10000) (j : Fin 128) (k : SX.Idx)
    (hk1 : (k 1).val = j.val)
    (h0 : x0 (ix2 p j) = Y k) (h1 : x1 (ix2 (0 : Fin 1) j) = sc (ix2 (0 : Fin 1) j))
    (h2 : x2 (ix2 (0 : Fin 1) j) = sh (ix2 (0 : Fin 1) j)) :
    Gen.k1_pay1 x0 x1 x2 (ix2 p j)
      = affRelu Y (fun j => sc (ix2 (0 : Fin 1) j)) (fun j => sh (ix2 (0 : Fin 1) j)) k := by
  rw [pay_apply, h0, h1, h2]
  have hj : (⟨(k 1).val, idx2_lt1 k⟩ : Fin 128) = j := Fin.ext hk1
  show _ = max (Y k * sc (ix2 (0 : Fin 1) ⟨(k 1).val, idx2_lt1 k⟩) + sh (ix2 (0 : Fin 1) ⟨(k 1).val, idx2_lt1 k⟩)) c0
  rw [hj]

/-! ## The blocks at a point -/

/-- The zero offsets of a whole-block access, as a constant function. -/
theorem hz : (![0, 0] : Fin 2 → Nat) = fun _ => 0 := funext fun a => by fin_cases a <;> rfl

/-- The block indices at the 10 grid points: the windows of y and of the output are at block row t and block
    column 0; the windows of scale and shift stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The block of y at point t is rows 10000·t … 10000·t + 9999 of y: its entry x is y's entry k whenever k's row is
    10000·t plus x's row and the channels agree (a block's coordinate is its index times its size plus the
    coordinate inside the block). -/
theorem blockY_apply (c : Dev nD) (t : Fin cfg1.N) (x : S10000x128.Idx) (k : S100000x128.Idx)
    (hk0 : (k 0).val = 10000 * t.val + (x 0).val) (hk1 : (k 1).val = (x 1).val) :
    (Gen.iblk1 V c 0 t : Vec Ideal S10000x128 .f32) x = (V c main_v30_0 : S100000x128.Idx → EReal) k := by
  obtain ⟨e0, e1, -⟩ := idx_facts t
  unfold Gen.iblk1
  rw [View.read_apply]
  show V c main_v30_0 _ = V c main_v30_0 _
  congr 1
  funext a
  apply Fin.ext
  match a with
  | ⟨0, _⟩ => show win1_0.index t 0 * 10000 + 1 * (x 0).val = (k 0).val; rw [e0, hk0]; omega
  | ⟨1, _⟩ => show win1_0.index t 1 * 128 + 1 * (x 1).val = (k 1).val; rw [e1, hk1]; omega

/-- The block of scale at every point is the whole one-row array. -/
theorem blockScale_apply (c : Dev nD) (t : Fin cfg1.N) (x : S1x128.Idx) :
    (Gen.iblk1 V c 1 t : Vec Ideal S1x128 .f32) x = (V c main_v57 : S1x128.Idx → EReal) x := by
  obtain ⟨-, -, e0, e1, -⟩ := idx_facts t
  unfold Gen.iblk1
  rw [View.read_apply]
  show V c main_v57 _ = V c main_v57 _
  congr 1
  funext a
  apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

/-- The block of shift at every point is the whole one-row array. -/
theorem blockShift_apply (c : Dev nD) (t : Fin cfg1.N) (x : S1x128.Idx) :
    (Gen.iblk1 V c 2 t : Vec Ideal S1x128 .f32) x = (V c main_v58 : S1x128.Idx → EReal) x := by
  obtain ⟨-, -, -, -, e0, e1, -⟩ := idx_facts t
  unfold Gen.iblk1
  rw [View.read_apply]
  show V c main_v58 _ = V c main_v58 _
  congr 1
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

/-! ## What a point writes back, and the array after the run -/

/-- What point t writes back to the output array is rows 10000·t … 10000·t + 9999 of affRelu of the whole arrays:
    the body's one store leaves its payload; the payload's entry (p, j) reads y at row 10000·t + p and channel j,
    which is where the output block's entry (p, j) sits in the output array. -/
theorem flushed_eq (c : Dev nD) (t : Fin cfg1.N) :
    (Gen.dat1 (F := Ideal) V c).flushed 3 t = ((cfg1.win 3).blk t).view.read (Elt Ideal)
      (affRelu (V c main_v30_0) (fun j => V c main_v57 (ix2 (0 : Fin 1) j)) (fun j => V c main_v58 (ix2 (0 : Fin 1) j))) := by
  show (cfg1.win 3).cut (grid1.coords t) ((Gen.dat1 (F := Ideal) V c).after 3 t) = _
  rw [Gen.after1_3]
  unfold Gen.out1_3
  rw [View.canon_unit_zero hz]
  simp only [View.ld_unit_zero (S := S10000x128) hz, View.ld_unit_zero (S := S1x128) hz]
  funext y
  have hy0 : (y 0).val < 10000 := (y 0).isLt
  have hy1 : (y 1).val < 128 := (y 1).isLt
  obtain ⟨-, -, -, -, -, -, e0, e1⟩ := idx_facts t
  have hx : (win1 3).xinj (grid1.coords t) y = ix2 (⟨(y 0).val, hy0⟩ : Fin 10000) (⟨(y 1).val, hy1⟩ : Fin 128) :=
    funext fun a => match a with | ⟨0, _⟩ => rfl | ⟨1, _⟩ => rfl
  rw [View.read_apply]
  refine (congrArg (Gen.k1_pay1 (Gen.iblk1 V c 0 t) (Gen.iblk1 V c 1 t) (Gen.iblk1 V c 2 t)) hx).trans ?_
  refine pay_of_blocks (V c main_v30_0) (V c main_v57) (V c main_v58) (Gen.iblk1 V c 0 t) (Gen.iblk1 V c 1 t) (Gen.iblk1 V c 2 t)
    ⟨(y 0).val, hy0⟩ ⟨(y 1).val, hy1⟩ _ ?_ ?_ ?_ ?_
  · show win1_3.index t 1 * 128 + 1 * (y 1).val = (y 1).val
    rw [e1]; omega
  · refine blockY_apply V c t _ _ ?_ ?_
    · show win1_3.index t 0 * 10000 + 1 * (y 0).val = 10000 * t.val + (y 0).val
      rw [e0]; omega
    · show win1_3.index t 1 * 128 + 1 * (y 1).val = (y 1).val
      rw [e1]; omega
  · exact blockScale_apply V c t _
  · exact blockShift_apply V c t _

/-- An index of the output array is in point t's block iff each coordinate is in the block's range on its axis. -/
theorem mem_blk (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v59).slice (win1_3.rect t)).set ↔ _
  rw [View.set_slice_whole, Rect.mem_set_unit]
  exact Iff.rfl

/-- The ten blocks cover the output array: row r lies in the block of point r / 10000, and every block spans all
    128 channels. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨-, -, -, -, -, -, e0, e1⟩ := idx_facts t
  refine ⟨t, flush1_3 t, ?_⟩
  rw [mem_blk]
  intro a
  match a with
  | ⟨0, _⟩ =>
    show win1_3.index t 0 * 10000 ≤ (i 0).val ∧ (i 0).val < win1_3.index t 0 * 10000 + 10000
    rw [e0]; show (i 0).val / 10000 * 10000 ≤ (i 0).val ∧ (i 0).val < (i 0).val / 10000 * 10000 + 10000; omega
  | ⟨1, _⟩ =>
    show win1_3.index t 1 * 128 ≤ (i 1).val ∧ (i 1).val < win1_3.index t 1 * 128 + 128
    rw [e1]; omega

/-- THE OUTPUT ARRAY after the region: max(y · scale + shift, 0) of the arrays the region found, entry by entry,
    with the scale and the shift read from their one row. -/
theorem out_X (c : Dev nD) : (Gen.dat1 (F := Ideal) V c).arrAt 3 cfg1.N
    = Sage.affRelu (V c main_v30_0) (fun j => V c main_v57 (ix2 (0 : Fin 1) j)) (fun j => V c main_v58 (ix2 (0 : Fin 1) j)) :=
  (Gen.dat1 (F := Ideal) V c).arrAt_eq_of_cover 3 _ (fun t _ => flushed_eq V c t) cover

end Cert.KernelIdeal.BnRegion1

end
-- ==== Proof.BnRegion3.lean ====
/-
  The value of the second normalisation region: max(y · scale + shift, 0), read off the generated frame at generic
  entry contents V.

  The region's grid has 10 points.  At point t the body loads rows 10000·t … 10000·t + 9999 of the array y (all 128
  channels) and the whole one-row arrays scale and shift, and stores, at row p and channel j of its block,
  max(y(10000·t + p, j) · scale(0, j) + shift(0, j), 0).  The block it writes back is rows 10000·t … 10000·t + 9999
  of the output array, so what point t writes is the restriction to those rows of ONE function of the whole arrays,
  Sage.affRelu.  Row r of the output lies in the block of point r / 10000, so the ten blocks cover the array and the
  array ends holding that function.
-/
import proofs.«148930_j32976758899207_2_alg».proof.Proof.Gen.KernelIdeal.Frame
import proofs.«148930_j32976758899207_2_alg».proof.Proof.Spec
import Idealize.ShloMosaic.Lib.Pipeline.Value
import Idealize.ShloMosaic.Lib.ValueLayout
import Idealize.ShloMosaic.Lib.ValueIdx

noncomputable section

namespace Cert.KernelIdeal.BnRegion3

open Cert.KernelIdeal Cert.KernelIdeal.Gen Cert.Sage Idealize.ShloMosaic Idealize.ShloMosaic.ValueIdx
open Idealize.ShloMosaic.TcCoe Idealize.SL.Sem
open Idealize.ShloMosaic.Pipeline (Dat)

/-! ## The body's arithmetic at one entry -/

/-- The stored value at row p and channel j of the block: the product of the block's entry with the scale's entry
    of channel j, plus the shift's entry of channel j, clamped below at 0.  (The casts between equal shapes are the
    identity; a one-row array broadcast over the rows reads its one row; a broadcast scalar reads itself.) -/
theorem pay_apply (x0 : Vec Ideal S10000x128 .f32) (x1 x2 : Vec Ideal S1x128 .f32) (p : Fin 10000) (j : Fin 128) :
    Gen.k3_pay1 x0 x1 x2 (ix2 p j)
      = max (x0 (ix2 p j) * x1 (ix2 (0 : Fin 1) j) + x2 (ix2 (0 : Fin 1) j)) (Ideal.ofBits .f32 0x00000000#32) := by
  unfold Gen.k3_pay1
  rw [shapeCast_self, shapeCast_self, shapeCast_self]
  show max (x0 (ix2 p j) * broadcastTo S10000x128 x1 broadcasts_S1x128_S10000x128 (ix2 p j)
      + broadcastTo S10000x128 x2 broadcasts_S1x128_S10000x128 (ix2 p j)) (Ideal.ofBits .f32 0x00000000#32) = _
  rw [broadcastTo_1b_ab_apply x1 _ p j, broadcastTo_1b_ab_apply x2 _ p j]

/-- The same when the three blocks are restrictions of whole arrays Y, sc, sh: if the block's entry (p, j) is Y's
    entry k, and k's channel is j, the stored value is affRelu of the whole arrays at k. -/
theorem pay_of_blocks (Y : SX.Idx → EReal) (sc sh : S1x128.Idx → EReal)
    (x0 : Vec Ideal S10000x128 .f32) (x1 x2 : Vec Ideal S1x128 .f32) (p : Fin 10000) (j : Fin 128) (k : SX.Idx)
    (hk1 : (k 1).val = j.val)
    (h0 : x0 (ix2 p j) = Y k) (h1 : x1 (ix2 (0 : Fin 1) j) = sc (ix2 (0 : Fin 1) j))
    (h2 : x2 (ix2 (0 : Fin 1) j) = sh (ix2 (0 : Fin 1) j)) :
    Gen.k3_pay1 x0 x1 x2 (ix2 p j)
      = affRelu Y (fun j => sc (ix2 (0 : Fin 1) j)) (fun j => sh (ix2 (0 : Fin 1) j)) k := by
  rw [pay_apply, h0, h1, h2]
  have hj : (⟨(k 1).val, idx2_lt1 k⟩ : Fin 128) = j := Fin.ext hk1
  show _ = max (Y k * sc (ix2 (0 : Fin 1) ⟨(k 1).val, idx2_lt1 k⟩) + sh (ix2 (0 : Fin 1) ⟨(k 1).val, idx2_lt1 k⟩)) c0
  rw [hj]

/-! ## The blocks at a point -/

/-- The zero offsets of a whole-block access, as a constant function. -/
theorem hz : (![0, 0] : Fin 2 → Nat) = fun _ => 0 := funext fun a => by fin_cases a <;> rfl

/-- The block indices at the 10 grid points: the windows of y and of the output are at block row t and block
    column 0; the windows of scale and shift stay at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The block of y at point t is rows 10000·t … 10000·t + 9999 of y: its entry x is y's entry k whenever k's row is
    10000·t plus x's row and the channels agree (a block's coordinate is its index times its size plus the
    coordinate inside the block). -/
theorem blockY_apply (c : Dev nD) (t : Fin cfg3.N) (x : S10000x128.Idx) (k : S100000x128.Idx)
    (hk0 : (k 0).val = 10000 * t.val + (x 0).val) (hk1 : (k 1).val = (x 1).val) :
    (Gen.iblk3 V c 0 t : Vec Ideal S10000x128 .f32) x = (V c main_v77_0 : S100000x128.Idx → EReal) k := by
  obtain ⟨e0, e1, -⟩ := idx_facts t
  unfold Gen.iblk3
  rw [View.read_apply]
  show V c main_v77_0 _ = V c main_v77_0 _
  congr 1
  funext a
  apply Fin.ext
  match a with
  | ⟨0, _⟩ => show win3_0.index t 0 * 10000 + 1 * (x 0).val = (k 0).val; rw [e0, hk0]; omega
  | ⟨1, _⟩ => show win3_0.index t 1 * 128 + 1 * (x 1).val = (k 1).val; rw [e1, hk1]; omega

/-- The block of scale at every point is the whole one-row array. -/
theorem blockScale_apply (c : Dev nD) (t : Fin cfg3.N) (x : S1x128.Idx) :
    (Gen.iblk3 V c 1 t : Vec Ideal S1x128 .f32) x = (V c main_v104 : S1x128.Idx → EReal) x := by
  obtain ⟨-, -, e0, e1, -⟩ := idx_facts t
  unfold Gen.iblk3
  rw [View.read_apply]
  show V c main_v104 _ = V c main_v104 _
  congr 1
  funext a
  apply Fin.ext
  match a with
  | ⟨0, _⟩ => show win3_1.index t 0 * 1 + 1 * (x 0).val = (x 0).val; rw [e0]; omega
  | ⟨1, _⟩ => show win3_1.index t 1 * 128 + 1 * (x 1).val = (x 1).val; rw [e1]; omega

/-- The block of shift at every point is the whole one-row array. -/
theorem blockShift_apply (c : Dev nD) (t : Fin cfg3.N) (x : S1x128.Idx) :
    (Gen.iblk3 V c 2 t : Vec Ideal S1x128 .f32) x = (V c main_v105 : S1x128.Idx → EReal) x := by
  obtain ⟨-, -, -, -, e0, e1, -⟩ := idx_facts t
  unfold Gen.iblk3
  rw [View.read_apply]
  show V c main_v105 _ = V c main_v105 _
  congr 1
  funext a
  apply Fin.ext
  match a with
  | ⟨0, _⟩ => show win3_2.index t 0 * 1 + 1 * (x 0).val = (x 0).val; rw [e0]; omega
  | ⟨1, _⟩ => show win3_2.index t 1 * 128 + 1 * (x 1).val = (x 1).val; rw [e1]; omega

/-! ## What a point writes back, and the array after the run -/

/-- What point t writes back to the output array is rows 10000·t … 10000·t + 9999 of affRelu of the whole arrays:
    the body's one store leaves its payload; the payload's entry (p, j) reads y at row 10000·t + p and channel j,
    which is where the output block's entry (p, j) sits in the output array. -/
theorem flushed_eq (c : Dev nD) (t : Fin cfg3.N) :
    (Gen.dat3 (F := Ideal) V c).flushed 3 t = ((cfg3.win 3).blk t).view.read (Elt Ideal)
      (affRelu (V c main_v77_0) (fun j => V c main_v104 (ix2 (0 : Fin 1) j)) (fun j => V c main_v105 (ix2 (0 : Fin 1) j))) := by
  show (cfg3.win 3).cut (grid3.coords t) ((Gen.dat3 (F := Ideal) V c).after 3 t) = _
  rw [Gen.after3_3]
  unfold Gen.out3_3
  rw [View.canon_unit_zero hz]
  simp only [View.ld_unit_zero (S := S10000x128) hz, View.ld_unit_zero (S := S1x128) hz]
  funext y
  have hy0 : (y 0).val < 10000 := (y 0).isLt
  have hy1 : (y 1).val < 128 := (y 1).isLt
  obtain ⟨-, -, -, -, -, -, e0, e1⟩ := idx_facts t
  have hx : (win3 3).xinj (grid3.coords t) y = ix2 (⟨(y 0).val, hy0⟩ : Fin 10000) (⟨(y 1).val, hy1⟩ : Fin 128) :=
    funext fun a => match a with | ⟨0, _⟩ => rfl | ⟨1, _⟩ => rfl
  rw [View.read_apply]
  refine (congrArg (Gen.k3_pay1 (Gen.iblk3 V c 0 t) (Gen.iblk3 V c 1 t) (Gen.iblk3 V c 2 t)) hx).trans ?_
  refine pay_of_blocks (V c main_v77_0) (V c main_v104) (V c main_v105) (Gen.iblk3 V c 0 t) (Gen.iblk3 V c 1 t) (Gen.iblk3 V c 2 t)
    ⟨(y 0).val, hy0⟩ ⟨(y 1).val, hy1⟩ _ ?_ ?_ ?_ ?_
  · show win3_3.index t 1 * 128 + 1 * (y 1).val = (y 1).val
    rw [e1]; omega
  · refine blockY_apply V c t _ _ ?_ ?_
    · show win3_3.index t 0 * 10000 + 1 * (y 0).val = 10000 * t.val + (y 0).val
      rw [e0]; omega
    · show win3_3.index t 1 * 128 + 1 * (y 1).val = (y 1).val
      rw [e1]; omega
  · exact blockScale_apply V c t _
  · exact blockShift_apply V c t _

/-- An index of the output array is in point t's block iff each coordinate is in the block's range on its axis. -/
theorem mem_blk (t : Fin cfg3.N) (i : S100000x128.Idx) :
    i ∈ ((cfg3.win 3).blk t).view.set ↔ ∀ a : Fin 2, win3_3.index t a * S10000x128.size a ≤ (i a).val
      ∧ (i a).val < win3_3.index t a * S10000x128.size a + S10000x128.size a := by
  show i ∈ ((View.whole main_v106).slice (win3_3.rect t)).set ↔ _
  rw [View.set_slice_whole, Rect.mem_set_unit]
  exact Iff.rfl

/-- The ten blocks cover the output array: row r lies in the block of point r / 10000, and every block spans all
    128 channels. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 10 := N_3
  let t : Fin cfg3.N := ⟨(i 0).val / 10000, by rw [hN]; omega⟩
  obtain ⟨-, -, -, -, -, -, e0, e1⟩ := idx_facts t
  refine ⟨t, flush3_3 t, ?_⟩
  rw [mem_blk]
  intro a
  match a with
  | ⟨0, _⟩ =>
    show win3_3.index t 0 * 10000 ≤ (i 0).val ∧ (i 0).val < win3_3.index t 0 * 10000 + 10000
    rw [e0]; show (i 0).val / 10000 * 10000 ≤ (i 0).val ∧ (i 0).val < (i 0).val / 10000 * 10000 + 10000; omega
  | ⟨1, _⟩ =>
    show win3_3.index t 1 * 128 ≤ (i 1).val ∧ (i 1).val < win3_3.index t 1 * 128 + 128
    rw [e1]; omega

/-- THE OUTPUT ARRAY after the region: max(y · scale + shift, 0) of the arrays the region found, entry by entry,
    with the scale and the shift read from their one row. -/
theorem out_X (c : Dev nD) : (Gen.dat3 (F := Ideal) V c).arrAt 3 cfg3.N
    = Sage.affRelu (V c main_v77_0) (fun j => V c main_v104 (ix2 (0 : Fin 1) j)) (fun j => V c main_v105 (ix2 (0 : Fin 1) j)) :=
  (Gen.dat3 (F := Ideal) V c).arrAt_eq_of_cover 3 _ (fun t _ => flushed_eq V c t) cover

end Cert.KernelIdeal.BnRegion3

end
-- ==== Proof.KernelValue.lean ====
/-
  The value of the first program's result: the three-layer network in the affine spelling.

  The program alternates stretches of host operations and pallas regions. Reading it from the launch to the return:
  the first stretch computes, from the edge list, the aggregated neighbour sums A(x) of the input features and the
  reciprocal degrees d, and slices the layer's weights; region 0 writes the linear stage y₁ and, per tile of 5000 rows,
  the column sums of y₁ and y₁²; the next stretch turns these into a scale and a shift per channel; region 1 applies
  max(y₁ · scale + shift, 0). The same twice more, the last layer without normalisation. Each step below reads one
  region or stretch from what the previous step established; the buffers that live across steps (the arguments, the
  edge rows, d) are read back to their first values.
-/
import proofs.«148930_j32976758899207_2_alg».proof.Proof.Gen.KernelIdeal.Frame
import proofs.«148930_j32976758899207_2_alg».proof.Proof.Spec
import proofs.«148930_j32976758899207_2_alg».proof.Proof.KWalkAll
import proofs.«148930_j32976758899207_2_alg».proof.Proof.KHostDefs
import proofs.«148930_j32976758899207_2_alg».proof.Proof.KStretch0
import proofs.«148930_j32976758899207_2_alg».proof.Proof.KStretch1
import proofs.«148930_j32976758899207_2_alg».proof.Proof.KStretch2
import proofs.«148930_j32976758899207_2_alg».proof.Proof.KStretch3
import proofs.«148930_j32976758899207_2_alg».proof.Proof.KStretch4
import proofs.«148930_j32976758899207_2_alg».proof.Proof.SageRegion0
import proofs.«148930_j32976758899207_2_alg».proof.Proof.SageRegion2
import proofs.«148930_j32976758899207_2_alg».proof.Proof.SageRegion4
import proofs.«148930_j32976758899207_2_alg».proof.Proof.BnRegion1
import proofs.«148930_j32976758899207_2_alg».proof.Proof.BnRegion3
import Idealize.ShloMosaic.PureOps.Ideal

set_option maxRecDepth 16384

noncomputable section

namespace Cert.KernelIdeal.KernelValue

open Cert.KernelIdeal Cert.KernelIdeal.Gen Cert.KernelIdeal.HostVal Cert.Sage Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

/-! ## The network's data, read off the launch memory -/

/-- The input node features. -/
abbrev X0 : SX.Idx → EReal := m ((c : Thread nD τ).loc main_arg0)
/-- Layer l's weight on the aggregated features. -/
def WlK (l : Fin 3) (k j : Fin 128) : EReal := m ((c : Thread nD τ).loc main_arg2) (ix3 l k j)
/-- Layer l's weight on the node's own features. -/
def WrK (l : Fin 3) (k j : Fin 128) : EReal := m ((c : Thread nD τ).loc main_arg4) (ix3 l k j)
/-- Layer l's bias. -/
def bK (l : Fin 3) (j : Fin 128) : EReal := m ((c : Thread nD τ).loc main_arg3) (ix2 l j)
/-- Layer l's γ. -/
def gK (l : Fin 2) (j : Fin 128) : EReal := m ((c : Thread nD τ).loc main_arg5) (ix2 l j)
/-- Layer l's β. -/
def beK (l : Fin 2) (j : Fin 128) : EReal := m ((c : Thread nD τ).loc main_arg6) (ix2 l j)
/-- The aggregation along the launch memory's edge list. -/
abbrev aggK : (SX.Idx → EReal) → SX.Idx → EReal := aggV (v1Of (KWalk.edges m c)) (v3Of (KWalk.edges m c))
/-- The reciprocal degrees of the launch memory's edge list. -/
abbrev dK : SC.Idx → EReal := dinvV (v3Of (KWalk.edges m c))

/-- Row 8t of a [160, 128] array of tile values belongs to tile t. -/
theorem tile_of_row (t : Fin 20) : (⟨(8 * t.val) / 8, by omega⟩ : Fin 20) = t :=
  Fin.ext (by show 8 * t.val / 8 = t.val; omega)

/-! ## Layer 1: the linear stage -/

/-- The six arrays region 0 reads, as the stretch before it leaves them, assemble to the linear stage of the layer's
    input features. -/
theorem lin0_inputs  :
    Sage.linK (V1 (F := Ideal) m ρ c main_v22) (V1 (F := Ideal) m ρ c main_v12) (V1 (F := Ideal) m ρ c main_arg0)
        (fun k j => V1 (F := Ideal) m ρ c main_v24 (ix2 k j)) (fun k j => V1 (F := Ideal) m ρ c main_v28 (ix2 k j))
        (fun j => V1 (F := Ideal) m ρ c main_v29 (ix2 (0 : Fin 1) j))
      = Sage.linK (aggK m c (X0 m c)) (dK m c) (X0 m c) (WlK m c 0) (WrK m c 0) (bK m c 0) := by
  have hA : V1 (F := Ideal) m ρ c main_v22 = aggK m c (X0 m c) := (KStretch0.v22_eq (W0 m ρ c)).trans rfl
  have hD : V1 (F := Ideal) m ρ c main_v12 = dK m c := KWalk.w1_main_v12 m ρ c
  have hX : V1 (F := Ideal) m ρ c main_arg0 = (X0 m c) := KWalk.w1_main_arg0 m ρ c
  have hWl : (fun k j : Fin 128 => V1 (F := Ideal) m ρ c main_v24 (ix2 k j)) = WlK m c 0 :=
    funext fun k => funext fun j => (KStretch0.v24_apply (W0 m ρ c) k j).trans rfl
  have hWr : (fun k j : Fin 128 => V1 (F := Ideal) m ρ c main_v28 (ix2 k j)) = WrK m c 0 :=
    funext fun k => funext fun j => (KStretch0.v28_apply (W0 m ρ c) k j).trans rfl
  have hb : (fun j : Fin 128 => V1 (F := Ideal) m ρ c main_v29 (ix2 (0 : Fin 1) j)) = bK m c 0 :=
    funext fun j => (KStretch0.v29_apply (W0 m ρ c) j).trans rfl
  rw [hA, hD, hX, hWl, hWr, hb]

/-- After region 0 its first output holds the layer's linear stage. -/
theorem lin0_Y  :
    W2 (F := Ideal) m ρ c (Proc.devRef .tc main_v30_0)
      = Sage.linK (aggK m c (X0 m c)) (dK m c) (X0 m c) (WlK m c 0) (WrK m c 0) (bK m c 0) :=
  (W2_arr m ρ c 6).trans ((SageRegion0.out_Y (V1 m ρ) c).trans (lin0_inputs m ρ c ))

/-- After region 0 row q of its second output holds the column sums of tile q / 8 of the linear stage. -/
theorem lin0_S1  (q : Fin 160) (j : Fin 128) :
    W2 (F := Ideal) m ρ c (Proc.devRef .tc main_v30_1) (ix2 q j)
      = Sage.tileSum (Sage.linK (aggK m c (X0 m c)) (dK m c) (X0 m c) (WlK m c 0) (WrK m c 0) (bK m c 0)) ⟨q.val / 8, by omega⟩ j :=
  (congrFun (W2_arr m ρ c 7) (ix2 q j)).trans ((SageRegion0.out_S1 (V1 m ρ) c q j).trans
    (by rw [lin0_inputs m ρ c ]))

/-- After region 0 row q of its third output holds the column sums of squares of tile q / 8 of the linear stage. -/
theorem lin0_S2  (q : Fin 160) (j : Fin 128) :
    W2 (F := Ideal) m ρ c (Proc.devRef .tc main_v30_2) (ix2 q j)
      = Sage.tileSq (Sage.linK (aggK m c (X0 m c)) (dK m c) (X0 m c) (WlK m c 0) (WrK m c 0) (bK m c 0)) ⟨q.val / 8, by omega⟩ j :=
  (congrFun (W2_arr m ρ c 8) (ix2 q j)).trans ((SageRegion0.out_S2 (V1 m ρ) c q j).trans
    (by rw [lin0_inputs m ρ c ]))

/-! ## Layer 1: the normalisation -/

/-- From the linear stage's three outputs to the next layer's features: region 1 applies the affine map whose scale and
    shift the stretch before it computed from the tile sums. -/
theorem bn1 (Y : SX.Idx → EReal)
    (hY : W2 (F := Ideal) m ρ c (Proc.devRef .tc main_v30_0) = Y)
    (hS1 : ∀ (q : Fin 160) (j : Fin 128), W2 (F := Ideal) m ρ c (Proc.devRef .tc main_v30_1) (ix2 q j) = tileSum Y ⟨q.val / 8, by omega⟩ j)
    (hS2 : ∀ (q : Fin 160) (j : Fin 128), W2 (F := Ideal) m ρ c (Proc.devRef .tc main_v30_2) (ix2 q j) = tileSq Y ⟨q.val / 8, by omega⟩ j) :
    W4 (F := Ideal) m ρ c (Proc.devRef .tc main_v59) = bnK Y (gK m c 0) (beK m c 0) := by
  have hg : ∀ j : Fin 128, W2 (F := Ideal) m ρ c (Proc.devRef .tc main_arg5) (ix2 (0 : Fin 2) j) = gK m c 0 j :=
    fun j => congrFun (KWalk.w2_main_arg5 m ρ c) _
  have hbe : ∀ j : Fin 128, W2 (F := Ideal) m ρ c (Proc.devRef .tc main_arg6) (ix2 (0 : Fin 2) j) = beK m c 0 j :=
    fun j => congrFun (KWalk.w2_main_arg6 m ρ c) _
  refine (W4_arr m ρ c 3).trans ?_
  refine (BnRegion1.out_X (V3 m ρ) c).trans ?_
  have e0 : V3 (F := Ideal) m ρ c main_v30_0 = Y := (KStretch1.keep_main_v30_0 (W2 m ρ c)).trans hY
  have e1 : (fun j : Fin 128 => V3 (F := Ideal) m ρ c main_v57 (ix2 (0 : Fin 1) j)) = scaleK Y (gK m c 0) := by
    funext j
    refine (KStretch1.v57_apply (W2 m ρ c) j).trans ?_
    simp only [hS1, hS2, hg, tile_of_row]
    rfl
  have e2 : (fun j : Fin 128 => V3 (F := Ideal) m ρ c main_v58 (ix2 (0 : Fin 1) j)) = shiftK Y (gK m c 0) (beK m c 0) := by
    funext j
    refine (KStretch1.v58_apply (W2 m ρ c) j).trans ?_
    simp only [hS1, hS2, hg, hbe, tile_of_row]
    rfl
  rw [e0, e1, e2]
  rfl

/-! ## Layer 2: the linear stage -/

/-- The six arrays region 2 reads, as the stretch before it leaves them, assemble to the linear stage of the layer's
    input features. -/
theorem lin2_inputs (X : SX.Idx → EReal) (hX1 : W4 (F := Ideal) m ρ c (Proc.devRef .tc main_v59) = X) :
    Sage.linK (V5 (F := Ideal) m ρ c main_v69) (V5 (F := Ideal) m ρ c main_v12) (V5 (F := Ideal) m ρ c main_v59)
        (fun k j => V5 (F := Ideal) m ρ c main_v71 (ix2 k j)) (fun k j => V5 (F := Ideal) m ρ c main_v75 (ix2 k j))
        (fun j => V5 (F := Ideal) m ρ c main_v76 (ix2 (0 : Fin 1) j))
      = Sage.linK (aggK m c X) (dK m c) X (WlK m c 1) (WrK m c 1) (bK m c 1) := by
  have hA : V5 (F := Ideal) m ρ c main_v69 = aggK m c X := by rw [show V5 (F := Ideal) m ρ c main_v69 = _ from KStretch2.v69_eq (W4 m ρ c), KWalk.w4_main_v1 m ρ c, KWalk.w4_main_v3 m ρ c, hX1]
  have hD : V5 (F := Ideal) m ρ c main_v12 = dK m c := (KStretch2.keep_main_v12 (W4 m ρ c)).trans (KWalk.w4_main_v12 m ρ c)
  have hX : V5 (F := Ideal) m ρ c main_v59 = X := (KStretch2.keep_main_v59 (W4 m ρ c)).trans hX1
  have hWl : (fun k j : Fin 128 => V5 (F := Ideal) m ρ c main_v71 (ix2 k j)) = WlK m c 1 :=
    funext fun k => funext fun j => (KStretch2.v71_apply (W4 m ρ c) k j).trans (congrFun (KWalk.w4_main_arg2 m ρ c) _)
  have hWr : (fun k j : Fin 128 => V5 (F := Ideal) m ρ c main_v75 (ix2 k j)) = WrK m c 1 :=
    funext fun k => funext fun j => (KStretch2.v75_apply (W4 m ρ c) k j).trans (congrFun (KWalk.w4_main_arg4 m ρ c) _)
  have hb : (fun j : Fin 128 => V5 (F := Ideal) m ρ c main_v76 (ix2 (0 : Fin 1) j)) = bK m c 1 :=
    funext fun j => (KStretch2.v76_apply (W4 m ρ c) j).trans (congrFun (KWalk.w4_main_arg3 m ρ c) _)
  rw [hA, hD, hX, hWl, hWr, hb]

/-- After region 2 its first output holds the layer's linear stage. -/
theorem lin2_Y (X : SX.Idx → EReal) (hX1 : W4 (F := Ideal) m ρ c (Proc.devRef .tc main_v59) = X) :
    W6 (F := Ideal) m ρ c (Proc.devRef .tc main_v77_0)
      = Sage.linK (aggK m c X) (dK m c) X (WlK m c 1) (WrK m c 1) (bK m c 1) :=
  (W6_arr m ρ c 6).trans ((SageRegion2.out_Y (V5 m ρ) c).trans (lin2_inputs m ρ c X hX1))

/-- After region 2 row q of its second output holds the column sums of tile q / 8 of the linear stage. -/
theorem lin2_S1 (X : SX.Idx → EReal) (hX1 : W4 (F := Ideal) m ρ c (Proc.devRef .tc main_v59) = X) (q : Fin 160) (j : Fin 128) :
    W6 (F := Ideal) m ρ c (Proc.devRef .tc main_v77_1) (ix2 q j)
      = Sage.tileSum (Sage.linK (aggK m c X) (dK m c) X (WlK m c 1) (WrK m c 1) (bK m c 1)) ⟨q.val / 8, by omega⟩ j :=
  (congrFun (W6_arr m ρ c 7) (ix2 q j)).trans ((SageRegion2.out_S1 (V5 m ρ) c q j).trans
    (by rw [lin2_inputs m ρ c X hX1]))

/-- After region 2 row q of its third output holds the column sums of squares of tile q / 8 of the linear stage. -/
theorem lin2_S2 (X : SX.Idx → EReal) (hX1 : W4 (F := Ideal) m ρ c (Proc.devRef .tc main_v59) = X) (q : Fin 160) (j : Fin 128) :
    W6 (F := Ideal) m ρ c (Proc.devRef .tc main_v77_2) (ix2 q j)
      = Sage.tileSq (Sage.linK (aggK m c X) (dK m c) X (WlK m c 1) (WrK m c 1) (bK m c 1)) ⟨q.val / 8, by omega⟩ j :=
  (congrFun (W6_arr m ρ c 8) (ix2 q j)).trans ((SageRegion2.out_S2 (V5 m ρ) c q j).trans
    (by rw [lin2_inputs m ρ c X hX1]))

/-! ## Layer 2: the normalisation -/

/-- From the linear stage's three outputs to the next layer's features: region 3 applies the affine map whose scale and
    shift the stretch before it computed from the tile sums. -/
theorem bn3 (Y : SX.Idx → EReal)
    (hY : W6 (F := Ideal) m ρ c (Proc.devRef .tc main_v77_0) = Y)
    (hS1 : ∀ (q : Fin 160) (j : Fin 128), W6 (F := Ideal) m ρ c (Proc.devRef .tc main_v77_1) (ix2 q j) = tileSum Y ⟨q.val / 8, by omega⟩ j)
    (hS2 : ∀ (q : Fin 160) (j : Fin 128), W6 (F := Ideal) m ρ c (Proc.devRef .tc main_v77_2) (ix2 q j) = tileSq Y ⟨q.val / 8, by omega⟩ j) :
    W8 (F := Ideal) m ρ c (Proc.devRef .tc main_v106) = bnK Y (gK m c 1) (beK m c 1) := by
  have hg : ∀ j : Fin 128, W6 (F := Ideal) m ρ c (Proc.devRef .tc main_arg5) (ix2 (1 : Fin 2) j) = gK m c 1 j :=
    fun j => congrFun (KWalk.w6_main_arg5 m ρ c) _
  have hbe : ∀ j : Fin 128, W6 (F := Ideal) m ρ c (Proc.devRef .tc main_arg6) (ix2 (1 : Fin 2) j) = beK m c 1 j :=
    fun j => congrFun (KWalk.w6_main_arg6 m ρ c) _
  refine (W8_arr m ρ c 3).trans ?_
  refine (BnRegion3.out_X (V7 m ρ) c).trans ?_
  have e0 : V7 (F := Ideal) m ρ c main_v77_0 = Y := (KStretch3.keep_main_v77_0 (W6 m ρ c)).trans hY
  have e1 : (fun j : Fin 128 => V7 (F := Ideal) m ρ c main_v104 (ix2 (0 : Fin 1) j)) = scaleK Y (gK m c 1) := by
    funext j
    refine (KStretch3.v104_apply (W6 m ρ c) j).trans ?_
    simp only [hS1, hS2, hg, tile_of_row]
    rfl
  have e2 : (fun j : Fin 128 => V7 (F := Ideal) m ρ c main_v105 (ix2 (0 : Fin 1) j)) = shiftK Y (gK m c 1) (beK m c 1) := by
    funext j
    refine (KStretch3.v105_apply (W6 m ρ c) j).trans ?_
    simp only [hS1, hS2, hg, hbe, tile_of_row]
    rfl
  rw [e0, e1, e2]
  rfl

/-! ## Layer 3: the linear stage -/

/-- The six arrays region 4 reads, as the stretch before it leaves them, assemble to the linear stage of the layer's
    input features. -/
theorem lin4_inputs (X : SX.Idx → EReal) (hX2 : W8 (F := Ideal) m ρ c (Proc.devRef .tc main_v106) = X) :
    Sage.linK (V9 (F := Ideal) m ρ c main_v116) (V9 (F := Ideal) m ρ c main_v12) (V9 (F := Ideal) m ρ c main_v106)
        (fun k j => V9 (F := Ideal) m ρ c main_v118 (ix2 k j)) (fun k j => V9 (F := Ideal) m ρ c main_v122 (ix2 k j))
        (fun j => V9 (F := Ideal) m ρ c main_v123 (ix2 (0 : Fin 1) j))
      = Sage.linK (aggK m c X) (dK m c) X (WlK m c 2) (WrK m c 2) (bK m c 2) := by
  have hA : V9 (F := Ideal) m ρ c main_v116 = aggK m c X := by rw [show V9 (F := Ideal) m ρ c main_v116 = _ from KStretch4.v116_eq (W8 m ρ c), KWalk.w8_main_v1 m ρ c, KWalk.w8_main_v3 m ρ c, hX2]
  have hD : V9 (F := Ideal) m ρ c main_v12 = dK m c := (KStretch4.keep_main_v12 (W8 m ρ c)).trans (KWalk.w8_main_v12 m ρ c)
  have hX : V9 (F := Ideal) m ρ c main_v106 = X := (KStretch4.keep_main_v106 (W8 m ρ c)).trans hX2
  have hWl : (fun k j : Fin 128 => V9 (F := Ideal) m ρ c main_v118 (ix2 k j)) = WlK m c 2 :=
    funext fun k => funext fun j => (KStretch4.v118_apply (W8 m ρ c) k j).trans (congrFun (KWalk.w8_main_arg2 m ρ c) _)
  have hWr : (fun k j : Fin 128 => V9 (F := Ideal) m ρ c main_v122 (ix2 k j)) = WrK m c 2 :=
    funext fun k => funext fun j => (KStretch4.v122_apply (W8 m ρ c) k j).trans (congrFun (KWalk.w8_main_arg4 m ρ c) _)
  have hb : (fun j : Fin 128 => V9 (F := Ideal) m ρ c main_v123 (ix2 (0 : Fin 1) j)) = bK m c 2 :=
    funext fun j => (KStretch4.v123_apply (W8 m ρ c) j).trans (congrFun (KWalk.w8_main_arg3 m ρ c) _)
  rw [hA, hD, hX, hWl, hWr, hb]

/-- After region 4 its first output holds the layer's linear stage. -/
theorem lin4_Y (X : SX.Idx → EReal) (hX2 : W8 (F := Ideal) m ρ c (Proc.devRef .tc main_v106) = X) :
    W10 (F := Ideal) m ρ c (Proc.devRef .tc main_v124_0)
      = Sage.linK (aggK m c X) (dK m c) X (WlK m c 2) (WrK m c 2) (bK m c 2) :=
  (W10_arr m ρ c 6).trans ((SageRegion4.out_Y (V9 m ρ) c).trans (lin4_inputs m ρ c X hX2))

/-! ## The result -/

/-- The program's result buffer, at the last boundary, holds the network in the affine spelling. -/
theorem value :
    W10 (F := Ideal) m ρ c (Proc.devRef .tc main_v124_0)
      = Sage.netK (aggK m c) (dK m c) (X0 m c) (WlK m c) (WrK m c) (bK m c) (gK m c) (beK m c) := by
  have x1 := bn1 m ρ c _ (lin0_Y m ρ c) (lin0_S1 m ρ c) (lin0_S2 m ρ c)
  have x2 := bn3 m ρ c _ (lin2_Y m ρ c _ x1) (lin2_S1 m ρ c _ x1) (lin2_S2 m ρ c _ x1)
  exact lin4_Y m ρ c _ x2

end Cert.KernelIdeal.KernelValue

end
-- ==== Proof.Bridge.lean ====
/-
  Both programs compute the aggregated neighbour sums and the reciprocal degrees by the same operations on the edge list
  (a gather along the edge sources followed by a scatter-add at the edge targets; one over the clamped in-degree).
  The two spellings, one per program, are the same terms: nothing is evaluated, the terms are compared as written.
-/
import proofs.«148930_j32976758899207_2_alg».proof.Proof.RefDefs
import proofs.«148930_j32976758899207_2_alg».proof.Proof.KHostDefs

noncomputable section

namespace Cert.Bridge

open Idealize.ShloMosaic

/-- The aggregation of the first program is the aggregation of the second. -/
theorem agg_eq (a1 : (⟨Cert.KernelIdeal.S2x1600000, .i32⟩ : BufTy).Contents (Elt Ideal))
    (x : (⟨Cert.KernelIdeal.S100000x128, .f32⟩ : BufTy).Contents (Elt Ideal)) :
    Cert.KernelIdeal.HostVal.aggV (Cert.KernelIdeal.HostVal.v1Of a1) (Cert.KernelIdeal.HostVal.v3Of a1) x
      = Cert.ReferenceIdeal.RefValue.aggR a1 x := rfl

/-- The reciprocal degrees of the first program are those of the second. -/
theorem dinv_eq (a1 : (⟨Cert.KernelIdeal.S2x1600000, .i32⟩ : BufTy).Contents (Elt Ideal)) :
    Cert.KernelIdeal.HostVal.dinvV (Cert.KernelIdeal.HostVal.v3Of a1) = Cert.ReferenceIdeal.RefValue.dinvR a1 := rfl

end Cert.Bridge

end
-- ==== Proof.LibBatchNormVar.lean ====
/-
  The one-pass and two-pass variance on the extended reals.

  For finite values x r over a finite index type of N elements, with S1 = Σ x r and
  S2 = Σ (x r)², the one-pass variance  S2/N − (S1/N)²  equals the two-pass variance
  (Σ (x r − S1/N)²)/N, and both are a nonnegative real. On the extended reals this needs every
  x r finite (⊤ − ⊤ = ⊥ is not 0): the real witnesses are chosen, the coercions pushed outward
  through sums, products and differences, and the identity is then the classical one in ℝ:
  Σ (a − m)² = Σ a² − 2m Σ a + N m², with m = (Σ a)/N.
  The quotient by N is stated in two spellings: as the product with the real 1/N, which is what
  the quotient of an extended real by a nonzero real reduces to, and as that quotient itself.
-/
import proofs.«148930_j32976758899207_2_alg».proof.Proof.LibBatchNorm

noncomputable section

namespace Cert.LibBatchNorm

open Idealize.ShloMosaic
open scoped BigOperators

/-! ## In ℝ -/

/-- Σ (a r − m)² = Σ (a r)² − 2 m Σ a r + N m² over an index type of N elements. -/
theorem real_sum_centered_sq {ι : Type*} [Fintype ι] (a : ι → ℝ) (N : ℝ) (hN : N = (Fintype.card ι : ℝ)) (m : ℝ) :
    ∑ r, (a r - m) * (a r - m) = (∑ r, a r * a r) - 2 * m * (∑ r, a r) + N * (m * m) := by
  have e : ∀ r, (a r - m) * (a r - m) = a r * a r - 2 * m * a r + m * m := fun r => by ring
  simp only [e, Finset.sum_add_distrib, Finset.sum_sub_distrib, ← Finset.mul_sum, Finset.sum_const, Finset.card_univ,
    nsmul_eq_mul, ← hN]
  ring

/-- The variance identity in ℝ: (Σ a²)/N − ((Σ a)/N)² = (Σ (a − (Σ a)/N)²)/N, quotients written as products with 1/N,
    over an index type of N ≠ 0 elements. -/
theorem real_var_identity {ι : Type*} [Fintype ι] (a : ι → ℝ) (N : ℝ) (hN : N = (Fintype.card ι : ℝ)) (hN0 : N ≠ 0) :
    (∑ r, a r * a r) * (1 / N) - ((∑ r, a r) * (1 / N)) * ((∑ r, a r) * (1 / N))
      = (∑ r, (a r - (∑ s, a s) * (1 / N)) * (a r - (∑ s, a s) * (1 / N))) * (1 / N) := by
  rw [real_sum_centered_sq a N hN]; field_simp; ring

/-! ## On the extended reals -/

/-- The variance identity for finite extended reals x r over an index type of N ≠ 0 elements, quotients by N written
    as products with the real 1/N:
    (Σ x²)·(1/N) − ((Σ x)·(1/N))² = (Σ (x − (Σ x)·(1/N))²)·(1/N). -/
theorem var_identity {ι : Type*} [Fintype ι] (x : ι → EReal) (hx : ∀ r, IsReal (x r)) (N : ℝ)
    (hN : N = (Fintype.card ι : ℝ)) (hN0 : N ≠ 0) :
    (∑ r, x r * x r) * ((1 / N : ℝ) : EReal) - ((∑ r, x r) * ((1 / N : ℝ) : EReal)) * ((∑ r, x r) * ((1 / N : ℝ) : EReal))
      = (∑ r, (x r - (∑ s, x s) * ((1 / N : ℝ) : EReal)) * (x r - (∑ s, x s) * ((1 / N : ℝ) : EReal))) * ((1 / N : ℝ) : EReal) := by
  choose a ha using hx
  obtain rfl : x = fun r => (a r : EReal) := funext ha
  simp only [← EReal.coe_mul, ← coe_finset_sum, ← EReal.coe_sub]
  exact congrArg _ (real_var_identity a N hN hN0)

/-- The variance identity with the quotients by the real N ≠ 0 written as quotients:
    (Σ x²)/N − ((Σ x)/N)·((Σ x)/N) = (Σ (x − (Σ x)/N)·(x − (Σ x)/N))/N. -/
theorem var_identity_div {ι : Type*} [Fintype ι] (x : ι → EReal) (hx : ∀ r, IsReal (x r)) (N : ℝ)
    (hN : N = (Fintype.card ι : ℝ)) (hN0 : N ≠ 0) :
    Ideal.div (∑ r, x r * x r) (N : EReal) - Ideal.div (∑ r, x r) (N : EReal) * Ideal.div (∑ r, x r) (N : EReal)
      = Ideal.div (∑ r, (x r - Ideal.div (∑ s, x s) (N : EReal)) * (x r - Ideal.div (∑ s, x s) (N : EReal))) (N : EReal) := by
  simp only [Ideal.div_coe hN0]
  exact var_identity x hx N hN hN0

/-- The mean (Σ x)·(1/N) of finite values is finite. -/
theorem isReal_mean {ι : Type*} [Fintype ι] (x : ι → EReal) (hx : ∀ r, IsReal (x r)) (N : ℝ) :
    IsReal ((∑ r, x r) * ((1 / N : ℝ) : EReal)) :=
  (isReal_sum x hx).mul_coe _

/-- The mean (Σ x)/N of finite values, N a nonzero real, is finite. -/
theorem isReal_mean_div {ι : Type*} [Fintype ι] (x : ι → EReal) (hx : ∀ r, IsReal (x r)) {N : ℝ} (hN0 : N ≠ 0) :
    IsReal (Ideal.div (∑ r, x r) (N : EReal)) :=
  (isReal_sum x hx).div_coe hN0

/-- A mean of squared deviations of finite values from ANY finite centre μ, with a nonnegative real weight c, is a
    nonnegative real: (Σ (x − μ)²)·c = v for a real v ≥ 0. -/
theorem centered_sq_mean_nonneg {ι : Type*} [Fintype ι] (x : ι → EReal) (hx : ∀ r, IsReal (x r)) {μ : EReal}
    (hμ : IsReal μ) {c : ℝ} (hc : 0 ≤ c) :
    ∃ v : ℝ, 0 ≤ v ∧ (∑ r, (x r - μ) * (x r - μ)) * (c : EReal) = (v : EReal) := by
  choose a ha using hx
  obtain rfl : x = fun r => (a r : EReal) := funext ha
  obtain ⟨m, rfl⟩ := hμ
  refine ⟨(∑ r, (a r - m) * (a r - m)) * c, mul_nonneg (Finset.sum_nonneg fun r _ => mul_self_nonneg _) hc, ?_⟩
  simp only [← EReal.coe_mul, ← coe_finset_sum, ← EReal.coe_sub]

/-- The two-pass variance (Σ (x − (Σ x)·(1/N))²)·(1/N) of finite values, N a positive real, is a nonnegative real. -/
theorem var_two_pass_nonneg {ι : Type*} [Fintype ι] (x : ι → EReal) (hx : ∀ r, IsReal (x r)) {N : ℝ} (hN : 0 < N) :
    ∃ v : ℝ, 0 ≤ v ∧
      (∑ r, (x r - (∑ s, x s) * ((1 / N : ℝ) : EReal)) * (x r - (∑ s, x s) * ((1 / N : ℝ) : EReal))) * ((1 / N : ℝ) : EReal)
        = (v : EReal) :=
  centered_sq_mean_nonneg x hx (isReal_mean x hx N) (by positivity)

/-- The two-pass variance (Σ (x − (Σ x)/N)·(x − (Σ x)/N))/N of finite values, N a positive real, is a nonnegative real. -/
theorem var_two_pass_div_nonneg {ι : Type*} [Fintype ι] (x : ι → EReal) (hx : ∀ r, IsReal (x r)) {N : ℝ} (hN : 0 < N) :
    ∃ v : ℝ, 0 ≤ v ∧
      Ideal.div (∑ r, (x r - Ideal.div (∑ s, x s) (N : EReal)) * (x r - Ideal.div (∑ s, x s) (N : EReal))) (N : EReal)
        = (v : EReal) := by
  simp only [Ideal.div_coe hN.ne']
  exact var_two_pass_nonneg x hx hN

/-- The one-pass variance (Σ x²)·(1/N) − ((Σ x)·(1/N))² of finite values over an index type of N > 0 elements is a
    nonnegative real. -/
theorem var_one_pass_nonneg {ι : Type*} [Fintype ι] (x : ι → EReal) (hx : ∀ r, IsReal (x r)) (N : ℝ)
    (hN : N = (Fintype.card ι : ℝ)) (hN0 : 0 < N) :
    ∃ v : ℝ, 0 ≤ v ∧
      (∑ r, x r * x r) * ((1 / N : ℝ) : EReal) - ((∑ r, x r) * ((1 / N : ℝ) : EReal)) * ((∑ r, x r) * ((1 / N : ℝ) : EReal))
        = (v : EReal) := by
  rw [var_identity x hx N hN hN0.ne']
  exact var_two_pass_nonneg x hx hN0

/-- The one-pass variance (Σ x²)/N − ((Σ x)/N)·((Σ x)/N) of finite values over an index type of N > 0 elements is a
    nonnegative real. -/
theorem var_one_pass_div_nonneg {ι : Type*} [Fintype ι] (x : ι → EReal) (hx : ∀ r, IsReal (x r)) (N : ℝ)
    (hN : N = (Fintype.card ι : ℝ)) (hN0 : 0 < N) :
    ∃ v : ℝ, 0 ≤ v ∧
      Ideal.div (∑ r, x r * x r) (N : EReal) - Ideal.div (∑ r, x r) (N : EReal) * Ideal.div (∑ r, x r) (N : EReal)
        = (v : EReal) := by
  simp only [Ideal.div_coe hN0.ne']
  exact var_one_pass_nonneg x hx N hN hN0

/-- With a positive real e added, the reciprocal square root of the two-pass variance of finite values is finite. -/
theorem isReal_rsqrt_var_two_pass_div_add {ι : Type*} [Fintype ι] (x : ι → EReal) (hx : ∀ r, IsReal (x r)) {N : ℝ}
    (hN : 0 < N) {y : EReal} (hy : ∃ e : ℝ, 0 < e ∧ y = (e : EReal)) :
    IsReal (Ideal.rsqrt
      (Ideal.div (∑ r, (x r - Ideal.div (∑ s, x s) (N : EReal)) * (x r - Ideal.div (∑ s, x s) (N : EReal))) (N : EReal) + y)) :=
  isReal_rsqrt_add_of (var_two_pass_div_nonneg x hx hN) hy

/-- With a positive real e added, the reciprocal square root of the one-pass variance of finite values is finite. -/
theorem isReal_rsqrt_var_one_pass_div_add {ι : Type*} [Fintype ι] (x : ι → EReal) (hx : ∀ r, IsReal (x r)) (N : ℝ)
    (hN : N = (Fintype.card ι : ℝ)) (hN0 : 0 < N) {y : EReal} (hy : ∃ e : ℝ, 0 < e ∧ y = (e : EReal)) :
    IsReal (Ideal.rsqrt
      (Ideal.div (∑ r, x r * x r) (N : EReal) - Ideal.div (∑ r, x r) (N : EReal) * Ideal.div (∑ r, x r) (N : EReal) + y)) :=
  isReal_rsqrt_add_of (var_one_pass_div_nonneg x hx N hN hN0) hy

end Cert.LibBatchNorm

end
-- ==== Proof.Algebra.lean ====
/-
  The two spellings of the network agree on finite data.

  * The linear stage: the two orders of adding the bias are one sum (addition on the extended reals is commutative and
    associative; nothing finite is needed).
  * The normalisation: the 20 tile sums of a column add up to the sum over all 100000 rows (the rows 5000·t + r, t < 20,
    r < 5000, are all the rows, each once), so the two means are one number; for finite data the variance E[y²] − E[y]²
    is the mean squared deviation, a nonnegative real, so the clamp at 0 does nothing; and with mean, γ, β and
    rsqrt(var + ε) finite,  y · (γ · s) + (β − mean · (γ · s)) = (y − mean) · s · γ + β  in ℝ.
  * Finite inputs give finite outputs at every stage, so the three layers chain.
-/
import proofs.«148930_j32976758899207_2_alg».proof.Proof.Spec
import proofs.«148930_j32976758899207_2_alg».proof.Proof.LibBatchNormVar

noncomputable section

namespace Cert.Sage

open Idealize.ShloMosaic Idealize.ShloMosaic.ValueIdx Cert.LibBatchNorm
open scoped BigOperators

/-! ## The three float words -/

/-- The word 0x47C35000 denotes the real 100000. -/
theorem cN_eq : cN = ((100000 : ℝ) : EReal) := by
  show Ideal.ofBits .f32 0x47C35000#32 = _
  simp [Ideal.ofBits, Ideal.ieee, -EReal.coe_mul]; norm_num

theorem c0_eq : c0 = 0 := ofBits_f32_zero

theorem cEps_pos : ∃ e : ℝ, 0 < e ∧ cEps = (e : EReal) := ofBits_f32_eps_pos

theorem hundred_thousand_card : (100000 : ℝ) = (Fintype.card (Fin 100000) : ℝ) := by
  rw [Fintype.card_fin]; norm_num

/-! ## The linear stage -/

/-- The two orders of adding the bias agree. -/
theorem linK_eq_linR (A : SX.Idx → EReal) (dinv : SC.Idx → EReal) (x : SX.Idx → EReal)
    (Wl Wr : Fin 128 → Fin 128 → EReal) (b : Fin 128 → EReal) : linK A dinv x Wl Wr b = linR A dinv x Wl Wr b := by
  funext i
  obtain ⟨r, j, rfl⟩ : ∃ (r : Fin 100000) (j : Fin 128), i = ix2 r j := ⟨i 0, i 1, eq_ix2 i⟩
  rw [linK_apply, linR_apply]
  exact add_right_comm _ _ _

/-- Finite operands give a finite linear stage. -/
theorem isReal_linR (A : SX.Idx → EReal) (dinv : SC.Idx → EReal) (x : SX.Idx → EReal)
    (Wl Wr : Fin 128 → Fin 128 → EReal) (b : Fin 128 → EReal) (hA : ∀ i, IsReal (A i)) (hd : ∀ i, IsReal (dinv i))
    (hx : ∀ i, IsReal (x i)) (hWl : ∀ k j, IsReal (Wl k j)) (hWr : ∀ k j, IsReal (Wr k j)) (hb : ∀ j, IsReal (b j)) :
    ∀ i, IsReal (linR A dinv x Wl Wr b i) := by
  intro i
  obtain ⟨r, j, rfl⟩ : ∃ (r : Fin 100000) (j : Fin 128), i = ix2 r j := ⟨i 0, i 1, eq_ix2 i⟩
  rw [linR_apply]
  exact ((isReal_sum _ fun k => ((hA _).mul (hd _)).mul (hWl k j)).add (hb j)).add
    (isReal_sum _ fun k => (hx _).mul (hWr k j))

/-! ## Tiles -/

/-- The rows 5000·t + r are all the rows, each once: a double sum over tiles and rows in a tile is the sum over all rows. -/
theorem sum_tiles (f : Fin 100000 → EReal) : ∑ t : Fin 20, ∑ r : Fin 5000, f (tileRow t r) = ∑ q : Fin 100000, f q := by
  rw [← Fintype.sum_prod_type' (f := fun (t : Fin 20) (r : Fin 5000) => f (tileRow t r))]
  refine Fintype.sum_equiv (finProdFinEquiv (m := 20) (n := 5000)) _ _ (fun x => ?_)
  refine congrArg f (Fin.ext ?_)
  show 5000 * x.1.val + x.2.val = x.2.val + 5000 * x.1.val
  omega

theorem sum_tileSum (Y : SX.Idx → EReal) (j : Fin 128) : ∑ t : Fin 20, tileSum Y t j = ∑ q : Fin 100000, Y (ix2 q j) :=
  sum_tiles fun q => Y (ix2 q j)

theorem sum_tileSq (Y : SX.Idx → EReal) (j : Fin 128) :
    ∑ t : Fin 20, tileSq Y t j = ∑ q : Fin 100000, Y (ix2 q j) * Y (ix2 q j) :=
  sum_tiles fun q => Y (ix2 q j) * Y (ix2 q j)

/-! ## The normalisation -/

/-- The two means are one number. -/
theorem muT_eq_muR (Y : SX.Idx → EReal) (j : Fin 128) : muT (fun t => tileSum Y t j) = muR Y j := by
  unfold muT muR; rw [sum_tileSum]

/-- The mean of a finite column is finite. -/
theorem isReal_muR (Y : SX.Idx → EReal) (hY : ∀ i, IsReal (Y i)) (j : Fin 128) : IsReal (muR Y j) := by
  unfold muR; rw [cN_eq]
  exact isReal_mean_div (fun q : Fin 100000 => Y (ix2 q j)) (fun q => hY _) (by norm_num)

/-- On a finite column the clamped one-pass variance is the mean squared deviation. -/
theorem varT_eq_varR (Y : SX.Idx → EReal) (hY : ∀ i, IsReal (Y i)) (j : Fin 128) :
    varT (fun t => tileSum Y t j) (fun t => tileSq Y t j) = varR Y j := by
  have hcol : ∀ q : Fin 100000, IsReal (Y (ix2 q j)) := fun q => hY _
  unfold varT varR
  rw [muT_eq_muR, sum_tileSq]
  unfold muR
  rw [cN_eq, c0_eq]
  obtain ⟨v, hv, e⟩ := var_one_pass_div_nonneg (fun q : Fin 100000 => Y (ix2 q j)) hcol (100000 : ℝ)
    hundred_thousand_card (by norm_num)
  rw [← var_identity_div (fun q : Fin 100000 => Y (ix2 q j)) hcol (100000 : ℝ) hundred_thousand_card (by norm_num)]
  rw [e]
  exact max_eq_left (EReal.coe_nonneg.2 hv)

/-- rsqrt(var + ε) of a finite column is finite. -/
theorem isReal_rsqrt_varR (Y : SX.Idx → EReal) (hY : ∀ i, IsReal (Y i)) (j : Fin 128) :
    IsReal (Ideal.rsqrt (varR Y j + cEps)) := by
  unfold varR muR; rw [cN_eq]
  exact isReal_rsqrt_var_two_pass_div_add (fun q : Fin 100000 => Y (ix2 q j)) (fun q => hY _) (by norm_num) cEps_pos

/-- The affine and the centred normalisation agree on finite data. -/
theorem bnK_eq_bnR (Y : SX.Idx → EReal) (g be : Fin 128 → EReal) (hY : ∀ i, IsReal (Y i)) (hg : ∀ j, IsReal (g j))
    (hbe : ∀ j, IsReal (be j)) : bnK Y g be = bnR Y g be := by
  funext i
  obtain ⟨r, j, rfl⟩ : ∃ (r : Fin 100000) (j : Fin 128), i = ix2 r j := ⟨i 0, i 1, eq_ix2 i⟩
  show affRelu Y (scaleK Y g) (shiftK Y g be) (ix2 r j) = _
  rw [affRelu_apply, bnR_apply]
  unfold scaleK shiftK shiftT scaleT
  rw [muT_eq_muR, varT_eq_varR Y hY j]
  obtain ⟨y, hy⟩ := hY (ix2 r j)
  obtain ⟨m, hm⟩ := isReal_muR Y hY j
  obtain ⟨s, hs⟩ := isReal_rsqrt_varR Y hY j
  obtain ⟨γ, hγ⟩ := hg j
  obtain ⟨β, hβ⟩ := hbe j
  rw [hy, hm, hs, hγ, hβ]
  refine congrArg (fun z => max z c0) ?_
  simp only [← EReal.coe_mul, ← EReal.coe_add, ← EReal.coe_sub]
  refine congrArg _ ?_
  ring

/-- Finite data give a finite normalised array. -/
theorem isReal_bnR (Y : SX.Idx → EReal) (g be : Fin 128 → EReal) (hY : ∀ i, IsReal (Y i)) (hg : ∀ j, IsReal (g j))
    (hbe : ∀ j, IsReal (be j)) : ∀ i, IsReal (bnR Y g be i) := by
  intro i
  obtain ⟨r, j, rfl⟩ : ∃ (r : Fin 100000) (j : Fin 128), i = ix2 r j := ⟨i 0, i 1, eq_ix2 i⟩
  rw [bnR_apply, c0_eq]
  exact (((((hY _).sub (isReal_muR Y hY j)).mul (isReal_rsqrt_varR Y hY j)).mul (hg j)).add (hbe j)).max isReal_zero

/-! ## The three layers -/

/-- On finite inputs, with an aggregation that keeps finite data finite and finite reciprocal degrees, the two
    spellings of the network are one function. -/
theorem netK_eq_netR (agg : (SX.Idx → EReal) → SX.Idx → EReal) (dinv : SC.Idx → EReal) (x : SX.Idx → EReal)
    (Wl Wr : Fin 3 → Fin 128 → Fin 128 → EReal) (b : Fin 3 → Fin 128 → EReal) (g be : Fin 2 → Fin 128 → EReal)
    (hagg : ∀ y : SX.Idx → EReal, (∀ i, IsReal (y i)) → ∀ i, IsReal (agg y i)) (hd : ∀ i, IsReal (dinv i))
    (hx : ∀ i, IsReal (x i)) (hWl : ∀ l k j, IsReal (Wl l k j)) (hWr : ∀ l k j, IsReal (Wr l k j))
    (hb : ∀ l j, IsReal (b l j)) (hg : ∀ l j, IsReal (g l j)) (hbe : ∀ l j, IsReal (be l j)) :
    netK agg dinv x Wl Wr b g be = netR agg dinv x Wl Wr b g be := by
  have r1 := isReal_linR (agg x) dinv x (Wl 0) (Wr 0) (b 0) (hagg x hx) hd hx (hWl 0) (hWr 0) (hb 0)
  have f1 := bnK_eq_bnR _ (g 0) (be 0) r1 (hg 0) (hbe 0)
  have q1 := isReal_bnR _ (g 0) (be 0) r1 (hg 0) (hbe 0)
  have r2 := isReal_linR (agg _) dinv _ (Wl 1) (Wr 1) (b 1) (hagg _ q1) hd q1 (hWl 1) (hWr 1) (hb 1)
  have f2 := bnK_eq_bnR _ (g 1) (be 1) r2 (hg 1) (hbe 1)
  show linK (agg (bnK (linK (agg (bnK (linK (agg x) dinv x (Wl 0) (Wr 0) (b 0)) (g 0) (be 0))) dinv
      (bnK (linK (agg x) dinv x (Wl 0) (Wr 0) (b 0)) (g 0) (be 0)) (Wl 1) (Wr 1) (b 1)) (g 1) (be 1))) dinv
      (bnK (linK (agg (bnK (linK (agg x) dinv x (Wl 0) (Wr 0) (b 0)) (g 0) (be 0))) dinv
      (bnK (linK (agg x) dinv x (Wl 0) (Wr 0) (b 0)) (g 0) (be 0)) (Wl 1) (Wr 1) (b 1)) (g 1) (be 1)) (Wl 2) (Wr 2) (b 2) = _
  simp only [linK_eq_linR]
  rw [f1, f2]
  rfl

end Cert.Sage

end
-- ==== Proof.PreFinite.lean ====
/-
  From the precondition to finiteness: the predicate "every float input is finite" is one bit, the conjunction over the six
  float inputs of "every entry x has |x| < +∞"; where that bit is 1 every conjunct is 1, so every entry satisfies the
  comparison, and an extended real whose absolute value is below +∞ is a real number.
-/
import proofs.«148930_j32976758899207_2_alg».proof.Pre_finite_inputs
import proofs.«148930_j32976758899207_2_alg».proof.Proof.LibBatchNorm
import Idealize.ShloMosaic.Lib.ReduceAll
import Idealize.ShloMosaic.Lib.ValueIdx
import Idealize.ShloMosaic.Lib.Affine

noncomputable section

namespace Cert.PreFinite

open Idealize.ShloMosaic Cert.Pre_finite_inputs Cert.LibBatchNorm

instance : Subsingleton S_.Idx := ⟨fun a b => funext fun d => d.elim0⟩

/-- One conjunct: where the reduction by "and" of the comparisons |x| < +∞ answers 1, every entry of x is finite. -/
theorem isReal_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ValueIdx.ix0 = 1#1) (i : s.Idx) : IsReal (x i) := by
  have h := Host.reduce_andi_all _ _ hr hu ValueIdx.ix0 e i
  exact isReal_of_cmp_abs_lt_inf h

/-- Where the precondition's bit is 1, every entry of the six float inputs is finite. -/
theorem finite_of_pre [Cert.Pre_finite_inputs.Facts] (a0 : FVec Ideal S100000x128 .f32) (a1 : IVec S2x1600000 32)
    (a2 : FVec Ideal S3x128x128 .f32) (a3 : FVec Ideal S3x128 .f32) (a4 : FVec Ideal S3x128x128 .f32)
    (a5 a6 : FVec Ideal S2x128 .f32) (h : fn (F := Ideal) a0 a1 a2 a3 a4 a5 a6 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) := by
  have h0 := congrFun h ValueIdx.ix0
  dsimp only [fn, fn_part1] at h0
  obtain ⟨h01234, h6⟩ := IntOp.andi_eq_one.1 h0
  obtain ⟨h0123, h5⟩ := IntOp.andi_eq_one.1 h01234
  obtain ⟨h012, h4⟩ := IntOp.andi_eq_one.1 h0123
  obtain ⟨h01, h3⟩ := IntOp.andi_eq_one.1 h012
  obtain ⟨h00, h2⟩ := IntOp.andi_eq_one.1 h01
  exact ⟨isReal_of_all a0 _ _ _ h00, isReal_of_all a2 _ _ _ h2, isReal_of_all a3 _ _ _ h3, isReal_of_all a4 _ _ _ h4,
    isReal_of_all a5 _ _ _ h5, isReal_of_all a6 _ _ _ h6⟩

end Cert.PreFinite

end
-- ==== Proof.lean ====
/-
  A three-layer GraphSAGE (mean aggregation, batch normalisation and max(·, 0) after the first two layers) written as
  five tiled kernels among host operations, against the plain array program.

  Both programs compute, per layer,  y = (A(x) · d) Wl + x Wr + b  with the same aggregated neighbour sums A(x) and
  reciprocal degrees d (the same operations on the edge list in both). They differ in two places: the order in which the
  bias is added (equal by commutativity and associativity of addition on the extended reals), and the normalisation —
  an affine map  y · scale + shift  whose statistics are accumulated per tile of 5000 rows, the variance taken as
  E[y²] − E[y]² and clamped at 0, against  (y − mean) · rsqrt(var + ε) · γ + β  with the variance as the mean squared
  deviation. On the extended reals these agree only where everything is finite (⊤ − ⊤ is not 0), which the precondition
  provides: every float input is finite, sums and products of finite values are finite, and rsqrt of a nonnegative real
  plus the positive real ε is finite.

  The first program's result is read off its run boundary by boundary (KernelValue), the second's operation by
  operation (RefValue); Algebra joins the two spellings; the three frame claims are the programs' runs with the
  results dropped; the idealisation rewrote nothing, so preserves is trivial.
-/
import proofs.«148930_j32976758899207_2_alg».proof.Defs
import proofs.«148930_j32976758899207_2_alg».proof.Proof.Gen.Kernel
import proofs.«148930_j32976758899207_2_alg».proof.Proof.Gen.Kernel.Frame
import proofs.«148930_j32976758899207_2_alg».proof.Proof.Gen.KernelIdeal
import proofs.«148930_j32976758899207_2_alg».proof.Proof.Gen.KernelIdeal.Frame
import proofs.«148930_j32976758899207_2_alg».proof.Proof.Gen.ReferenceIdeal
import proofs.«148930_j32976758899207_2_alg».proof.Proof.Gen.Pre_finite_inputs
import proofs.«148930_j32976758899207_2_alg».proof.Proof.RefRunP
import proofs.«148930_j32976758899207_2_alg».proof.Proof.RefReadP
import proofs.«148930_j32976758899207_2_alg».proof.Proof.RefValue
import proofs.«148930_j32976758899207_2_alg».proof.Proof.RefFinite
import proofs.«148930_j32976758899207_2_alg».proof.Proof.KernelRun
import proofs.«148930_j32976758899207_2_alg».proof.Proof.KernelValue
import proofs.«148930_j32976758899207_2_alg».proof.Proof.Bridge
import proofs.«148930_j32976758899207_2_alg».proof.Proof.Algebra
import proofs.«148930_j32976758899207_2_alg».proof.Proof.PreFinite
import Idealize.ShloMosaic.Adequacy
import Idealize.ShloMosaic.Init

noncomputable section

namespace Cert.Proof

open Idealize.ShloMosaic Idealize.ShloMosaic.TcCoe Idealize.SL.Sem Idealize.ShloMosaic.ValueIdx

/-! ## The three frames and the idealisation -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-! ## The two results are one function of the arguments -/

open Cert.KernelIdeal.KernelValue in
/-- On finite inputs the first program's result, the network in the affine spelling along its own edge list, is the
    network in the centred spelling along the second program's spelling of the same aggregation. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W10 (F := Ideal) m ρ c (Proc.devRef .tc Cert.KernelIdeal.main_v124_0)
      = Sage.netR (Cert.ReferenceIdeal.RefValue.aggR (Cert.KernelIdeal.KWalk.edges m c))
          (Cert.ReferenceIdeal.RefValue.dinvR (Cert.KernelIdeal.KWalk.edges m c)) (X0 m c) (WlK m c) (WrK m c) (bK m c)
          (gK m c) (beK m c) := by
  obtain ⟨h0, h2, h3, h4, h5, h6⟩ := Cert.PreFinite.finite_of_pre _ _ _ _ _ _ _ (hpre c)
  rw [value m ρ c]
  have eagg : aggK m c = Cert.ReferenceIdeal.RefValue.aggR (Cert.KernelIdeal.KWalk.edges m c) :=
    funext fun x => Cert.Bridge.agg_eq _ x
  have ed : dK m c = Cert.ReferenceIdeal.RefValue.dinvR (Cert.KernelIdeal.KWalk.edges m c) := Cert.Bridge.dinv_eq _
  rw [eagg, ed]
  exact Sage.netK_eq_netR _ _ _ _ _ _ _ _ (fun y hy => Cert.ReferenceIdeal.RefFinite.isReal_aggR _ y hy)
    (Cert.ReferenceIdeal.RefFinite.isReal_dinvR _) h0 (fun _ _ _ => h2 _) (fun _ _ _ => h4 _) (fun _ _ => h3 _)
    (fun _ _ => h5 _) (fun _ _ => h6 _)

/-- From memories that agree on the arguments both programs end with the same array: the network in the centred spelling
    of the arguments. -/
theorem algebraic : Cert.algebraic_KernelIdeal_ReferenceIdeal := by
  intro m ρ m' ρ' hpre hagree
  refine ⟨fun c => Sage.netR (Cert.ReferenceIdeal.RefValue.aggR (Cert.KernelIdeal.KWalk.edges m c))
      (Cert.ReferenceIdeal.RefValue.dinvR (Cert.KernelIdeal.KWalk.edges m c)) (Cert.KernelIdeal.KernelValue.X0 m c)
      (Cert.KernelIdeal.KernelValue.WlK m c) (Cert.KernelIdeal.KernelValue.WrK m c) (Cert.KernelIdeal.KernelValue.bK m c)
      (Cert.KernelIdeal.KernelValue.gK m c) (Cert.KernelIdeal.KernelValue.beK m c), ?_, ?_⟩
  · exact (θ_run Cert.KernelIdeal.defs _ _).mono (fun r h c => ⟨(h c).1.trans (kernel_value m ρ hpre c), (h c).2⟩)
      (Cert.KernelIdeal.KernelRun.run_value (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v144_eq, Cert.ReferenceIdeal.RefValue.ref_value, (hagree c).1, (hagree c).2.1,
      (hagree c).2.2.1, (hagree c).2.2.2.1, (hagree c).2.2.2.2.1, (hagree c).2.2.2.2.2.1, (hagree c).2.2.2.2.2.2]
    rfl

/-! ## The claim -/

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
